-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256 .f32) (main_arg10 : FVec F S256x2 .f32) (main_arg11 : FVec F S2 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x2 .f32 := Host.absf main_arg10
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x256 .f32) (main_arg9 : FVec F S256 .f32) (main_arg10 : FVec F S256x2 .f32) (main_arg11 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S50000x128 .f32) (main_arg2 : IVec S2x800000 32) (main_arg3 : IVec S800000 32) (main_arg4 : FVec F S128x256 .f32) (main_arg5 : FVec F S256 .f32) (main_arg6 : FVec F S256x256 .f32) (main_arg7 : FVec F S256 .f32) (main_arg8 : FVec F S256x256 .f32) (main_arg9 : FVec F S256 .f32) (main_arg10 : FVec F S256x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000x1 : Shape := ⟨2, ![2000, 1]⟩
abbrev S850000x256 : Shape := ⟨2, ![850000, 256]⟩
abbrev S256x128 : Shape := ⟨2, ![256, 128]⟩
abbrev S128 : Shape := ⟨1, ![128]⟩
abbrev S1x128 : Shape := ⟨2, ![1, 128]⟩
abbrev S50000x2 : Shape := ⟨2, ![50000, 2]⟩

abbrev nBuf : Space → Nat
  | .hbm => 81
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S50000, .i32⟩
  | .hbm, ⟨17, _⟩ => ⟨S850000, .i32⟩
  | .hbm, ⟨18, _⟩ => ⟨S850000, .i32⟩
  | .hbm, ⟨19, _⟩ => ⟨S_, .f32⟩
  | .hbm, ⟨20, _⟩ => ⟨S850000, .f32⟩
  | .hbm, ⟨21, _⟩ => ⟨S_, .f32⟩
  | .hbm, ⟨22, _⟩ => ⟨S50000, .f32⟩
  | .hbm, ⟨23, _⟩ => ⟨S850000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S128x256, .bf16⟩
  | .hbm, ⟨34, _⟩ => ⟨S1x256, .f32⟩
  | .hbm, ⟨35, _⟩ => ⟨S50000x256, .bf16⟩
  | .hbm, ⟨36, _⟩ => ⟨S50000x256, .bf16⟩
  | .hbm, ⟨37, _⟩ => ⟨S256x256, .bf16⟩
  | .hbm, ⟨38, _⟩ => ⟨S50000x256, .bf16⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000x256, .bf16⟩
  | .hbm, ⟨48, _⟩ => ⟨S850000x256, .f32⟩
  | .hbm, ⟨49, _⟩ => ⟨S_, .f32⟩
  | .hbm, ⟨50, _⟩ => ⟨S50000x256, .f32⟩
  | .hbm, ⟨51, _⟩ => ⟨S850000x1, .i32⟩
  | .hbm, ⟨52, _⟩ => ⟨S50000x256, .f32⟩
  | .hbm, ⟨53, _⟩ => ⟨S1x256, .f32⟩
  | .hbm, ⟨54, _⟩ => ⟨S256x256, .bf16⟩
  | .hbm, ⟨55, _⟩ => ⟨S50000x256, .bf16⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x256, .bf16⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S_, .i32⟩
  | .hbm, ⟨72, _⟩ => ⟨S_, .f32⟩
  | .hbm, ⟨73, _⟩ => ⟨S256x128, .f32⟩
  | .hbm, ⟨74, _⟩ => ⟨S256x128, .bf16⟩
  | .hbm, ⟨75, _⟩ => ⟨S_, .i32⟩
  | .hbm, ⟨76, _⟩ => ⟨S_, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S2000x256, .bf16⟩
  | .local _ .vmem, ⟨7, _⟩ => ⟨S2000x256, .bf16⟩
  | .local _ .vmem, ⟨8, _⟩ => ⟨S2000x256, .bf16⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S256x256, .bf16⟩
  | .local _ .vmem, ⟨13, _⟩ => ⟨S2000x1, .f32⟩
  | .local _ .vmem, ⟨14, _⟩ => ⟨S2000x1, .f32⟩
  | .local _ .vmem, ⟨15, _⟩ => ⟨S2000x256, .bf16⟩
  | .local _ .vmem, ⟨16, _⟩ => ⟨S2000x256, .bf16⟩
  | .local _ .vmem, ⟨17, _⟩ => ⟨S2000x256, .f32⟩
  | .local _ .vmem, ⟨18, _⟩ => ⟨S2000x256, .f32⟩
  | .local _ .vmem, ⟨19, _⟩ => ⟨S2000x1, .f32⟩
  | .local _ .vmem, ⟨20, _⟩ => ⟨S2000x1, .f32⟩
  | .local _ .vmem, ⟨21, _⟩ => ⟨S1x256, .f32⟩
  | .local _ .vmem, ⟨22, _⟩ => ⟨S256x256, .bf16⟩
  | .local _ .vmem, ⟨23, _⟩ => ⟨S2000x256, .bf16⟩
  | .local _ .vmem, ⟨24, _⟩ => ⟨S2000x256, .bf16⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S1x256, .f32⟩
  | .local _ .vmem, ⟨30, _⟩ => ⟨S2000x256, .bf16⟩
  | .local _ .vmem, ⟨31, _⟩ => ⟨S2000x256, .bf16⟩
  | .local _ .vmem, ⟨32, _⟩ => ⟨S256x128, .bf16⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_call1_v0 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_call2_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S50000x256 : S_.BroadcastsInDim S50000x256 (![] : Fin 0 → Fin S50000x256.rank)
  pads_S256x2_S256x128_000_01260 : S256x2.Pads (![0, 0] : Fin 2 → Nat) ![0, 126] ![0, 0] S256x128
  h_S_ : 0 < S_.numel
  pads_S2_S128_01260 : S2.Pads (![0] : Fin 1 → Nat) ![126] ![0] S128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S50000x128_S50000x2_0_0 : S50000x128.Slices ![0, 0] S50000x2
  scatter_S50000_S850000x1_S850000_n_0_0_1_wf : ScatterDims.WF S50000 S850000x1 S850000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .bf16 = 32 ∨ (Rect.block (s := S50000x256) S2000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .bf16 = 32 ∨ (Rect.block (s := S50000x256) S2000x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .bf16 = 32 ∨ (Rect.block (s := S50000x256) S2000x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S256x128.size a
  hwx3_4 : ∀ i : grid3.Coords, EltTy.bits .bf16 = 32 ∨ (Rect.block (s := S256x128) S256x128.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19_1) S2000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v49) S256x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x256 : Shape := ⟨2, ![128, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S50000x256 : Shape := ⟨2, ![50000, 256]⟩
abbrev S1x256 : Shape := ⟨2, ![1, 256]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S50000x2 : Shape := ⟨2, ![50000, 2]⟩
abbrev S1x2 : Shape := ⟨2, ![1, 2]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .i32⟩
  | 4 => ⟨S128x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S_, .f32⟩
  | 22 => ⟨S50000x256, .f32⟩
  | 23 => ⟨S50000x256, .i1⟩
  | 24 => ⟨S_, .f32⟩
  | 25 => ⟨S50000x256, .f32⟩
  | 26 => ⟨S50000x256, .f32⟩
  | 27 => ⟨S50000x256, .f32⟩
  | 28 => ⟨S50000x256, .f32⟩
  | 29 => ⟨S50000, .i32⟩
  | 30 => ⟨S850000, .i32⟩
  | 31 => ⟨S850000, .i32⟩
  | 32 => ⟨S_, .f32⟩
  | 33 => ⟨S850000, .f32⟩
  | 34 => ⟨S_, .f32⟩
  | 35 => ⟨S50000, .f32⟩
  | 36 => ⟨S850000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S50000, .f32⟩
  | 44 => ⟨S50000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S_, .i32⟩
  | 65 => ⟨S850000, .i32⟩
  | 66 => ⟨S850000, .i1⟩
  | 67 => ⟨S_, .i32⟩
  | 68 => ⟨S850000, .i32⟩
  | 69 => ⟨S850000, .i32⟩
  | 70 => ⟨S850000, .i32⟩
  | 71 => ⟨S850000x1, .i32⟩
  | 72 => ⟨S850000x256, .f32⟩
  | 73 => ⟨S850000x1, .f32⟩
  | 74 => ⟨S850000x256, .f32⟩
  | 75 => ⟨S850000x256, .f32⟩
  | 76 => ⟨S_, .f32⟩
  | 77 => ⟨S50000x256, .f32⟩
  | 78 => ⟨S850000x1, .i32⟩
  | 79 => ⟨S50000x256, .f32⟩
  | 80 => ⟨S1x256, .f32⟩
  | 81 => ⟨S50000x256, .f32⟩
  | 82 => ⟨S50000x256, .f32⟩
  | 83 => ⟨S50000x256, .f32⟩
  | 84 => ⟨S50000, .i32⟩
  | 85 => ⟨S850000, .i32⟩
  | 86 => ⟨S850000, .i32⟩
  | 87 => ⟨S_, .f32⟩
  | 88 => ⟨S850000, .f32⟩
  | 89 => ⟨S_, .f32⟩
  | 90 => ⟨S50000, .f32⟩
  | 91 => ⟨S850000x1, .i32⟩
  | 92 => ⟨S50000, .f32⟩
  | 93 => ⟨S_, .f32⟩
  | 94 => ⟨S50000, .f32⟩
  | 95 => ⟨S50000, .i1⟩
  | 96 => ⟨S50000, .f32⟩
  | 97 => ⟨S_, .f32⟩
  | 98 => ⟨S50000, .f32⟩
  | 99 => ⟨S50000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000, .f32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x256, .f32⟩
  | _ => ⟨S50000x128, .f32⟩

abbrev hbmTy0_1 (i : Nat) : BufTy := match i % 128 with
  | 0 => ⟨S850000x1, .f32⟩
  | 1 => ⟨S850000x256, .f32⟩
  | 2 => ⟨S850000x256, .f32⟩
  | 3 => ⟨S_, .f32⟩
  | 4 => ⟨S50000x256, .f32⟩
  | 5 => ⟨S850000x1, .i32⟩
  | 6 => ⟨S50000x256, .f32⟩
  | 7 => ⟨S1x256, .f32⟩
  | 8 => ⟨S50000x256, .f32⟩
  | 9 => ⟨S50000x256, .f32⟩
  | 10 => ⟨S50000x2, .f32⟩
  | 11 => ⟨S1x2, .f32⟩
  | 12 => ⟨S50000x2, .f32⟩
  | 13 => ⟨S50000x2, .f32⟩
  | 14 => ⟨S50000x128, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S_, .f32⟩
  | 21 => ⟨S50000x256, .f32⟩
  | 22 => ⟨S50000x256, .i1⟩
  | 23 => ⟨S_, .f32⟩
  | 24 => ⟨S50000x256, .f32⟩
  | 25 => ⟨S50000x256, .f32⟩
  | 26 => ⟨S50000x256, .f32⟩
  | 27 => ⟨S50000x2, .f32⟩
  | 28 => ⟨S1x2, .f32⟩
  | 29 => ⟨S50000x2, .f32⟩
  | 30 => ⟨S50000x2, .f32⟩
  | 31 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_18 : Ref sig .tc := ⟨.hbm, 119, rfl⟩
abbrev main_v81 : Ref sig .tc := ⟨.hbm, 120, rfl⟩
abbrev main_v82 : Ref sig .tc := ⟨.hbm, 121, rfl⟩
abbrev main_c_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_21 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x2_S50000x2_1_0_0_1_n_n_wf : DotDims.WF S50000x256 S256x2 S50000x2 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The idealized kernel program's run with its result named.

  @main is fifteen segments: host stretches and four kernel regions. Every weakly fair execution terminates without a
  fault; the buffers end at the last segment boundary's contents, a fold of the host operations and of what each
  region's write-backs leave, taken from the launch memory. Read at the result buffer this names the program's value;
  read at the twelve argument arrays it gives them back as launched.
-/
import proofs.«128825_j43533788512795_2_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument array as launched. -/
theorem run_val : θ_run defs (onTc (τ := τ) (main (F := F))) ⟨m, fun _ => 0, ρ⟩ (fun r => ∀ c : Dev nD,
      r.2.mem ((c.tc : Thread nD τ).loc main_v53) = W15 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v53 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c)⟩)

end Cert.KernelIdeal.RunVal

end
-- ==== Proof.KernelStages.lean ====
/-
  The idealized kernel program's host stretches as pure functions of the argument arrays.

  Between its four kernel regions @main runs plain array operations: the edge list's two rows, each followed by the
  numbers 0 … 49999 (one self-loop per node), give the source list `sIdx` and the target list `dIdx`; `deg` counts, per
  node, the list entries that target it; `dis` is the inverse square root of that count where it is positive and zero
  elsewhere, `dis2d` the same as a column; `sNorm` is the source list with negative entries wrapped by 50000;
  `aggr h` sums, per target node, the rows of `h` at the wrapped sources. The weights are narrowed on the way into a
  product (no change on the extended reals), the bias vectors laid out as rows, and the last weight and bias padded
  with zero columns to width 128. Each definition is the printed operations, in the program's own spelling.
-/
import proofs.«128825_j43533788512795_2_alg».proof.Proof.Gen.KernelIdeal
import Idealize.ShloMosaic.PureOps.Ideal

noncomputable section

namespace Cert.KernelIdeal.Stages

open Cert.KernelIdeal Cert.KernelIdeal.Gen Idealize.ShloMosaic

/-- The source list: the edge list's row 0, then 0 … 49999. -/
def sIdx (a2 : IVec S2x800000 32) : IVec S850000 32 :=
  concatenate S850000 0
    [⟨S800000, shapeCast S800000 (extractStridedSlice S1x800000 ![0, 0] a2 slices_S2x800000_S1x800000_0_0) shapeCasts_S1x800000_S800000⟩,
     ⟨S50000, iotaInDim S50000 32 0⟩] concatenates_S800000_S50000_S850000_d0

/-- The target list: the edge list's row 1, then 0 … 49999. -/
def dIdx (a2 : IVec S2x800000 32) : IVec S850000 32 :=
  concatenate S850000 0
    [⟨S800000, shapeCast S800000 (extractStridedSlice S1x800000 ![1, 0] a2 slices_S2x800000_S1x800000_1_0) shapeCasts_S1x800000_S800000⟩,
     ⟨S50000, iotaInDim S50000 32 0⟩] concatenates_S800000_S50000_S850000_d0

/-- The zero vector over the nodes. -/
def zeroN : FVec Ideal S50000 .f32 := broadcastInDim S50000 ![] bcast_S_S50000 (constant (F := Ideal) S_ .f32 0x00000000#32)

/-- The target list as a column of scatter indices. -/
def dCol (a2 : IVec S2x800000 32) : IVec S850000x1 32 := broadcastInDim S850000x1 ![0] bcast_S850000_S850000x1_0 (dIdx a2)

/-- Per node, the number of list entries that target it. -/
def deg (a2 : IVec S2x800000 32) : FVec Ideal S50000 .f32 :=
  Host.scatterAdd (F := Ideal) scatter_S50000_S850000x1_S850000_n_0_0_1 zeroN (dCol a2)
    (broadcastInDim S850000 ![] bcast_S_S850000 (constant (F := Ideal) S_ .f32 0x3F800000#32))

/-- The inverse square root of the degree where it is positive, zero elsewhere. -/
def dis (a2 : IVec S2x800000 32) : FVec Ideal S50000 .f32 :=
  select (cmpf .ogt (deg a2) zeroN) (Host.rsqrt (F := Ideal) (deg a2)) zeroN

/-- The same as a column. -/
def dis2d (a2 : IVec S2x800000 32) : FVec Ideal S50000x1 .f32 := shapeCast S50000x1 (dis a2) shapeCasts_S50000_S50000x1

/-- The source list with negative entries wrapped by the node count. -/
def sNorm (a2 : IVec S2x800000 32) : IVec S850000 32 :=
  select (cmpi .slt (sIdx a2) (broadcastInDim S850000 ![] bcast_S_S850000 (constantI S_ 32 0#32)))
    (addi (sIdx a2) (broadcastInDim S850000 ![] bcast_S_S850000 (constantI S_ 32 50000#32))) (sIdx a2)

/-- Per target node, the sum of the rows of `h` at the wrapped sources of the entries that target it. -/
def aggr (a2 : IVec S2x800000 32) (h : FVec Ideal S50000x256 .bf16) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32)) (dCol a2)
    (extf .f32 (Host.gather gather_S50000x256_S850000x1_S850000x256_1_0_n_n_0_1_1256 h
      (broadcastInDim S850000x1 ![0] bcast_S850000_S850000x1_0 (sNorm a2))) bitsLt_bf16_f32)

/-- A weight matrix narrowed on the way into a product. -/
def narrow {s : Shape} (w : FVec Ideal s .f32) : FVec Ideal s .bf16 := truncf .bf16 w bitsLt_bf16_f32

/-- A bias vector of length 256 as a row. -/
def row256 (b : FVec Ideal S256 .f32) : FVec Ideal S1x256 .f32 := shapeCast S1x256 b shapeCasts_S256_S1x256

/-- The output weight padded with zero columns to width 128, narrowed. -/
def wPad (a10 : FVec Ideal S256x2 .f32) : FVec Ideal S256x128 .bf16 :=
  narrow (pad S256x128 ![0, 0] ![0, 126] ![0, 0] a10 (sitofp (F := Ideal) .f32 (constantI S_ 32 0#32)) pads_S256x2_S256x128_000_01260 h_S_)

/-- The output bias padded with zeros to length 128, as a row. -/
def bPad (a11 : FVec Ideal S2 .f32) : FVec Ideal S1x128 .f32 :=
  shapeCast S1x128 (pad S128 ![0] ![126] ![0] a11 (sitofp (F := Ideal) .f32 (constantI S_ 32 0#32)) pads_S2_S128_01260 h_S_) shapeCasts_S128_S1x128

/-- The first two columns of the padded result. -/
def firstTwo (o : FVec Ideal S50000x128 .f32) : FVec Ideal S50000x2 .f32 := extractStridedSlice S50000x2 ![0, 0] o slices_S50000x128_S50000x2_0_0

end Cert.KernelIdeal.Stages

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.KernelHost.lean ====
/-
  Each host stretch of the idealized kernel program, read at the buffers it writes and at the buffers it leaves alone:
  from any contents `V`, a written buffer holds the stage function of the buffers the stretch reads, and a buffer no
  operation of the stretch writes holds what it held.
-/
import proofs.«128825_j43533788512795_2_alg».proof.Proof.Gen.KernelIdeal.Launch
import proofs.«128825_j43533788512795_2_alg».proof.Proof.KernelStages
import proofs.«128825_j43533788512795_2_alg».proof.Proof.LibCat
import proofs.«128825_j43533788512795_2_alg».proof.Proof.LibTypedRef
import Idealize.ShloMosaic.Lib.StableHlo.Run

noncomputable section

namespace Cert.KernelIdeal.HostVal

open Cert.KernelIdeal Cert.KernelIdeal.Gen Cert.KernelIdeal.Stages Idealize.ShloMosaic Idealize.ShloMosaic.StableHlo

/-- The wrapped source list of a given source list. -/
def sNormOf (s : IVec S850000 32) : IVec S850000 32 :=
  select (cmpi .slt s (broadcastInDim S850000 ![] bcast_S_S850000 (constantI S_ 32 0#32)))
    (addi s (broadcastInDim S850000 ![] bcast_S_S850000 (constantI S_ 32 50000#32))) s

/-- The rows of `h` at the wrapped sources summed per target, for given source and target lists. -/
def aggrOf (s d : IVec S850000 32) (h : FVec Ideal S50000x256 .bf16) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32))
    (broadcastInDim S850000x1 ![0] bcast_S850000_S850000x1_0 d)
    (extf .f32 (Host.gather gather_S50000x256_S850000x1_S850000x256_1_0_n_n_0_1_1256 h
      (broadcastInDim S850000x1 ![0] bcast_S850000_S850000x1_0 (sNormOf s))) bitsLt_bf16_f32)

/-- At the program's own lists this is `aggr`. -/
theorem aggrOf_lists (a2 : IVec S2x800000 32) (h : FVec Ideal S50000x256 .bf16) : aggrOf (sIdx a2) (dIdx a2) h = aggr a2 h := rfl

variable (V : Valuation τ sig (Elt Ideal))

theorem hostOps0_main_v5 : StableHlo.after (hostOps0 (F := Ideal)) V (Proc.devRef .tc main_v5) = sIdx (V (Proc.devRef .tc main_arg2)) := by
  eval_line <;> try rfl

theorem hostOps0_main_v6 : StableHlo.after (hostOps0 (F := Ideal)) V (Proc.devRef .tc main_v6) = dIdx (V (Proc.devRef .tc main_arg2)) := by
  eval_line <;> try rfl

theorem hostOps0_main_v12 : StableHlo.after (hostOps0 (F := Ideal)) V (Proc.devRef .tc main_v12) = cmpf .ogt (deg (V (Proc.devRef .tc main_arg2))) zeroN := by
  eval_line <;> try rfl

theorem hostOps0_main_v13 : StableHlo.after (hostOps0 (F := Ideal)) V (Proc.devRef .tc main_v13) = Host.rsqrt (F := Ideal) (deg (V (Proc.devRef .tc main_arg2))) := by
  eval_line <;> try rfl

theorem hostOps0_main_v14 : StableHlo.after (hostOps0 (F := Ideal)) V (Proc.devRef .tc main_v14) = zeroN := by
  eval_line <;> try rfl

theorem hostOps0_1_main_v15 : StableHlo.after (hostOps0_1 (F := Ideal)) V (Proc.devRef .tc main_v15) = select (V (Proc.devRef .tc main_v12)) (V (Proc.devRef .tc main_v13)) (V (Proc.devRef .tc main_v14)) := by
  eval_line <;> try rfl

theorem hostOps0_2_main_v16 : StableHlo.after (hostOps0_2 (F := Ideal)) V (Proc.devRef .tc main_v16) = shapeCast S50000x1 (V (Proc.devRef .tc main_v15)) shapeCasts_S50000_S50000x1 := by
  eval_line <;> try rfl

theorem hostOps0_2_main_v17 : StableHlo.after (hostOps0_2 (F := Ideal)) V (Proc.devRef .tc main_v17) = narrow (V (Proc.devRef .tc main_arg4)) := by
  eval_line <;> try rfl

theorem hostOps0_2_main_v18 : StableHlo.after (hostOps0_2 (F := Ideal)) V (Proc.devRef .tc main_v18) = row256 (V (Proc.devRef .tc main_arg5)) := by
  eval_line <;> try rfl

theorem hostOps1_main_v20 : StableHlo.after (hostOps1 (F := Ideal)) V (Proc.devRef .tc main_v20) = narrow (V (Proc.devRef .tc main_arg6)) := by
  eval_line <;> try rfl

theorem hostOps2_main_v32 : StableHlo.after (hostOps2 (F := Ideal)) V (Proc.devRef .tc main_v32) = aggrOf (V (Proc.devRef .tc main_v5)) (V (Proc.devRef .tc main_v6)) (V (Proc.devRef .tc main_v21)) := by
  eval_line <;> try rfl

theorem hostOps2_main_v33 : StableHlo.after (hostOps2 (F := Ideal)) V (Proc.devRef .tc main_v33) = row256 (V (Proc.devRef .tc main_arg7)) := by
  eval_line <;> try rfl

theorem hostOps2_main_v34 : StableHlo.after (hostOps2 (F := Ideal)) V (Proc.devRef .tc main_v34) = narrow (V (Proc.devRef .tc main_arg8)) := by
  eval_line <;> try rfl

theorem hostOps3_main_v46 : StableHlo.after (hostOps3 (F := Ideal)) V (Proc.devRef .tc main_v46) = aggrOf (V (Proc.devRef .tc main_v5)) (V (Proc.devRef .tc main_v6)) (V (Proc.devRef .tc main_v35)) := by
  eval_line <;> try rfl

theorem hostOps3_main_v47 : StableHlo.after (hostOps3 (F := Ideal)) V (Proc.devRef .tc main_v47) = row256 (V (Proc.devRef .tc main_arg9)) := by
  eval_line <;> try rfl

theorem hostOps3_main_c_8 : StableHlo.after (hostOps3 (F := Ideal)) V (Proc.devRef .tc main_c_8) = constantI S_ 32 0#32 := by
  eval_line <;> try rfl

theorem hostOps3_1_main_v48 : StableHlo.after (hostOps3_1 (F := Ideal)) V (Proc.devRef .tc main_v48) = pad S256x128 ![0, 0] ![0, 126] ![0, 0] (V (Proc.devRef .tc main_arg10)) (sitofp (F := Ideal) .f32 (V (Proc.devRef .tc main_c_8))) pads_S256x2_S256x128_000_01260 h_S_ := by
  eval_line <;> try rfl

theorem hostOps3_2_main_v49 : StableHlo.after (hostOps3_2 (F := Ideal)) V (Proc.devRef .tc main_v49) = narrow (V (Proc.devRef .tc main_v48)) := by
  eval_line <;> try rfl

theorem hostOps3_2_main_c_9 : StableHlo.after (hostOps3_2 (F := Ideal)) V (Proc.devRef .tc main_c_9) = constantI S_ 32 0#32 := by
  eval_line <;> try rfl

theorem hostOps3_3_main_v50 : StableHlo.after (hostOps3_3 (F := Ideal)) V (Proc.devRef .tc main_v50) = pad S128 ![0] ![126] ![0] (V (Proc.devRef .tc main_arg11)) (sitofp (F := Ideal) .f32 (V (Proc.devRef .tc main_c_9))) pads_S2_S128_01260 h_S_ := by
  eval_line <;> try rfl

theorem hostOps3_4_main_v51 : StableHlo.after (hostOps3_4 (F := Ideal)) V (Proc.devRef .tc main_v51) = shapeCast S1x128 (V (Proc.devRef .tc main_v50)) shapeCasts_S128_S1x128 := by
  eval_line <;> try rfl

theorem hostOps4_main_v53 : StableHlo.after (hostOps4 (F := Ideal)) V (Proc.devRef .tc main_v53) = firstTwo (V (Proc.devRef .tc main_v52)) := by
  eval_line <;> try rfl

theorem hostOps0_keep_main_arg0 : StableHlo.after (hostOps0 (F := Ideal)) V (Proc.devRef .tc main_arg0) = V (Proc.devRef .tc main_arg0) := by
  after_results_simp

theorem hostOps0_keep_main_arg1 : StableHlo.after (hostOps0 (F := Ideal)) V (Proc.devRef .tc main_arg1) = V (Proc.devRef .tc main_arg1) := by
  after_results_simp

theorem hostOps0_keep_main_arg4 : StableHlo.after (hostOps0 (F := Ideal)) V (Proc.devRef .tc main_arg4) = V (Proc.devRef .tc main_arg4) := by
  after_results_simp

theorem hostOps0_keep_main_arg5 : StableHlo.after (hostOps0 (F := Ideal)) V (Proc.devRef .tc main_arg5) = V (Proc.devRef .tc main_arg5) := by
  after_results_simp

theorem hostOps0_keep_main_arg6 : StableHlo.after (hostOps0 (F := Ideal)) V (Proc.devRef .tc main_arg6) = V (Proc.devRef .tc main_arg6) := by
  after_results_simp

theorem hostOps0_keep_main_arg7 : StableHlo.after (hostOps0 (F := Ideal)) V (Proc.devRef .tc main_arg7) = V (Proc.devRef .tc main_arg7) := by
  after_results_simp

theorem hostOps0_keep_main_arg8 : StableHlo.after (hostOps0 (F := Ideal)) V (Proc.devRef .tc main_arg8) = V (Proc.devRef .tc main_arg8) := by
  after_results_simp

theorem hostOps0_keep_main_arg9 : StableHlo.after (hostOps0 (F := Ideal)) V (Proc.devRef .tc main_arg9) = V (Proc.devRef .tc main_arg9) := by
  after_results_simp

theorem hostOps0_keep_main_arg10 : StableHlo.after (hostOps0 (F := Ideal)) V (Proc.devRef .tc main_arg10) = V (Proc.devRef .tc main_arg10) := by
  after_results_simp

theorem hostOps0_keep_main_arg11 : StableHlo.after (hostOps0 (F := Ideal)) V (Proc.devRef .tc main_arg11) = V (Proc.devRef .tc main_arg11) := by
  after_results_simp

theorem hostOps0_1_keep_main_v5 : StableHlo.after (hostOps0_1 (F := Ideal)) V (Proc.devRef .tc main_v5) = V (Proc.devRef .tc main_v5) := by
  after_results_simp

theorem hostOps0_1_keep_main_v6 : StableHlo.after (hostOps0_1 (F := Ideal)) V (Proc.devRef .tc main_v6) = V (Proc.devRef .tc main_v6) := by
  after_results_simp

theorem hostOps0_1_keep_main_arg0 : StableHlo.after (hostOps0_1 (F := Ideal)) V (Proc.devRef .tc main_arg0) = V (Proc.devRef .tc main_arg0) := by
  after_results_simp

theorem hostOps0_1_keep_main_arg1 : StableHlo.after (hostOps0_1 (F := Ideal)) V (Proc.devRef .tc main_arg1) = V (Proc.devRef .tc main_arg1) := by
  after_results_simp

theorem hostOps0_1_keep_main_arg4 : StableHlo.after (hostOps0_1 (F := Ideal)) V (Proc.devRef .tc main_arg4) = V (Proc.devRef .tc main_arg4) := by
  after_results_simp

theorem hostOps0_1_keep_main_arg5 : StableHlo.after (hostOps0_1 (F := Ideal)) V (Proc.devRef .tc main_arg5) = V (Proc.devRef .tc main_arg5) := by
  after_results_simp

theorem hostOps0_1_keep_main_arg6 : StableHlo.after (hostOps0_1 (F := Ideal)) V (Proc.devRef .tc main_arg6) = V (Proc.devRef .tc main_arg6) := by
  after_results_simp

theorem hostOps0_1_keep_main_arg7 : StableHlo.after (hostOps0_1 (F := Ideal)) V (Proc.devRef .tc main_arg7) = V (Proc.devRef .tc main_arg7) := by
  after_results_simp

theorem hostOps0_1_keep_main_arg8 : StableHlo.after (hostOps0_1 (F := Ideal)) V (Proc.devRef .tc main_arg8) = V (Proc.devRef .tc main_arg8) := by
  after_results_simp

theorem hostOps0_1_keep_main_arg9 : StableHlo.after (hostOps0_1 (F := Ideal)) V (Proc.devRef .tc main_arg9) = V (Proc.devRef .tc main_arg9) := by
  after_results_simp

theorem hostOps0_1_keep_main_arg10 : StableHlo.after (hostOps0_1 (F := Ideal)) V (Proc.devRef .tc main_arg10) = V (Proc.devRef .tc main_arg10) := by
  after_results_simp

theorem hostOps0_1_keep_main_arg11 : StableHlo.after (hostOps0_1 (F := Ideal)) V (Proc.devRef .tc main_arg11) = V (Proc.devRef .tc main_arg11) := by
  after_results_simp

theorem hostOps0_2_keep_main_v5 : StableHlo.after (hostOps0_2 (F := Ideal)) V (Proc.devRef .tc main_v5) = V (Proc.devRef .tc main_v5) := by
  after_results_simp

theorem hostOps0_2_keep_main_v6 : StableHlo.after (hostOps0_2 (F := Ideal)) V (Proc.devRef .tc main_v6) = V (Proc.devRef .tc main_v6) := by
  after_results_simp

theorem hostOps0_2_keep_main_arg0 : StableHlo.after (hostOps0_2 (F := Ideal)) V (Proc.devRef .tc main_arg0) = V (Proc.devRef .tc main_arg0) := by
  after_results_simp

theorem hostOps0_2_keep_main_arg1 : StableHlo.after (hostOps0_2 (F := Ideal)) V (Proc.devRef .tc main_arg1) = V (Proc.devRef .tc main_arg1) := by
  after_results_simp

theorem hostOps0_2_keep_main_arg6 : StableHlo.after (hostOps0_2 (F := Ideal)) V (Proc.devRef .tc main_arg6) = V (Proc.devRef .tc main_arg6) := by
  after_results_simp

theorem hostOps0_2_keep_main_arg7 : StableHlo.after (hostOps0_2 (F := Ideal)) V (Proc.devRef .tc main_arg7) = V (Proc.devRef .tc main_arg7) := by
  after_results_simp

theorem hostOps0_2_keep_main_arg8 : StableHlo.after (hostOps0_2 (F := Ideal)) V (Proc.devRef .tc main_arg8) = V (Proc.devRef .tc main_arg8) := by
  after_results_simp

theorem hostOps0_2_keep_main_arg9 : StableHlo.after (hostOps0_2 (F := Ideal)) V (Proc.devRef .tc main_arg9) = V (Proc.devRef .tc main_arg9) := by
  after_results_simp

theorem hostOps0_2_keep_main_arg10 : StableHlo.after (hostOps0_2 (F := Ideal)) V (Proc.devRef .tc main_arg10) = V (Proc.devRef .tc main_arg10) := by
  after_results_simp

theorem hostOps0_2_keep_main_arg11 : StableHlo.after (hostOps0_2 (F := Ideal)) V (Proc.devRef .tc main_arg11) = V (Proc.devRef .tc main_arg11) := by
  after_results_simp

theorem hostOps1_keep_main_v5 : StableHlo.after (hostOps1 (F := Ideal)) V (Proc.devRef .tc main_v5) = V (Proc.devRef .tc main_v5) := by
  after_results_simp

theorem hostOps1_keep_main_v6 : StableHlo.after (hostOps1 (F := Ideal)) V (Proc.devRef .tc main_v6) = V (Proc.devRef .tc main_v6) := by
  after_results_simp

theorem hostOps1_keep_main_v16 : StableHlo.after (hostOps1 (F := Ideal)) V (Proc.devRef .tc main_v16) = V (Proc.devRef .tc main_v16) := by
  after_results_simp

theorem hostOps1_keep_main_v19_0 : StableHlo.after (hostOps1 (F := Ideal)) V (Proc.devRef .tc main_v19_0) = V (Proc.devRef .tc main_v19_0) := by
  after_results_simp

theorem hostOps1_keep_main_v19_1 : StableHlo.after (hostOps1 (F := Ideal)) V (Proc.devRef .tc main_v19_1) = V (Proc.devRef .tc main_v19_1) := by
  after_results_simp

theorem hostOps1_keep_main_arg7 : StableHlo.after (hostOps1 (F := Ideal)) V (Proc.devRef .tc main_arg7) = V (Proc.devRef .tc main_arg7) := by
  after_results_simp

theorem hostOps1_keep_main_arg8 : StableHlo.after (hostOps1 (F := Ideal)) V (Proc.devRef .tc main_arg8) = V (Proc.devRef .tc main_arg8) := by
  after_results_simp

theorem hostOps1_keep_main_arg9 : StableHlo.after (hostOps1 (F := Ideal)) V (Proc.devRef .tc main_arg9) = V (Proc.devRef .tc main_arg9) := by
  after_results_simp

theorem hostOps1_keep_main_arg10 : StableHlo.after (hostOps1 (F := Ideal)) V (Proc.devRef .tc main_arg10) = V (Proc.devRef .tc main_arg10) := by
  after_results_simp

theorem hostOps1_keep_main_arg11 : StableHlo.after (hostOps1 (F := Ideal)) V (Proc.devRef .tc main_arg11) = V (Proc.devRef .tc main_arg11) := by
  after_results_simp

theorem hostOps2_keep_main_v5 : StableHlo.after (hostOps2 (F := Ideal)) V (Proc.devRef .tc main_v5) = V (Proc.devRef .tc main_v5) := by
  after_results_simp

theorem hostOps2_keep_main_v6 : StableHlo.after (hostOps2 (F := Ideal)) V (Proc.devRef .tc main_v6) = V (Proc.devRef .tc main_v6) := by
  after_results_simp

theorem hostOps2_keep_main_v16 : StableHlo.after (hostOps2 (F := Ideal)) V (Proc.devRef .tc main_v16) = V (Proc.devRef .tc main_v16) := by
  after_results_simp

theorem hostOps2_keep_main_v19_1 : StableHlo.after (hostOps2 (F := Ideal)) V (Proc.devRef .tc main_v19_1) = V (Proc.devRef .tc main_v19_1) := by
  after_results_simp

theorem hostOps2_keep_main_arg9 : StableHlo.after (hostOps2 (F := Ideal)) V (Proc.devRef .tc main_arg9) = V (Proc.devRef .tc main_arg9) := by
  after_results_simp

theorem hostOps2_keep_main_arg10 : StableHlo.after (hostOps2 (F := Ideal)) V (Proc.devRef .tc main_arg10) = V (Proc.devRef .tc main_arg10) := by
  after_results_simp

theorem hostOps2_keep_main_arg11 : StableHlo.after (hostOps2 (F := Ideal)) V (Proc.devRef .tc main_arg11) = V (Proc.devRef .tc main_arg11) := by
  after_results_simp

theorem hostOps3_keep_main_v16 : StableHlo.after (hostOps3 (F := Ideal)) V (Proc.devRef .tc main_v16) = V (Proc.devRef .tc main_v16) := by
  after_results_simp

theorem hostOps3_keep_main_v19_1 : StableHlo.after (hostOps3 (F := Ideal)) V (Proc.devRef .tc main_v19_1) = V (Proc.devRef .tc main_v19_1) := by
  after_results_simp

theorem hostOps3_keep_main_arg10 : StableHlo.after (hostOps3 (F := Ideal)) V (Proc.devRef .tc main_arg10) = V (Proc.devRef .tc main_arg10) := by
  after_results_simp

theorem hostOps3_keep_main_arg11 : StableHlo.after (hostOps3 (F := Ideal)) V (Proc.devRef .tc main_arg11) = V (Proc.devRef .tc main_arg11) := by
  after_results_simp

theorem hostOps3_1_keep_main_v16 : StableHlo.after (hostOps3_1 (F := Ideal)) V (Proc.devRef .tc main_v16) = V (Proc.devRef .tc main_v16) := by
  after_results_simp

theorem hostOps3_1_keep_main_v19_1 : StableHlo.after (hostOps3_1 (F := Ideal)) V (Proc.devRef .tc main_v19_1) = V (Proc.devRef .tc main_v19_1) := by
  after_results_simp

theorem hostOps3_1_keep_main_v46 : StableHlo.after (hostOps3_1 (F := Ideal)) V (Proc.devRef .tc main_v46) = V (Proc.devRef .tc main_v46) := by
  after_results_simp

theorem hostOps3_1_keep_main_v47 : StableHlo.after (hostOps3_1 (F := Ideal)) V (Proc.devRef .tc main_v47) = V (Proc.devRef .tc main_v47) := by
  after_results_simp

theorem hostOps3_1_keep_main_arg11 : StableHlo.after (hostOps3_1 (F := Ideal)) V (Proc.devRef .tc main_arg11) = V (Proc.devRef .tc main_arg11) := by
  after_results_simp

theorem hostOps3_2_keep_main_v16 : StableHlo.after (hostOps3_2 (F := Ideal)) V (Proc.devRef .tc main_v16) = V (Proc.devRef .tc main_v16) := by
  after_results_simp

theorem hostOps3_2_keep_main_v19_1 : StableHlo.after (hostOps3_2 (F := Ideal)) V (Proc.devRef .tc main_v19_1) = V (Proc.devRef .tc main_v19_1) := by
  after_results_simp

theorem hostOps3_2_keep_main_v46 : StableHlo.after (hostOps3_2 (F := Ideal)) V (Proc.devRef .tc main_v46) = V (Proc.devRef .tc main_v46) := by
  after_results_simp

theorem hostOps3_2_keep_main_v47 : StableHlo.after (hostOps3_2 (F := Ideal)) V (Proc.devRef .tc main_v47) = V (Proc.devRef .tc main_v47) := by
  after_results_simp

theorem hostOps3_2_keep_main_arg11 : StableHlo.after (hostOps3_2 (F := Ideal)) V (Proc.devRef .tc main_arg11) = V (Proc.devRef .tc main_arg11) := by
  after_results_simp

theorem hostOps3_3_keep_main_v16 : StableHlo.after (hostOps3_3 (F := Ideal)) V (Proc.devRef .tc main_v16) = V (Proc.devRef .tc main_v16) := by
  after_results_simp

theorem hostOps3_3_keep_main_v19_1 : StableHlo.after (hostOps3_3 (F := Ideal)) V (Proc.devRef .tc main_v19_1) = V (Proc.devRef .tc main_v19_1) := by
  after_results_simp

theorem hostOps3_3_keep_main_v46 : StableHlo.after (hostOps3_3 (F := Ideal)) V (Proc.devRef .tc main_v46) = V (Proc.devRef .tc main_v46) := by
  after_results_simp

theorem hostOps3_3_keep_main_v47 : StableHlo.after (hostOps3_3 (F := Ideal)) V (Proc.devRef .tc main_v47) = V (Proc.devRef .tc main_v47) := by
  after_results_simp

theorem hostOps3_3_keep_main_v49 : StableHlo.after (hostOps3_3 (F := Ideal)) V (Proc.devRef .tc main_v49) = V (Proc.devRef .tc main_v49) := by
  after_results_simp

theorem hostOps3_4_keep_main_v16 : StableHlo.after (hostOps3_4 (F := Ideal)) V (Proc.devRef .tc main_v16) = V (Proc.devRef .tc main_v16) := by
  after_results_simp

theorem hostOps3_4_keep_main_v19_1 : StableHlo.after (hostOps3_4 (F := Ideal)) V (Proc.devRef .tc main_v19_1) = V (Proc.devRef .tc main_v19_1) := by
  after_results_simp

theorem hostOps3_4_keep_main_v46 : StableHlo.after (hostOps3_4 (F := Ideal)) V (Proc.devRef .tc main_v46) = V (Proc.devRef .tc main_v46) := by
  after_results_simp

theorem hostOps3_4_keep_main_v47 : StableHlo.after (hostOps3_4 (F := Ideal)) V (Proc.devRef .tc main_v47) = V (Proc.devRef .tc main_v47) := by
  after_results_simp

theorem hostOps3_4_keep_main_v49 : StableHlo.after (hostOps3_4 (F := Ideal)) V (Proc.devRef .tc main_v49) = V (Proc.devRef .tc main_v49) := by
  after_results_simp

end Cert.KernelIdeal.HostVal

end
-- ==== Proof.Gcn.lean ====
/-
  Shared vocabulary for the graph-convolution certificate.

  The node arrays have 50000 rows and every kernel walks them in 25 blocks of 2000 rows. `rowBlock X t` is block `t`
  of an array `X` (rows 2000·t … 2000·t + 1999, all columns); row `i` lies in block `blockOf i = i / 2000` at place
  `placeOf i = i % 2000`. `leaky` is the leaky rectifier on one extended real, spelt as both programs compute it: the
  number itself where it is at least zero, the slope word times the number elsewhere.
-/
import Idealize.ShloMosaic.PureOps.Ideal
import Idealize.ShloMosaic.Lib.ValueIdx

noncomputable section

namespace Cert.Gcn

open Idealize.ShloMosaic Idealize.ShloMosaic.ValueIdx

variable {α : Type} {f : Nat}

/-- Rows `2000·t … 2000·t + 1999` of an array of 50000 rows. -/
def rowBlock (X : (⟨2, ![50000, f]⟩ : Shape).Idx → α) (t : Fin 25) : (⟨2, ![2000, f]⟩ : Shape).Idx → α :=
  fun y => X (ix2 ⟨2000 * t.val + (y 0).val, by have := idx2_lt0 y; have := t.isLt; omega⟩ (y 1))

/-- Entry `(p, q)` of block `t` is entry `(2000·t + p, q)` of the array. -/
theorem rowBlock_apply (X : (⟨2, ![50000, f]⟩ : Shape).Idx → α) (t : Fin 25) (p : Fin 2000) (q : Fin f) :
    rowBlock X t (ix2 p q) = X (ix2 ⟨2000 * t.val + p.val, by have := p.isLt; have := t.isLt; omega⟩ q) := rfl

/-- The block that holds row `i`. -/
def blockOf (i : Fin 50000) : Fin 25 := ⟨i.val / 2000, by have := i.isLt; omega⟩

/-- Row `i`'s place inside its block. -/
def placeOf (i : Fin 50000) : Fin 2000 := ⟨i.val % 2000, Nat.mod_lt _ (by norm_num)⟩

/-- A row is found again in its block at its place. -/
theorem rowBlock_blockOf (X : (⟨2, ![50000, f]⟩ : Shape).Idx → α) (i : Fin 50000) (q : Fin f) :
    rowBlock X (blockOf i) (ix2 (placeOf i) q) = X (ix2 i q) := by
  rw [rowBlock_apply]
  congr 2
  refine Fin.ext ?_
  show 2000 * (i.val / 2000) + i.val % 2000 = i.val
  exact Nat.div_add_mod i.val 2000

/-- The leaky rectifier on one extended real: `y` where `0 ≤ y`, the slope word times `y` elsewhere. -/
def leaky (y : EReal) : EReal :=
  Scalar.select (Ideal.cmp .oge y (Ideal.ofBits .f32 0x00000000#32)) y (Ideal.ofBits .f32 0x3C23D70A#32 * y)

end Cert.Gcn

end
-- ==== Proof.Region0.lean ====
/-
  The first kernel region's two output arrays, each as one function of the region's input arrays.

  The region walks the 50000 node rows in 25 blocks of 2000; each output block is the body's payload of the input blocks
  of the same rows and of the whole weight matrix and bias row. So row `i` of an output is the payload evaluated on
  block `i / 2000`, read at place `i % 2000`.
-/
import proofs.«128825_j43533788512795_2_alg».proof.Proof.Gen.KernelIdeal.Frame
import proofs.«128825_j43533788512795_2_alg».proof.Proof.Gcn
import Idealize.ShloMosaic.Lib.Pipeline.Value
import Idealize.ShloMosaic.Lib.ValueIdx

noncomputable section

namespace Cert.KernelIdeal.RegionVal

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The literal offsets of a whole-block access are the constant zero function. -/
theorem zeroOffsets0 : (![0, 0] : Fin 2 → Nat) = fun _ => 0 := funext fun a => by fin_cases a <;> rfl

/-- The printed index maps over the 25 grid points: a row-blocked window sits at block `(t, 0)`, a window over a
    whole array at block `(0, 0)`. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- A grid point of this kernel as a block number. -/
def pt0 (t : Fin cfg0.N) : Fin 25 := ⟨t.val, by have := t.isLt; have h : cfg0.N = 25 := N_0; omega⟩

/-- Window 0's block at point `t` is row block `t` of its array. -/
theorem iblk0_0 (c : Dev nD) (t : Fin cfg0.N) :
    (iblk0 V c 0 t : Vec Ideal S2000x128 .f32) = rowBlock (V c (Pipeline.arrRef spec0 0) : S50000x128.Idx → EReal) (pt0 t) := by
  funext y
  unfold iblk0
  rw [View.read_apply]
  show (V c (Pipeline.arrRef spec0 0) : S50000x128.Idx → EReal) _ = (V c (Pipeline.arrRef spec0 0) : S50000x128.Idx → EReal) _
  congr 1
  funext a
  apply Fin.ext
  obtain ⟨e0_0, e0_1, e1_0, e1_1, e2_0, e2_1, e3_0, e3_1, e4_0, e4_1, e5_0, e5_1⟩ := index0 t
  match a with
  | ⟨0, _⟩ => show win0_0.index t (0 : Fin 2) * 2000 + 1 * (y 0).val = 2000 * t.val + (y 0).val; rw [e0_0]; omega
  | ⟨1, _⟩ => show win0_0.index t (1 : Fin 2) * 128 + 1 * (y 1).val = (y 1).val; rw [e0_1]; omega

/-- Window 1's block at point `t` is row block `t` of its array. -/
theorem iblk0_1 (c : Dev nD) (t : Fin cfg0.N) :
    (iblk0 V c 1 t : Vec Ideal S2000x128 .f32) = rowBlock (V c (Pipeline.arrRef spec0 1) : S50000x128.Idx → EReal) (pt0 t) := by
  funext y
  unfold iblk0
  rw [View.read_apply]
  show (V c (Pipeline.arrRef spec0 1) : S50000x128.Idx → EReal) _ = (V c (Pipeline.arrRef spec0 1) : S50000x128.Idx → EReal) _
  congr 1
  funext a
  apply Fin.ext
  obtain ⟨e0_0, e0_1, e1_0, e1_1, e2_0, e2_1, e3_0, e3_1, e4_0, e4_1, e5_0, e5_1⟩ := index0 t
  match a with
  | ⟨0, _⟩ => show win0_1.index t (0 : Fin 2) * 2000 + 1 * (y 0).val = 2000 * t.val + (y 0).val; rw [e1_0]; omega
  | ⟨1, _⟩ => show win0_1.index t (1 : Fin 2) * 128 + 1 * (y 1).val = (y 1).val; rw [e1_1]; omega

/-- Window 2's block at every point is its whole array. -/
theorem iblk0_2 (c : Dev nD) (t : Fin cfg0.N) :
    (iblk0 V c 2 t : Vec Ideal S128x256 .bf16) = (V c (Pipeline.arrRef spec0 2) : S128x256.Idx → EReal) := by
  funext y
  unfold iblk0
  rw [View.read_apply]
  show (V c (Pipeline.arrRef spec0 2) : S128x256.Idx → EReal) _ = (V c (Pipeline.arrRef spec0 2) : S128x256.Idx → EReal) _
  congr 1
  funext a
  apply Fin.ext
  obtain ⟨e0_0, e0_1, e1_0, e1_1, e2_0, e2_1, e3_0, e3_1, e4_0, e4_1, e5_0, e5_1⟩ := index0 t
  match a with
  | ⟨0, _⟩ => show win0_2.index t (0 : Fin 2) * 128 + 1 * (y 0).val = (y 0).val; rw [e2_0]; omega
  | ⟨1, _⟩ => show win0_2.index t (1 : Fin 2) * 256 + 1 * (y 1).val = (y 1).val; rw [e2_1]; omega

/-- Window 3's block at every point is its whole array. -/
theorem iblk0_3 (c : Dev nD) (t : Fin cfg0.N) :
    (iblk0 V c 3 t : Vec Ideal S1x256 .f32) = (V c (Pipeline.arrRef spec0 3) : S1x256.Idx → EReal) := by
  funext y
  unfold iblk0
  rw [View.read_apply]
  show (V c (Pipeline.arrRef spec0 3) : S1x256.Idx → EReal) _ = (V c (Pipeline.arrRef spec0 3) : S1x256.Idx → EReal) _
  congr 1
  funext a
  apply Fin.ext
  obtain ⟨e0_0, e0_1, e1_0, e1_1, e2_0, e2_1, e3_0, e3_1, e4_0, e4_1, e5_0, e5_1⟩ := index0 t
  match a with
  | ⟨0, _⟩ => show win0_3.index t (0 : Fin 2) * 1 + 1 * (y 0).val = (y 0).val; rw [e3_0]; omega
  | ⟨1, _⟩ => show win0_3.index t (1 : Fin 2) * 256 + 1 * (y 1).val = (y 1).val; rw [e3_1]; omega

/-- The first output array as one function of the first feature array, the weight matrix and the bias row: row `i` is
    the body's first payload on block `i / 2000` of the features, read at place `i % 2000`. -/
def G0_4 (X : S50000x128.Idx → EReal) (W : S128x256.Idx → EReal) (b : S1x256.Idx → EReal) : S50000x256.Idx → EReal :=
  fun i => k0_pay3 (F := Ideal) (rowBlock X (blockOf (i 0))) W b (ix2 (placeOf (i 0)) (i 1))

/-- One element: the body's payload on block `n` of the inputs, read at place `j`, is `G0_4` at the array index
    `(2000·n + j₀, j₁)`. -/
theorem point0_4 (X : S50000x128.Idx → EReal) (W : S128x256.Idx → EReal) (b : S1x256.Idx → EReal) (n : Fin 25)
    (j : S2000x256.Idx) (i : S50000x256.Idx) (hi0 : (i 0).val = 2000 * n.val + (j 0).val) (hi1 : (i 1).val = (j 1).val) :
    k0_pay3 (F := Ideal) (rowBlock X n) W b j = G0_4 X W b i := by
  have hj : (j 0).val < 2000 := idx2_lt0 j
  have hb : blockOf (i 0) = n := Fin.ext (by show (i 0).val / 2000 = n.val; omega)
  have hp : placeOf (i 0) = j 0 := Fin.ext (by show (i 0).val % 2000 = (j 0).val; omega)
  have h1 : i 1 = j 1 := Fin.ext hi1
  unfold G0_4
  rw [hb, hp, h1]
  exact congrArg (k0_pay3 (F := Ideal) (rowBlock X n) W b) (eq_ix2 j)

/-- What point `t` writes back to window 4's array is block `t` of `G0_4` of the region's input arrays. -/
theorem flushed0_4 (c : Dev nD) (t : Fin cfg0.N) :
    (dat0 (F := Ideal) V c).flushed 4 t = ((cfg0.win 4).blk t).view.read (Elt Ideal)
      (G0_4 (V c (Pipeline.arrRef spec0 0)) (V c (Pipeline.arrRef spec0 2)) (V c (Pipeline.arrRef spec0 3))) := by
  show (cfg0.win 4).cut (grid0.coords t) ((dat0 (F := Ideal) V c).after 4 t) = _
  rw [after0_4]
  unfold out0_4
  rw [View.canon_unit_zero zeroOffsets0]
  simp only [View.ld_unit_zero (S := S2000x128) zeroOffsets0, View.ld_unit_zero (S := S128x256) zeroOffsets0, View.ld_unit_zero (S := S1x256) zeroOffsets0]
  rw [iblk0_0, iblk0_2, iblk0_3]
  funext j
  rw [View.read_apply]
  obtain ⟨e0_0, e0_1, e1_0, e1_1, e2_0, e2_1, e3_0, e3_1, e4_0, e4_1, e5_0, e5_1⟩ := index0 t
  refine point0_4 _ _ _ (pt0 t) j _ ?_ ?_
  · show win0_4.index t (0 : Fin 2) * 2000 + 1 * (j 0).val = 2000 * t.val + (j 0).val; rw [e4_0]; omega
  · show win0_4.index t (1 : Fin 2) * 256 + 1 * (j 1).val = (j 1).val; rw [e4_1]; omega

/-- An index of window 4's array lies in point `t`'s block iff each coordinate lies in the block's range on its axis. -/
theorem mem_blk0_4 (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v19_0).slice (win0_4.rect t)).set ↔ _
  rw [View.set_slice_whole, Rect.mem_set_unit]
  exact Iff.rfl

/-- Every index of window 4's array lies in the block of the point `i₀ / 2000`, which writes back. -/
theorem covered0_4 (i : S50000x256.Idx) :
    ∃ t : Fin cfg0.N, (cfg0.win 4).flush t = true ∧ i ∈ ((cfg0.win 4).blk t).view.set := by
  have hi0 : (i 0).val < 50000 := idx2_lt0 i
  have hi1 : (i 1).val < 256 := idx2_lt1 i
  have hN : cfg0.N = 25 := N_0
  obtain ⟨t, ht⟩ : ∃ t : Fin cfg0.N, t.val = (i 0).val / 2000 := ⟨⟨(i 0).val / 2000, by rw [hN]; omega⟩, rfl⟩
  refine ⟨t, flush0_4 t, ?_⟩
  rw [mem_blk0_4]
  obtain ⟨e0_0, e0_1, e1_0, e1_1, e2_0, e2_1, e3_0, e3_1, e4_0, e4_1, e5_0, e5_1⟩ := index0 t
  intro a
  match a with
  | ⟨0, _⟩ =>
    show win0_4.index t (0 : Fin 2) * 2000 ≤ (i 0).val ∧ (i 0).val < win0_4.index t (0 : Fin 2) * 2000 + 2000
    rw [e4_0, ht]; omega
  | ⟨1, _⟩ =>
    show win0_4.index t (1 : Fin 2) * 256 ≤ (i 1).val ∧ (i 1).val < win0_4.index t (1 : Fin 2) * 256 + 256
    rw [e4_1]; omega

/-- THE ARRAY of window 4 after the region: `G0_4` of the region's input arrays. -/
theorem arr0_4 (c : Dev nD) : (dat0 (F := Ideal) V c).arrAt 4 cfg0.N
    = G0_4 (V c (Pipeline.arrRef spec0 0)) (V c (Pipeline.arrRef spec0 2)) (V c (Pipeline.arrRef spec0 3)) :=
  (dat0 (F := Ideal) V c).arrAt_eq_of_cover 4
    (G0_4 (V c (Pipeline.arrRef spec0 0)) (V c (Pipeline.arrRef spec0 2)) (V c (Pipeline.arrRef spec0 3)))
    (fun t _ => flushed0_4 V c t) covered0_4

/-- The second output array as one function of the two feature arrays, the weight matrix and the bias row: row `i` is
    the body's second payload on block `i / 2000` of both feature arrays, read at place `i % 2000`. -/
def G0_5 (X0 : S50000x128.Idx → EReal) (X1 : S50000x128.Idx → EReal) (W : S128x256.Idx → EReal) (b : S1x256.Idx → EReal) : S50000x256.Idx → EReal :=
  fun i => k0_pay4 (F := Ideal) (rowBlock X0 (blockOf (i 0))) (rowBlock X1 (blockOf (i 0))) W b (ix2 (placeOf (i 0)) (i 1))

/-- One element: the body's payload on block `n` of the inputs, read at place `j`, is `G0_5` at the array index
    `(2000·n + j₀, j₁)`. -/
theorem point0_5 (X0 : S50000x128.Idx → EReal) (X1 : S50000x128.Idx → EReal) (W : S128x256.Idx → EReal) (b : S1x256.Idx → EReal) (n : Fin 25)
    (j : S2000x256.Idx) (i : S50000x256.Idx) (hi0 : (i 0).val = 2000 * n.val + (j 0).val) (hi1 : (i 1).val = (j 1).val) :
    k0_pay4 (F := Ideal) (rowBlock X0 n) (rowBlock X1 n) W b j = G0_5 X0 X1 W b i := by
  have hj : (j 0).val < 2000 := idx2_lt0 j
  have hb : blockOf (i 0) = n := Fin.ext (by show (i 0).val / 2000 = n.val; omega)
  have hp : placeOf (i 0) = j 0 := Fin.ext (by show (i 0).val % 2000 = (j 0).val; omega)
  have h1 : i 1 = j 1 := Fin.ext hi1
  unfold G0_5
  rw [hb, hp, h1]
  exact congrArg (k0_pay4 (F := Ideal) (rowBlock X0 n) (rowBlock X1 n) W b) (eq_ix2 j)

/-- What point `t` writes back to window 5's array is block `t` of `G0_5` of the region's input arrays. -/
theorem flushed0_5 (c : Dev nD) (t : Fin cfg0.N) :
    (dat0 (F := Ideal) V c).flushed 5 t = ((cfg0.win 5).blk t).view.read (Elt Ideal)
      (G0_5 (V c (Pipeline.arrRef spec0 0)) (V c (Pipeline.arrRef spec0 1)) (V c (Pipeline.arrRef spec0 2)) (V c (Pipeline.arrRef spec0 3))) := by
  show (cfg0.win 5).cut (grid0.coords t) ((dat0 (F := Ideal) V c).after 5 t) = _
  rw [after0_5]
  unfold out0_5
  rw [View.canon_unit_zero zeroOffsets0]
  simp only [View.ld_unit_zero (S := S2000x128) zeroOffsets0, View.ld_unit_zero (S := S128x256) zeroOffsets0, View.ld_unit_zero (S := S1x256) zeroOffsets0]
  rw [iblk0_0, iblk0_1, iblk0_2, iblk0_3]
  funext j
  rw [View.read_apply]
  obtain ⟨e0_0, e0_1, e1_0, e1_1, e2_0, e2_1, e3_0, e3_1, e4_0, e4_1, e5_0, e5_1⟩ := index0 t
  refine point0_5 _ _ _ _ (pt0 t) j _ ?_ ?_
  · show win0_5.index t (0 : Fin 2) * 2000 + 1 * (j 0).val = 2000 * t.val + (j 0).val; rw [e5_0]; omega
  · show win0_5.index t (1 : Fin 2) * 256 + 1 * (j 1).val = (j 1).val; rw [e5_1]; omega

/-- An index of window 5's array lies in point `t`'s block iff each coordinate lies in the block's range on its axis. -/
theorem mem_blk0_5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v19_1).slice (win0_5.rect t)).set ↔ _
  rw [View.set_slice_whole, Rect.mem_set_unit]
  exact Iff.rfl

/-- Every index of window 5's array lies in the block of the point `i₀ / 2000`, which writes back. -/
theorem covered0_5 (i : S50000x256.Idx) :
    ∃ t : Fin cfg0.N, (cfg0.win 5).flush t = true ∧ i ∈ ((cfg0.win 5).blk t).view.set := by
  have hi0 : (i 0).val < 50000 := idx2_lt0 i
  have hi1 : (i 1).val < 256 := idx2_lt1 i
  have hN : cfg0.N = 25 := N_0
  obtain ⟨t, ht⟩ : ∃ t : Fin cfg0.N, t.val = (i 0).val / 2000 := ⟨⟨(i 0).val / 2000, by rw [hN]; omega⟩, rfl⟩
  refine ⟨t, flush0_5 t, ?_⟩
  rw [mem_blk0_5]
  obtain ⟨e0_0, e0_1, e1_0, e1_1, e2_0, e2_1, e3_0, e3_1, e4_0, e4_1, e5_0, e5_1⟩ := index0 t
  intro a
  match a with
  | ⟨0, _⟩ =>
    show win0_5.index t (0 : Fin 2) * 2000 ≤ (i 0).val ∧ (i 0).val < win0_5.index t (0 : Fin 2) * 2000 + 2000
    rw [e5_0, ht]; omega
  | ⟨1, _⟩ =>
    show win0_5.index t (1 : Fin 2) * 256 ≤ (i 1).val ∧ (i 1).val < win0_5.index t (1 : Fin 2) * 256 + 256
    rw [e5_1]; omega

/-- THE ARRAY of window 5 after the region: `G0_5` of the region's input arrays. -/
theorem arr0_5 (c : Dev nD) : (dat0 (F := Ideal) V c).arrAt 5 cfg0.N
    = G0_5 (V c (Pipeline.arrRef spec0 0)) (V c (Pipeline.arrRef spec0 1)) (V c (Pipeline.arrRef spec0 2)) (V c (Pipeline.arrRef spec0 3)) :=
  (dat0 (F := Ideal) V c).arrAt_eq_of_cover 5
    (G0_5 (V c (Pipeline.arrRef spec0 0)) (V c (Pipeline.arrRef spec0 1)) (V c (Pipeline.arrRef spec0 2)) (V c (Pipeline.arrRef spec0 3)))
    (fun t _ => flushed0_5 V c t) covered0_5

end Cert.KernelIdeal.RegionVal

end
-- ==== Proof.Region1.lean ====
/-
  The second kernel region's output array as one function of the region's input arrays.
-/
import proofs.«128825_j43533788512795_2_alg».proof.Proof.Gen.KernelIdeal.Frame
import proofs.«128825_j43533788512795_2_alg».proof.Proof.Gcn
import Idealize.ShloMosaic.Lib.Pipeline.Value
import Idealize.ShloMosaic.Lib.ValueIdx

noncomputable section

namespace Cert.KernelIdeal.RegionVal

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The literal offsets of a whole-block access are the constant zero function. -/
theorem zeroOffsets1 : (![0, 0] : Fin 2 → Nat) = fun _ => 0 := funext fun a => by fin_cases a <;> rfl

/-- The second kernel's output array as one function of its three input arrays: row `i` of the output is the
    payload of the body evaluated on block `i / 2000` of the node features, the whole weight matrix and block
    `i / 2000` of the degree column, read at place `i % 2000`. -/
def G1_3 (X : S50000x256.Idx → EReal) (W : S256x256.Idx → EReal) (D : S50000x1.Idx → EReal) : S50000x256.Idx → EReal :=
  fun i => k1_pay1 (F := Ideal) (rowBlock X (blockOf (i 0))) W (rowBlock D (blockOf (i 0))) (ix2 (placeOf (i 0)) (i 1))

/-- The printed index maps over the 25 grid points: the two row-blocked inputs and the output sit at block
    `(t, 0)`, the weight matrix at block `(0, 0)`. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- A grid point of the second kernel as a block number. -/
def pt1 (t : Fin cfg1.N) : Fin 25 := ⟨t.val, by have := t.isLt; have h : cfg1.N = 25 := N_1; omega⟩

/-- The node-feature window's block at point `t` is row block `t` of its array. -/
theorem iblk1_0 (c : Dev nD) (t : Fin cfg1.N) :
    (iblk1 V c 0 t : Vec Ideal S2000x256 .bf16) = rowBlock (V c (Pipeline.arrRef spec1 0) : S50000x256.Idx → EReal) (pt1 t) := by
  funext y
  unfold iblk1
  rw [View.read_apply]
  show (V c (Pipeline.arrRef spec1 0) : S50000x256.Idx → EReal) _ = (V c (Pipeline.arrRef spec1 0) : S50000x256.Idx → EReal) _
  congr 1
  funext a
  apply Fin.ext
  obtain ⟨e0, e1, -⟩ := index1 t
  match a with
  | ⟨0, _⟩ => show win1_0.index t (0 : Fin 2) * 2000 + 1 * (y 0).val = 2000 * t.val + (y 0).val; rw [e0]; omega
  | ⟨1, _⟩ => show win1_0.index t (1 : Fin 2) * 256 + 1 * (y 1).val = (y 1).val; rw [e1]; omega

/-- The weight window's block at every point is its whole array. -/
theorem iblk1_1 (c : Dev nD) (t : Fin cfg1.N) :
    (iblk1 V c 1 t : Vec Ideal S256x256 .bf16) = (V c (Pipeline.arrRef spec1 1) : S256x256.Idx → EReal) := by
  funext y
  unfold iblk1
  rw [View.read_apply]
  show (V c (Pipeline.arrRef spec1 1) : S256x256.Idx → EReal) _ = (V c (Pipeline.arrRef spec1 1) : S256x256.Idx → EReal) _
  congr 1
  funext a
  apply Fin.ext
  obtain ⟨-, -, e0, e1, -⟩ := index1 t
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- The degree-column window's block at point `t` is row block `t` of its array. -/
theorem iblk1_2 (c : Dev nD) (t : Fin cfg1.N) :
    (iblk1 V c 2 t : Vec Ideal S2000x1 .f32) = rowBlock (V c (Pipeline.arrRef spec1 2) : S50000x1.Idx → EReal) (pt1 t) := by
  funext y
  unfold iblk1
  rw [View.read_apply]
  show (V c (Pipeline.arrRef spec1 2) : S50000x1.Idx → EReal) _ = (V c (Pipeline.arrRef spec1 2) : S50000x1.Idx → EReal) _
  congr 1
  funext a
  apply Fin.ext
  obtain ⟨-, -, -, -, e0, e1, -⟩ := index1 t
  match a with
  | ⟨0, _⟩ => show win1_2.index t (0 : Fin 2) * 2000 + 1 * (y 0).val = 2000 * t.val + (y 0).val; rw [e0]; omega
  | ⟨1, _⟩ => show win1_2.index t (1 : Fin 2) * 1 + 1 * (y 1).val = (y 1).val; rw [e1]; omega

/-- One element: the body's payload on block `n` of the inputs, read at place `j`, is `G1_3` at the array index
    `(2000·n + j₀, j₁)`. -/
theorem point1 (X : S50000x256.Idx → EReal) (W : S256x256.Idx → EReal) (D : S50000x1.Idx → EReal) (n : Fin 25)
    (j : S2000x256.Idx) (i : S50000x256.Idx) (hi0 : (i 0).val = 2000 * n.val + (j 0).val) (hi1 : (i 1).val = (j 1).val) :
    k1_pay1 (F := Ideal) (rowBlock X n) W (rowBlock D n) j = G1_3 X W D i := by
  have hj : (j 0).val < 2000 := idx2_lt0 j
  have hb : blockOf (i 0) = n := Fin.ext (by show (i 0).val / 2000 = n.val; omega)
  have hp : placeOf (i 0) = j 0 := Fin.ext (by show (i 0).val % 2000 = (j 0).val; omega)
  have h1 : i 1 = j 1 := Fin.ext hi1
  unfold G1_3
  rw [hb, hp, h1]
  exact congrArg (k1_pay1 (F := Ideal) (rowBlock X n) W (rowBlock D n)) (eq_ix2 j)

/-- What point `t` writes back is block `t` of `G1_3` of the region's input arrays. -/
theorem flushed1_3 (c : Dev nD) (t : Fin cfg1.N) :
    (dat1 (F := Ideal) V c).flushed 3 t = ((cfg1.win 3).blk t).view.read (Elt Ideal)
      (G1_3 (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero zeroOffsets1]
  simp only [View.ld_unit_zero (S := S2000x256) zeroOffsets1, View.ld_unit_zero (S := S256x256) zeroOffsets1,
    View.ld_unit_zero (S := S2000x1) zeroOffsets1]
  rw [iblk1_0, iblk1_1, iblk1_2]
  funext j
  rw [View.read_apply]
  obtain ⟨-, -, -, -, -, -, e0, e1⟩ := index1 t
  refine point1 _ _ _ (pt1 t) j _ ?_ ?_
  · show win1_3.index t (0 : Fin 2) * 2000 + 1 * (j 0).val = 2000 * t.val + (j 0).val; rw [e0]; omega
  · show win1_3.index t (1 : Fin 2) * 256 + 1 * (j 1).val = (j 1).val; rw [e1]; omega

/-- An index of the output array lies in point `t`'s block iff each coordinate lies in the block's range on its axis. -/
theorem mem_blk1_3 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v21).slice (win1_3.rect t)).set ↔ _
  rw [View.set_slice_whole, Rect.mem_set_unit]
  exact Iff.rfl

/-- Every index of the output array lies in the block of the point `i₀ / 2000`, which writes back. -/
theorem covered1_3 (i : S50000x256.Idx) :
    ∃ t : Fin cfg1.N, (cfg1.win 3).flush t = true ∧ i ∈ ((cfg1.win 3).blk t).view.set := by
  have hi0 : (i 0).val < 50000 := idx2_lt0 i
  have hi1 : (i 1).val < 256 := idx2_lt1 i
  have hN : cfg1.N = 25 := N_1
  obtain ⟨t, ht⟩ : ∃ t : Fin cfg1.N, t.val = (i 0).val / 2000 := ⟨⟨(i 0).val / 2000, by rw [hN]; omega⟩, rfl⟩
  refine ⟨t, flush1_3 t, ?_⟩
  rw [mem_blk1_3]
  obtain ⟨-, -, -, -, -, -, e0, e1⟩ := index1 t
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 256 ≤ (i 1).val ∧ (i 1).val < win1_3.index t (1 : Fin 2) * 256 + 256
    rw [e1]; omega

/-- THE ARRAY after the region: `G1_3` of the region's input arrays. -/
theorem arr1_3 (c : Dev nD) : (dat1 (F := Ideal) V c).arrAt 3 cfg1.N
    = G1_3 (V c (Pipeline.arrRef spec1 0)) (V c (Pipeline.arrRef spec1 1)) (V c (Pipeline.arrRef spec1 2)) :=
  (dat1 (F := Ideal) V c).arrAt_eq_of_cover 3
    (G1_3 (V c (Pipeline.arrRef spec1 0)) (V c (Pipeline.arrRef spec1 1)) (V c (Pipeline.arrRef spec1 2)))
    (fun t _ => flushed1_3 V c t) covered1_3

end Cert.KernelIdeal.RegionVal

end
-- ==== Proof.Region2.lean ====
/-
  The third kernel region's output array as one function of the region's input arrays.

  The region walks the 50000 node rows in 25 blocks of 2000; each output block is the body's payload of the blocks of the
  same rows of the aggregated features and of the degree column, and of the whole bias row and weight matrix. So row `i`
  of the output is the payload evaluated on block `i / 2000`, read at place `i % 2000`.
-/
import proofs.«128825_j43533788512795_2_alg».proof.Proof.Gen.KernelIdeal.Frame
import proofs.«128825_j43533788512795_2_alg».proof.Proof.Gcn
import Idealize.ShloMosaic.Lib.Pipeline.Value
import Idealize.ShloMosaic.Lib.ValueIdx

noncomputable section

namespace Cert.KernelIdeal.RegionVal

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The literal offsets of a whole-block access are the constant zero function. -/
theorem zeroOffsets2 : (![0, 0] : Fin 2 → Nat) = fun _ => 0 := funext fun a => by fin_cases a <;> rfl

/-- The printed index maps over the 25 grid points: a row-blocked window sits at block `(t, 0)`, a window over a
    whole array at block `(0, 0)`. -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- A grid point of this kernel as a block number. -/
def pt2 (t : Fin cfg2.N) : Fin 25 := ⟨t.val, by have := t.isLt; have h : cfg2.N = 25 := N_2; omega⟩

/-- Window 0's block at point `t` is row block `t` of its array. -/
theorem iblk2_0 (c : Dev nD) (t : Fin cfg2.N) :
    (iblk2 V c 0 t : Vec Ideal S2000x256 .f32) = rowBlock (V c (Pipeline.arrRef spec2 0) : S50000x256.Idx → EReal) (pt2 t) := by
  funext y
  unfold iblk2
  rw [View.read_apply]
  show (V c (Pipeline.arrRef spec2 0) : S50000x256.Idx → EReal) _ = (V c (Pipeline.arrRef spec2 0) : S50000x256.Idx → EReal) _
  congr 1
  funext a
  apply Fin.ext
  obtain ⟨e0_0, e0_1, e1_0, e1_1, e2_0, e2_1, e3_0, e3_1, e4_0, e4_1⟩ := index2 t
  match a with
  | ⟨0, _⟩ => show win2_0.index t (0 : Fin 2) * 2000 + 1 * (y 0).val = 2000 * t.val + (y 0).val; rw [e0_0]; omega
  | ⟨1, _⟩ => show win2_0.index t (1 : Fin 2) * 256 + 1 * (y 1).val = (y 1).val; rw [e0_1]; omega

/-- Window 1's block at point `t` is row block `t` of its array. -/
theorem iblk2_1 (c : Dev nD) (t : Fin cfg2.N) :
    (iblk2 V c 1 t : Vec Ideal S2000x1 .f32) = rowBlock (V c (Pipeline.arrRef spec2 1) : S50000x1.Idx → EReal) (pt2 t) := by
  funext y
  unfold iblk2
  rw [View.read_apply]
  show (V c (Pipeline.arrRef spec2 1) : S50000x1.Idx → EReal) _ = (V c (Pipeline.arrRef spec2 1) : S50000x1.Idx → EReal) _
  congr 1
  funext a
  apply Fin.ext
  obtain ⟨e0_0, e0_1, e1_0, e1_1, e2_0, e2_1, e3_0, e3_1, e4_0, e4_1⟩ := index2 t
  match a with
  | ⟨0, _⟩ => show win2_1.index t (0 : Fin 2) * 2000 + 1 * (y 0).val = 2000 * t.val + (y 0).val; rw [e1_0]; omega
  | ⟨1, _⟩ => show win2_1.index t (1 : Fin 2) * 1 + 1 * (y 1).val = (y 1).val; rw [e1_1]; omega

/-- Window 2's block at every point is its whole array. -/
theorem iblk2_2 (c : Dev nD) (t : Fin cfg2.N) :
    (iblk2 V c 2 t : Vec Ideal S1x256 .f32) = (V c (Pipeline.arrRef spec2 2) : S1x256.Idx → EReal) := by
  funext y
  unfold iblk2
  rw [View.read_apply]
  show (V c (Pipeline.arrRef spec2 2) : S1x256.Idx → EReal) _ = (V c (Pipeline.arrRef spec2 2) : S1x256.Idx → EReal) _
  congr 1
  funext a
  apply Fin.ext
  obtain ⟨e0_0, e0_1, e1_0, e1_1, e2_0, e2_1, e3_0, e3_1, e4_0, e4_1⟩ := index2 t
  match a with
  | ⟨0, _⟩ => show win2_2.index t (0 : Fin 2) * 1 + 1 * (y 0).val = (y 0).val; rw [e2_0]; omega
  | ⟨1, _⟩ => show win2_2.index t (1 : Fin 2) * 256 + 1 * (y 1).val = (y 1).val; rw [e2_1]; omega

/-- Window 3's block at every point is its whole array. -/
theorem iblk2_3 (c : Dev nD) (t : Fin cfg2.N) :
    (iblk2 V c 3 t : Vec Ideal S256x256 .bf16) = (V c (Pipeline.arrRef spec2 3) : S256x256.Idx → EReal) := by
  funext y
  unfold iblk2
  rw [View.read_apply]
  show (V c (Pipeline.arrRef spec2 3) : S256x256.Idx → EReal) _ = (V c (Pipeline.arrRef spec2 3) : S256x256.Idx → EReal) _
  congr 1
  funext a
  apply Fin.ext
  obtain ⟨e0_0, e0_1, e1_0, e1_1, e2_0, e2_1, e3_0, e3_1, e4_0, e4_1⟩ := index2 t
  match a with
  | ⟨0, _⟩ => show win2_3.index t (0 : Fin 2) * 256 + 1 * (y 0).val = (y 0).val; rw [e3_0]; omega
  | ⟨1, _⟩ => show win2_3.index t (1 : Fin 2) * 256 + 1 * (y 1).val = (y 1).val; rw [e3_1]; omega

/-- The output array as one function of the aggregated features `R`, the degree column `D`, the bias row `b` and the
    weight matrix `W`: row `i` is the body's payload on block `i / 2000` of `D` and of `R`, read at place `i % 2000`. -/
def G2_4 (R : S50000x256.Idx → EReal) (D : S50000x1.Idx → EReal) (b : S1x256.Idx → EReal) (W : S256x256.Idx → EReal) : S50000x256.Idx → EReal :=
  fun i => k2_pay1 (F := Ideal) (rowBlock D (blockOf (i 0))) (rowBlock R (blockOf (i 0))) b W (ix2 (placeOf (i 0)) (i 1))

/-- One element: the body's payload on block `n` of the inputs, read at place `j`, is `G2_4` at the array index
    `(2000·n + j₀, j₁)`. -/
theorem point2_4 (R : S50000x256.Idx → EReal) (D : S50000x1.Idx → EReal) (b : S1x256.Idx → EReal) (W : S256x256.Idx → EReal) (n : Fin 25)
    (j : S2000x256.Idx) (i : S50000x256.Idx) (hi0 : (i 0).val = 2000 * n.val + (j 0).val) (hi1 : (i 1).val = (j 1).val) :
    k2_pay1 (F := Ideal) (rowBlock D n) (rowBlock R n) b W j = G2_4 R D b W i := by
  have hj : (j 0).val < 2000 := idx2_lt0 j
  have hb : blockOf (i 0) = n := Fin.ext (by show (i 0).val / 2000 = n.val; omega)
  have hp : placeOf (i 0) = j 0 := Fin.ext (by show (i 0).val % 2000 = (j 0).val; omega)
  have h1 : i 1 = j 1 := Fin.ext hi1
  unfold G2_4
  rw [hb, hp, h1]
  exact congrArg (k2_pay1 (F := Ideal) (rowBlock D n) (rowBlock R n) b W) (eq_ix2 j)

/-- What point `t` writes back to window 4's array is block `t` of `G2_4` of the region's input arrays. -/
theorem flushed2_4 (c : Dev nD) (t : Fin cfg2.N) :
    (dat2 (F := Ideal) V c).flushed 4 t = ((cfg2.win 4).blk t).view.read (Elt Ideal)
      (G2_4 (V c (Pipeline.arrRef spec2 0)) (V c (Pipeline.arrRef spec2 1)) (V c (Pipeline.arrRef spec2 2)) (V c (Pipeline.arrRef spec2 3))) := by
  show (cfg2.win 4).cut (grid2.coords t) ((dat2 (F := Ideal) V c).after 4 t) = _
  rw [after2_4]
  unfold out2_4
  rw [View.canon_unit_zero zeroOffsets2]
  simp only [View.ld_unit_zero (S := S2000x1) zeroOffsets2, View.ld_unit_zero (S := S2000x256) zeroOffsets2, View.ld_unit_zero (S := S1x256) zeroOffsets2, View.ld_unit_zero (S := S256x256) zeroOffsets2]
  rw [iblk2_0, iblk2_1, iblk2_2, iblk2_3]
  funext j
  rw [View.read_apply]
  obtain ⟨e0_0, e0_1, e1_0, e1_1, e2_0, e2_1, e3_0, e3_1, e4_0, e4_1⟩ := index2 t
  refine point2_4 _ _ _ _ (pt2 t) j _ ?_ ?_
  · show win2_4.index t (0 : Fin 2) * 2000 + 1 * (j 0).val = 2000 * t.val + (j 0).val; rw [e4_0]; omega
  · show win2_4.index t (1 : Fin 2) * 256 + 1 * (j 1).val = (j 1).val; rw [e4_1]; omega

/-- An index of window 4's array lies in point `t`'s block iff each coordinate lies in the block's range on its axis. -/
theorem mem_blk2_4 (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v35).slice (win2_4.rect t)).set ↔ _
  rw [View.set_slice_whole, Rect.mem_set_unit]
  exact Iff.rfl

/-- Every index of window 4's array lies in the block of the point `i₀ / 2000`, which writes back. -/
theorem covered2_4 (i : S50000x256.Idx) :
    ∃ t : Fin cfg2.N, (cfg2.win 4).flush t = true ∧ i ∈ ((cfg2.win 4).blk t).view.set := by
  have hi0 : (i 0).val < 50000 := idx2_lt0 i
  have hi1 : (i 1).val < 256 := idx2_lt1 i
  have hN : cfg2.N = 25 := N_2
  obtain ⟨t, ht⟩ : ∃ t : Fin cfg2.N, t.val = (i 0).val / 2000 := ⟨⟨(i 0).val / 2000, by rw [hN]; omega⟩, rfl⟩
  refine ⟨t, flush2_4 t, ?_⟩
  rw [mem_blk2_4]
  obtain ⟨e0_0, e0_1, e1_0, e1_1, e2_0, e2_1, e3_0, e3_1, e4_0, e4_1⟩ := index2 t
  intro a
  match a with
  | ⟨0, _⟩ =>
    show win2_4.index t (0 : Fin 2) * 2000 ≤ (i 0).val ∧ (i 0).val < win2_4.index t (0 : Fin 2) * 2000 + 2000
    rw [e4_0, ht]; omega
  | ⟨1, _⟩ =>
    show win2_4.index t (1 : Fin 2) * 256 ≤ (i 1).val ∧ (i 1).val < win2_4.index t (1 : Fin 2) * 256 + 256
    rw [e4_1]; omega

/-- THE ARRAY of window 4 after the region: `G2_4` of the region's input arrays. -/
theorem arr2_4 (c : Dev nD) : (dat2 (F := Ideal) V c).arrAt 4 cfg2.N
    = G2_4 (V c (Pipeline.arrRef spec2 0)) (V c (Pipeline.arrRef spec2 1)) (V c (Pipeline.arrRef spec2 2)) (V c (Pipeline.arrRef spec2 3)) :=
  (dat2 (F := Ideal) V c).arrAt_eq_of_cover 4
    (G2_4 (V c (Pipeline.arrRef spec2 0)) (V c (Pipeline.arrRef spec2 1)) (V c (Pipeline.arrRef spec2 2)) (V c (Pipeline.arrRef spec2 3)))
    (fun t _ => flushed2_4 V c t) covered2_4

end Cert.KernelIdeal.RegionVal

end
-- ==== Proof.Region3.lean ====
/-
  The fourth kernel region's output array as one function of the region's input arrays.

  The region walks the 50000 node rows in 25 blocks of 2000; each output block is the body's payload of the blocks of the
  same rows of the aggregated features, of the degree column and of the carried feature array, and of the whole bias
  rows and weight matrix. So row `i` of the output is the payload evaluated on block `i / 2000`, read at place `i % 2000`.
-/
import proofs.«128825_j43533788512795_2_alg».proof.Proof.Gen.KernelIdeal.Frame
import proofs.«128825_j43533788512795_2_alg».proof.Proof.Gcn
import Idealize.ShloMosaic.Lib.Pipeline.Value
import Idealize.ShloMosaic.Lib.ValueIdx

noncomputable section

namespace Cert.KernelIdeal.RegionVal

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The literal offsets of a whole-block access are the constant zero function. -/
theorem zeroOffsets3 : (![0, 0] : Fin 2 → Nat) = fun _ => 0 := funext fun a => by fin_cases a <;> rfl

/-- The printed index maps over the 25 grid points: a row-blocked window sits at block `(t, 0)`, a window over a
    whole array at block `(0, 0)`. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A grid point of this kernel as a block number. -/
def pt3 (t : Fin cfg3.N) : Fin 25 := ⟨t.val, by have := t.isLt; have h : cfg3.N = 25 := N_3; omega⟩

/-- Window 0's block at point `t` is row block `t` of its array. -/
theorem iblk3_0 (c : Dev nD) (t : Fin cfg3.N) :
    (iblk3 V c 0 t : Vec Ideal S2000x256 .f32) = rowBlock (V c (Pipeline.arrRef spec3 0) : S50000x256.Idx → EReal) (pt3 t) := by
  funext y
  unfold iblk3
  rw [View.read_apply]
  show (V c (Pipeline.arrRef spec3 0) : S50000x256.Idx → EReal) _ = (V c (Pipeline.arrRef spec3 0) : S50000x256.Idx → EReal) _
  congr 1
  funext a
  apply Fin.ext
  obtain ⟨e0_0, e0_1, e1_0, e1_1, e2_0, e2_1, e3_0, e3_1, e4_0, e4_1, e5_0, e5_1, e6_0, e6_1⟩ := index3 t
  match a with
  | ⟨0, _⟩ => show win3_0.index t (0 : Fin 2) * 2000 + 1 * (y 0).val = 2000 * t.val + (y 0).val; rw [e0_0]; omega
  | ⟨1, _⟩ => show win3_0.index t (1 : Fin 2) * 256 + 1 * (y 1).val = (y 1).val; rw [e0_1]; omega

/-- Window 1's block at point `t` is row block `t` of its array. -/
theorem iblk3_1 (c : Dev nD) (t : Fin cfg3.N) :
    (iblk3 V c 1 t : Vec Ideal S2000x1 .f32) = rowBlock (V c (Pipeline.arrRef spec3 1) : S50000x1.Idx → EReal) (pt3 t) := by
  funext y
  unfold iblk3
  rw [View.read_apply]
  show (V c (Pipeline.arrRef spec3 1) : S50000x1.Idx → EReal) _ = (V c (Pipeline.arrRef spec3 1) : S50000x1.Idx → EReal) _
  congr 1
  funext a
  apply Fin.ext
  obtain ⟨e0_0, e0_1, e1_0, e1_1, e2_0, e2_1, e3_0, e3_1, e4_0, e4_1, e5_0, e5_1, e6_0, e6_1⟩ := index3 t
  match a with
  | ⟨0, _⟩ => show win3_1.index t (0 : Fin 2) * 2000 + 1 * (y 0).val = 2000 * t.val + (y 0).val; rw [e1_0]; omega
  | ⟨1, _⟩ => show win3_1.index t (1 : Fin 2) * 1 + 1 * (y 1).val = (y 1).val; rw [e1_1]; omega

/-- Window 2's block at every point is its whole array. -/
theorem iblk3_2 (c : Dev nD) (t : Fin cfg3.N) :
    (iblk3 V c 2 t : Vec Ideal S1x256 .f32) = (V c (Pipeline.arrRef spec3 2) : S1x256.Idx → EReal) := by
  funext y
  unfold iblk3
  rw [View.read_apply]
  show (V c (Pipeline.arrRef spec3 2) : S1x256.Idx → EReal) _ = (V c (Pipeline.arrRef spec3 2) : S1x256.Idx → EReal) _
  congr 1
  funext a
  apply Fin.ext
  obtain ⟨e0_0, e0_1, e1_0, e1_1, e2_0, e2_1, e3_0, e3_1, e4_0, e4_1, e5_0, e5_1, e6_0, e6_1⟩ := index3 t
  match a with
  | ⟨0, _⟩ => show win3_2.index t (0 : Fin 2) * 1 + 1 * (y 0).val = (y 0).val; rw [e2_0]; omega
  | ⟨1, _⟩ => show win3_2.index t (1 : Fin 2) * 256 + 1 * (y 1).val = (y 1).val; rw [e2_1]; omega

/-- Window 3's block at point `t` is row block `t` of its array. -/
theorem iblk3_3 (c : Dev nD) (t : Fin cfg3.N) :
    (iblk3 V c 3 t : Vec Ideal S2000x256 .bf16) = rowBlock (V c (Pipeline.arrRef spec3 3) : S50000x256.Idx → EReal) (pt3 t) := by
  funext y
  unfold iblk3
  rw [View.read_apply]
  show (V c (Pipeline.arrRef spec3 3) : S50000x256.Idx → EReal) _ = (V c (Pipeline.arrRef spec3 3) : S50000x256.Idx → EReal) _
  congr 1
  funext a
  apply Fin.ext
  obtain ⟨e0_0, e0_1, e1_0, e1_1, e2_0, e2_1, e3_0, e3_1, e4_0, e4_1, e5_0, e5_1, e6_0, e6_1⟩ := index3 t
  match a with
  | ⟨0, _⟩ => show win3_3.index t (0 : Fin 2) * 2000 + 1 * (y 0).val = 2000 * t.val + (y 0).val; rw [e3_0]; omega
  | ⟨1, _⟩ => show win3_3.index t (1 : Fin 2) * 256 + 1 * (y 1).val = (y 1).val; rw [e3_1]; omega

/-- Window 4's block at every point is its whole array. -/
theorem iblk3_4 (c : Dev nD) (t : Fin cfg3.N) :
    (iblk3 V c 4 t : Vec Ideal S256x128 .bf16) = (V c (Pipeline.arrRef spec3 4) : S256x128.Idx → EReal) := by
  funext y
  unfold iblk3
  rw [View.read_apply]
  show (V c (Pipeline.arrRef spec3 4) : S256x128.Idx → EReal) _ = (V c (Pipeline.arrRef spec3 4) : S256x128.Idx → EReal) _
  congr 1
  funext a
  apply Fin.ext
  obtain ⟨e0_0, e0_1, e1_0, e1_1, e2_0, e2_1, e3_0, e3_1, e4_0, e4_1, e5_0, e5_1, e6_0, e6_1⟩ := index3 t
  match a with
  | ⟨0, _⟩ => show win3_4.index t (0 : Fin 2) * 256 + 1 * (y 0).val = (y 0).val; rw [e4_0]; omega
  | ⟨1, _⟩ => show win3_4.index t (1 : Fin 2) * 128 + 1 * (y 1).val = (y 1).val; rw [e4_1]; omega

/-- Window 5's block at every point is its whole array. -/
theorem iblk3_5 (c : Dev nD) (t : Fin cfg3.N) :
    (iblk3 V c 5 t : Vec Ideal S1x128 .f32) = (V c (Pipeline.arrRef spec3 5) : S1x128.Idx → EReal) := by
  funext y
  unfold iblk3
  rw [View.read_apply]
  show (V c (Pipeline.arrRef spec3 5) : S1x128.Idx → EReal) _ = (V c (Pipeline.arrRef spec3 5) : S1x128.Idx → EReal) _
  congr 1
  funext a
  apply Fin.ext
  obtain ⟨e0_0, e0_1, e1_0, e1_1, e2_0, e2_1, e3_0, e3_1, e4_0, e4_1, e5_0, e5_1, e6_0, e6_1⟩ := index3 t
  match a with
  | ⟨0, _⟩ => show win3_5.index t (0 : Fin 2) * 1 + 1 * (y 0).val = (y 0).val; rw [e5_0]; omega
  | ⟨1, _⟩ => show win3_5.index t (1 : Fin 2) * 128 + 1 * (y 1).val = (y 1).val; rw [e5_1]; omega

/-- The output array as one function of the aggregated features `R`, the degree column `D`, the bias row `b`, the
    carried features `M`, the last weight matrix `Wp` and its bias row `bp`: row `i` is the body's payload on block
    `i / 2000` of `D`, of `R` and of `M`, read at place `i % 2000`. -/
def G3_6 (R : S50000x256.Idx → EReal) (D : S50000x1.Idx → EReal) (b : S1x256.Idx → EReal) (M : S50000x256.Idx → EReal) (Wp : S256x128.Idx → EReal) (bp : S1x128.Idx → EReal) : S50000x128.Idx → EReal :=
  fun i => k3_pay1 (F := Ideal) (rowBlock D (blockOf (i 0))) (rowBlock R (blockOf (i 0))) b (rowBlock M (blockOf (i 0))) Wp bp (ix2 (placeOf (i 0)) (i 1))

/-- One element: the body's payload on block `n` of the inputs, read at place `j`, is `G3_6` at the array index
    `(2000·n + j₀, j₁)`. -/
theorem point3_6 (R : S50000x256.Idx → EReal) (D : S50000x1.Idx → EReal) (b : S1x256.Idx → EReal) (M : S50000x256.Idx → EReal) (Wp : S256x128.Idx → EReal) (bp : S1x128.Idx → EReal) (n : Fin 25)
    (j : S2000x128.Idx) (i : S50000x128.Idx) (hi0 : (i 0).val = 2000 * n.val + (j 0).val) (hi1 : (i 1).val = (j 1).val) :
    k3_pay1 (F := Ideal) (rowBlock D n) (rowBlock R n) b (rowBlock M n) Wp bp j = G3_6 R D b M Wp bp i := by
  have hj : (j 0).val < 2000 := idx2_lt0 j
  have hb : blockOf (i 0) = n := Fin.ext (by show (i 0).val / 2000 = n.val; omega)
  have hp : placeOf (i 0) = j 0 := Fin.ext (by show (i 0).val % 2000 = (j 0).val; omega)
  have h1 : i 1 = j 1 := Fin.ext hi1
  unfold G3_6
  rw [hb, hp, h1]
  exact congrArg (k3_pay1 (F := Ideal) (rowBlock D n) (rowBlock R n) b (rowBlock M n) Wp bp) (eq_ix2 j)

set_option maxHeartbeats 1000000 in
/-- What point `t` writes back to window 6's array is block `t` of `G3_6` of the region's input arrays. -/
theorem flushed3_6 (c : Dev nD) (t : Fin cfg3.N) :
    (dat3 (F := Ideal) V c).flushed 6 t = ((cfg3.win 6).blk t).view.read (Elt Ideal)
      (G3_6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero zeroOffsets3]
  simp only [View.ld_unit_zero (S := S2000x1) zeroOffsets3, View.ld_unit_zero (S := S2000x256) zeroOffsets3, View.ld_unit_zero (S := S1x256) zeroOffsets3, View.ld_unit_zero (S := S256x128) zeroOffsets3, View.ld_unit_zero (S := S1x128) zeroOffsets3]
  rewrite [iblk3_0, iblk3_1, iblk3_2, iblk3_3, iblk3_4, iblk3_5]
  funext j
  rw [View.read_apply]
  obtain ⟨e0_0, e0_1, e1_0, e1_1, e2_0, e2_1, e3_0, e3_1, e4_0, e4_1, e5_0, e5_1, e6_0, e6_1⟩ := index3 t
  refine point3_6 _ _ _ _ _ _ (pt3 t) j _ ?_ ?_
  · show win3_6.index t (0 : Fin 2) * 2000 + 1 * (j 0).val = 2000 * t.val + (j 0).val; rw [e6_0]; omega
  · show win3_6.index t (1 : Fin 2) * 128 + 1 * (j 1).val = (j 1).val; rw [e6_1]; omega

/-- An index of window 6's array lies in point `t`'s block iff each coordinate lies in the block's range on its axis. -/
theorem mem_blk3_6 (t : Fin cfg3.N) (i : S50000x128.Idx) :
    i ∈ ((cfg3.win 6).blk t).view.set ↔ ∀ a : Fin 2, win3_6.index t a * S2000x128.size a ≤ (i a).val
      ∧ (i a).val < win3_6.index t a * S2000x128.size a + S2000x128.size a := by
  show i ∈ ((View.whole main_v52).slice (win3_6.rect t)).set ↔ _
  rw [View.set_slice_whole, Rect.mem_set_unit]
  exact Iff.rfl

/-- Every index of window 6's array lies in the block of the point `i₀ / 2000`, which writes back. -/
theorem covered3_6 (i : S50000x128.Idx) :
    ∃ t : Fin cfg3.N, (cfg3.win 6).flush t = true ∧ i ∈ ((cfg3.win 6).blk t).view.set := by
  have hi0 : (i 0).val < 50000 := idx2_lt0 i
  have hi1 : (i 1).val < 128 := idx2_lt1 i
  have hN : cfg3.N = 25 := N_3
  obtain ⟨t, ht⟩ : ∃ t : Fin cfg3.N, t.val = (i 0).val / 2000 := ⟨⟨(i 0).val / 2000, by rw [hN]; omega⟩, rfl⟩
  refine ⟨t, flush3_6 t, ?_⟩
  rw [mem_blk3_6]
  obtain ⟨e0_0, e0_1, e1_0, e1_1, e2_0, e2_1, e3_0, e3_1, e4_0, e4_1, e5_0, e5_1, e6_0, e6_1⟩ := index3 t
  intro a
  match a with
  | ⟨0, _⟩ =>
    show win3_6.index t (0 : Fin 2) * 2000 ≤ (i 0).val ∧ (i 0).val < win3_6.index t (0 : Fin 2) * 2000 + 2000
    rw [e6_0, ht]; omega
  | ⟨1, _⟩ =>
    show win3_6.index t (1 : Fin 2) * 128 ≤ (i 1).val ∧ (i 1).val < win3_6.index t (1 : Fin 2) * 128 + 128
    rw [e6_1]; omega

/-- THE ARRAY of window 6 after the region: `G3_6` of the region's input arrays. -/
theorem arr3_6 (c : Dev nD) : (dat3 (F := Ideal) V c).arrAt 6 cfg3.N
    = G3_6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6
    (G3_6 (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)))
    (fun t _ => flushed3_6 V c t) covered3_6

end Cert.KernelIdeal.RegionVal

end
-- ==== Proof.KernelFold.lean ====
/-
  The idealized kernel program's result as a function of its argument arrays.

  The run leaves every buffer at a fold of fifteen segments taken from the launch memory. Walking that fold forward, one
  boundary at a time, gives each live buffer's contents as a pure function of the arguments: the host stretches' written
  buffers are their stage functions, a region's output arrays are the row-block functions of its input arrays, and
  every buffer a segment does not write keeps its contents. At the last boundary the result buffer holds `outK`.
-/
import proofs.«128825_j43533788512795_2_alg».proof.Proof.Gen.KernelIdeal.Frame
import proofs.«128825_j43533788512795_2_alg».proof.Proof.KernelHost
import proofs.«128825_j43533788512795_2_alg».proof.Proof.Region0
import proofs.«128825_j43533788512795_2_alg».proof.Proof.Region1
import proofs.«128825_j43533788512795_2_alg».proof.Proof.Region2
import proofs.«128825_j43533788512795_2_alg».proof.Proof.Region3

set_option maxRecDepth 16384

noncomputable section

namespace Cert.KernelIdeal.Fold

open Cert.KernelIdeal Cert.KernelIdeal.Gen Cert.KernelIdeal.Stages Cert.KernelIdeal.RegionVal
open Idealize.ShloMosaic Idealize.ShloMosaic.TcCoe Idealize.SL.Sem

/-- The first dense layer with its rectifier, on the masked features. -/
def x0K (a0 : FVec Ideal S50000x128 .f32) (a4 : FVec Ideal S128x256 .f32) (a5 : FVec Ideal S256 .f32) : FVec Ideal S50000x256 .bf16 :=
  G0_4 a0 (narrow a4) (row256 a5)
/-- The same layer on the difference of the two feature arrays. -/
def m0K (a0 a1 : FVec Ideal S50000x128 .f32) (a4 : FVec Ideal S128x256 .f32) (a5 : FVec Ideal S256 .f32) : FVec Ideal S50000x256 .bf16 :=
  G0_5 a0 a1 (narrow a4) (row256 a5)
/-- The first convolution's product, each row scaled by its node's degree factor. -/
def h1sK (a0 : FVec Ideal S50000x128 .f32) (a2 : IVec S2x800000 32) (a4 : FVec Ideal S128x256 .f32) (a5 : FVec Ideal S256 .f32) (a6 : FVec Ideal S256x256 .f32) : FVec Ideal S50000x256 .bf16 :=
  G1_3 (x0K a0 a4 a5) (narrow a6) (dis2d a2)
/-- Its rows summed per target node. -/
def raw1 (a0 : FVec Ideal S50000x128 .f32) (a2 : IVec S2x800000 32) (a4 : FVec Ideal S128x256 .f32) (a5 : FVec Ideal S256 .f32) (a6 : FVec Ideal S256x256 .f32) : FVec Ideal S50000x256 .f32 :=
  aggr a2 (h1sK a0 a2 a4 a5 a6)
/-- The second convolution's product, scaled likewise. -/
def h2sK (a0 : FVec Ideal S50000x128 .f32) (a2 : IVec S2x800000 32) (a4 : FVec Ideal S128x256 .f32) (a5 : FVec Ideal S256 .f32) (a6 : FVec Ideal S256x256 .f32) (a7 : FVec Ideal S256 .f32) (a8 : FVec Ideal S256x256 .f32) : FVec Ideal S50000x256 .bf16 :=
  G2_4 (raw1 a0 a2 a4 a5 a6) (dis2d a2) (row256 a7) (narrow a8)
/-- Its rows summed per target node. -/
def raw2 (a0 : FVec Ideal S50000x128 .f32) (a2 : IVec S2x800000 32) (a4 : FVec Ideal S128x256 .f32) (a5 : FVec Ideal S256 .f32) (a6 : FVec Ideal S256x256 .f32) (a7 : FVec Ideal S256 .f32) (a8 : FVec Ideal S256x256 .f32) : FVec Ideal S50000x256 .f32 :=
  aggr a2 (h2sK a0 a2 a4 a5 a6 a7 a8)
/-- The gated output, 128 columns wide. -/
def outP (a0 a1 : FVec Ideal S50000x128 .f32) (a2 : IVec S2x800000 32) (a4 : FVec Ideal S128x256 .f32) (a5 : FVec Ideal S256 .f32) (a6 : FVec Ideal S256x256 .f32) (a7 : FVec Ideal S256 .f32) (a8 : FVec Ideal S256x256 .f32) (a9 : FVec Ideal S256 .f32) (a10 : FVec Ideal S256x2 .f32) (a11 : FVec Ideal S2 .f32) : FVec Ideal S50000x128 .f32 :=
  G3_6 (raw2 a0 a2 a4 a5 a6 a7 a8) (dis2d a2) (row256 a9) (m0K a0 a1 a4 a5) (wPad a10) (bPad a11)
/-- The program's result: its first two columns. -/
def outK (a0 a1 : FVec Ideal S50000x128 .f32) (a2 : IVec S2x800000 32) (a4 : FVec Ideal S128x256 .f32) (a5 : FVec Ideal S256 .f32) (a6 : FVec Ideal S256x256 .f32) (a7 : FVec Ideal S256 .f32) (a8 : FVec Ideal S256x256 .f32) (a9 : FVec Ideal S256 .f32) (a10 : FVec Ideal S256x2 .f32) (a11 : FVec Ideal S2 .f32) : FVec Ideal S50000x2 .f32 :=
  firstTwo (outP a0 a1 a2 a4 a5 a6 a7 a8 a9 a10 a11)

variable (m : (ℓ : Loc nD τ sig) → Buf (Elt Ideal) ℓ) (ρ : Dev nD → PrngReg) (c : Dev nD)

theorem val0_main_arg0 : W0 m ρ c (Proc.devRef .tc main_arg0) = (m ((c.tc : Thread nD τ).loc main_arg0)) := rfl
theorem val0_main_arg1 : W0 m ρ c (Proc.devRef .tc main_arg1) = (m ((c.tc : Thread nD τ).loc main_arg1)) := rfl
theorem val0_main_arg2 : W0 m ρ c (Proc.devRef .tc main_arg2) = (m ((c.tc : Thread nD τ).loc main_arg2)) := rfl
theorem val0_main_arg4 : W0 m ρ c (Proc.devRef .tc main_arg4) = (m ((c.tc : Thread nD τ).loc main_arg4)) := rfl
theorem val0_main_arg5 : W0 m ρ c (Proc.devRef .tc main_arg5) = (m ((c.tc : Thread nD τ).loc main_arg5)) := rfl
theorem val0_main_arg6 : W0 m ρ c (Proc.devRef .tc main_arg6) = (m ((c.tc : Thread nD τ).loc main_arg6)) := rfl
theorem val0_main_arg7 : W0 m ρ c (Proc.devRef .tc main_arg7) = (m ((c.tc : Thread nD τ).loc main_arg7)) := rfl
theorem val0_main_arg8 : W0 m ρ c (Proc.devRef .tc main_arg8) = (m ((c.tc : Thread nD τ).loc main_arg8)) := rfl
theorem val0_main_arg9 : W0 m ρ c (Proc.devRef .tc main_arg9) = (m ((c.tc : Thread nD τ).loc main_arg9)) := rfl
theorem val0_main_arg10 : W0 m ρ c (Proc.devRef .tc main_arg10) = (m ((c.tc : Thread nD τ).loc main_arg10)) := rfl
theorem val0_main_arg11 : W0 m ρ c (Proc.devRef .tc main_arg11) = (m ((c.tc : Thread nD τ).loc main_arg11)) := rfl

theorem val1_main_v5 : W1 m ρ c (Proc.devRef .tc main_v5) = sIdx (m ((c.tc : Thread nD τ).loc main_arg2)) := by
  have h := HostVal.hostOps0_main_v5 (W0 m ρ c)
  rw [val0_main_arg2 m ρ c] at h
  exact h

theorem val1_main_v6 : W1 m ρ c (Proc.devRef .tc main_v6) = dIdx (m ((c.tc : Thread nD τ).loc main_arg2)) := by
  have h := HostVal.hostOps0_main_v6 (W0 m ρ c)
  rw [val0_main_arg2 m ρ c] at h
  exact h

theorem val1_main_v12 : W1 m ρ c (Proc.devRef .tc main_v12) = cmpf .ogt (deg (m ((c.tc : Thread nD τ).loc main_arg2))) zeroN := by
  have h := HostVal.hostOps0_main_v12 (W0 m ρ c)
  rw [val0_main_arg2 m ρ c] at h
  exact h

theorem val1_main_v13 : W1 m ρ c (Proc.devRef .tc main_v13) = Host.rsqrt (F := Ideal) (deg (m ((c.tc : Thread nD τ).loc main_arg2))) := by
  have h := HostVal.hostOps0_main_v13 (W0 m ρ c)
  rw [val0_main_arg2 m ρ c] at h
  exact h

theorem val1_main_v14 : W1 m ρ c (Proc.devRef .tc main_v14) = zeroN := by
  have h := HostVal.hostOps0_main_v14 (W0 m ρ c)
  exact h

theorem val1_main_arg0 : W1 m ρ c (Proc.devRef .tc main_arg0) = (m ((c.tc : Thread nD τ).loc main_arg0)) :=
  (HostVal.hostOps0_keep_main_arg0 (W0 m ρ c)).trans (val0_main_arg0 m ρ c)

theorem val1_main_arg1 : W1 m ρ c (Proc.devRef .tc main_arg1) = (m ((c.tc : Thread nD τ).loc main_arg1)) :=
  (HostVal.hostOps0_keep_main_arg1 (W0 m ρ c)).trans (val0_main_arg1 m ρ c)

theorem val1_main_arg4 : W1 m ρ c (Proc.devRef .tc main_arg4) = (m ((c.tc : Thread nD τ).loc main_arg4)) :=
  (HostVal.hostOps0_keep_main_arg4 (W0 m ρ c)).trans (val0_main_arg4 m ρ c)

theorem val1_main_arg5 : W1 m ρ c (Proc.devRef .tc main_arg5) = (m ((c.tc : Thread nD τ).loc main_arg5)) :=
  (HostVal.hostOps0_keep_main_arg5 (W0 m ρ c)).trans (val0_main_arg5 m ρ c)

theorem val1_main_arg6 : W1 m ρ c (Proc.devRef .tc main_arg6) = (m ((c.tc : Thread nD τ).loc main_arg6)) :=
  (HostVal.hostOps0_keep_main_arg6 (W0 m ρ c)).trans (val0_main_arg6 m ρ c)

theorem val1_main_arg7 : W1 m ρ c (Proc.devRef .tc main_arg7) = (m ((c.tc : Thread nD τ).loc main_arg7)) :=
  (HostVal.hostOps0_keep_main_arg7 (W0 m ρ c)).trans (val0_main_arg7 m ρ c)

theorem val1_main_arg8 : W1 m ρ c (Proc.devRef .tc main_arg8) = (m ((c.tc : Thread nD τ).loc main_arg8)) :=
  (HostVal.hostOps0_keep_main_arg8 (W0 m ρ c)).trans (val0_main_arg8 m ρ c)

theorem val1_main_arg9 : W1 m ρ c (Proc.devRef .tc main_arg9) = (m ((c.tc : Thread nD τ).loc main_arg9)) :=
  (HostVal.hostOps0_keep_main_arg9 (W0 m ρ c)).trans (val0_main_arg9 m ρ c)

theorem val1_main_arg10 : W1 m ρ c (Proc.devRef .tc main_arg10) = (m ((c.tc : Thread nD τ).loc main_arg10)) :=
  (HostVal.hostOps0_keep_main_arg10 (W0 m ρ c)).trans (val0_main_arg10 m ρ c)

theorem val1_main_arg11 : W1 m ρ c (Proc.devRef .tc main_arg11) = (m ((c.tc : Thread nD τ).loc main_arg11)) :=
  (HostVal.hostOps0_keep_main_arg11 (W0 m ρ c)).trans (val0_main_arg11 m ρ c)

theorem val2_main_v5 : W2 m ρ c (Proc.devRef .tc main_v5) = sIdx (m ((c.tc : Thread nD τ).loc main_arg2)) :=
  (HostVal.hostOps0_1_keep_main_v5 (W1 m ρ c)).trans (val1_main_v5 m ρ c)

theorem val2_main_v6 : W2 m ρ c (Proc.devRef .tc main_v6) = dIdx (m ((c.tc : Thread nD τ).loc main_arg2)) :=
  (HostVal.hostOps0_1_keep_main_v6 (W1 m ρ c)).trans (val1_main_v6 m ρ c)

theorem val2_main_v15 : W2 m ρ c (Proc.devRef .tc main_v15) = dis (m ((c.tc : Thread nD τ).loc main_arg2)) := by
  have h := HostVal.hostOps0_1_main_v15 (W1 m ρ c)
  rw [val1_main_v12 m ρ c, val1_main_v13 m ρ c, val1_main_v14 m ρ c] at h
  exact h

theorem val2_main_arg0 : W2 m ρ c (Proc.devRef .tc main_arg0) = (m ((c.tc : Thread nD τ).loc main_arg0)) :=
  (HostVal.hostOps0_1_keep_main_arg0 (W1 m ρ c)).trans (val1_main_arg0 m ρ c)

theorem val2_main_arg1 : W2 m ρ c (Proc.devRef .tc main_arg1) = (m ((c.tc : Thread nD τ).loc main_arg1)) :=
  (HostVal.hostOps0_1_keep_main_arg1 (W1 m ρ c)).trans (val1_main_arg1 m ρ c)

theorem val2_main_arg4 : W2 m ρ c (Proc.devRef .tc main_arg4) = (m ((c.tc : Thread nD τ).loc main_arg4)) :=
  (HostVal.hostOps0_1_keep_main_arg4 (W1 m ρ c)).trans (val1_main_arg4 m ρ c)

theorem val2_main_arg5 : W2 m ρ c (Proc.devRef .tc main_arg5) = (m ((c.tc : Thread nD τ).loc main_arg5)) :=
  (HostVal.hostOps0_1_keep_main_arg5 (W1 m ρ c)).trans (val1_main_arg5 m ρ c)

theorem val2_main_arg6 : W2 m ρ c (Proc.devRef .tc main_arg6) = (m ((c.tc : Thread nD τ).loc main_arg6)) :=
  (HostVal.hostOps0_1_keep_main_arg6 (W1 m ρ c)).trans (val1_main_arg6 m ρ c)

theorem val2_main_arg7 : W2 m ρ c (Proc.devRef .tc main_arg7) = (m ((c.tc : Thread nD τ).loc main_arg7)) :=
  (HostVal.hostOps0_1_keep_main_arg7 (W1 m ρ c)).trans (val1_main_arg7 m ρ c)

theorem val2_main_arg8 : W2 m ρ c (Proc.devRef .tc main_arg8) = (m ((c.tc : Thread nD τ).loc main_arg8)) :=
  (HostVal.hostOps0_1_keep_main_arg8 (W1 m ρ c)).trans (val1_main_arg8 m ρ c)

theorem val2_main_arg9 : W2 m ρ c (Proc.devRef .tc main_arg9) = (m ((c.tc : Thread nD τ).loc main_arg9)) :=
  (HostVal.hostOps0_1_keep_main_arg9 (W1 m ρ c)).trans (val1_main_arg9 m ρ c)

theorem val2_main_arg10 : W2 m ρ c (Proc.devRef .tc main_arg10) = (m ((c.tc : Thread nD τ).loc main_arg10)) :=
  (HostVal.hostOps0_1_keep_main_arg10 (W1 m ρ c)).trans (val1_main_arg10 m ρ c)

theorem val2_main_arg11 : W2 m ρ c (Proc.devRef .tc main_arg11) = (m ((c.tc : Thread nD τ).loc main_arg11)) :=
  (HostVal.hostOps0_1_keep_main_arg11 (W1 m ρ c)).trans (val1_main_arg11 m ρ c)

theorem val3_main_v5 : W3 m ρ c (Proc.devRef .tc main_v5) = sIdx (m ((c.tc : Thread nD τ).loc main_arg2)) :=
  (HostVal.hostOps0_2_keep_main_v5 (W2 m ρ c)).trans (val2_main_v5 m ρ c)

theorem val3_main_v6 : W3 m ρ c (Proc.devRef .tc main_v6) = dIdx (m ((c.tc : Thread nD τ).loc main_arg2)) :=
  (HostVal.hostOps0_2_keep_main_v6 (W2 m ρ c)).trans (val2_main_v6 m ρ c)

theorem val3_main_v16 : W3 m ρ c (Proc.devRef .tc main_v16) = dis2d (m ((c.tc : Thread nD τ).loc main_arg2)) := by
  have h := HostVal.hostOps0_2_main_v16 (W2 m ρ c)
  rw [val2_main_v15 m ρ c] at h
  exact h

theorem val3_main_v17 : W3 m ρ c (Proc.devRef .tc main_v17) = narrow (m ((c.tc : Thread nD τ).loc main_arg4)) := by
  have h := HostVal.hostOps0_2_main_v17 (W2 m ρ c)
  rw [val2_main_arg4 m ρ c] at h
  exact h

theorem val3_main_v18 : W3 m ρ c (Proc.devRef .tc main_v18) = row256 (m ((c.tc : Thread nD τ).loc main_arg5)) := by
  have h := HostVal.hostOps0_2_main_v18 (W2 m ρ c)
  rw [val2_main_arg5 m ρ c] at h
  exact h

theorem val3_main_arg0 : W3 m ρ c (Proc.devRef .tc main_arg0) = (m ((c.tc : Thread nD τ).loc main_arg0)) :=
  (HostVal.hostOps0_2_keep_main_arg0 (W2 m ρ c)).trans (val2_main_arg0 m ρ c)

theorem val3_main_arg1 : W3 m ρ c (Proc.devRef .tc main_arg1) = (m ((c.tc : Thread nD τ).loc main_arg1)) :=
  (HostVal.hostOps0_2_keep_main_arg1 (W2 m ρ c)).trans (val2_main_arg1 m ρ c)

theorem val3_main_arg6 : W3 m ρ c (Proc.devRef .tc main_arg6) = (m ((c.tc : Thread nD τ).loc main_arg6)) :=
  (HostVal.hostOps0_2_keep_main_arg6 (W2 m ρ c)).trans (val2_main_arg6 m ρ c)

theorem val3_main_arg7 : W3 m ρ c (Proc.devRef .tc main_arg7) = (m ((c.tc : Thread nD τ).loc main_arg7)) :=
  (HostVal.hostOps0_2_keep_main_arg7 (W2 m ρ c)).trans (val2_main_arg7 m ρ c)

theorem val3_main_arg8 : W3 m ρ c (Proc.devRef .tc main_arg8) = (m ((c.tc : Thread nD τ).loc main_arg8)) :=
  (HostVal.hostOps0_2_keep_main_arg8 (W2 m ρ c)).trans (val2_main_arg8 m ρ c)

theorem val3_main_arg9 : W3 m ρ c (Proc.devRef .tc main_arg9) = (m ((c.tc : Thread nD τ).loc main_arg9)) :=
  (HostVal.hostOps0_2_keep_main_arg9 (W2 m ρ c)).trans (val2_main_arg9 m ρ c)

theorem val3_main_arg10 : W3 m ρ c (Proc.devRef .tc main_arg10) = (m ((c.tc : Thread nD τ).loc main_arg10)) :=
  (HostVal.hostOps0_2_keep_main_arg10 (W2 m ρ c)).trans (val2_main_arg10 m ρ c)

theorem val3_main_arg11 : W3 m ρ c (Proc.devRef .tc main_arg11) = (m ((c.tc : Thread nD τ).loc main_arg11)) :=
  (HostVal.hostOps0_2_keep_main_arg11 (W2 m ρ c)).trans (val2_main_arg11 m ρ c)

theorem val4_main_v5 : W4 m ρ c (Proc.devRef .tc main_v5) = sIdx (m ((c.tc : Thread nD τ).loc main_arg2)) :=
  (W4_of_ne m ρ c main_v5 (by decide)).trans (val3_main_v5 m ρ c)

theorem val4_main_v6 : W4 m ρ c (Proc.devRef .tc main_v6) = dIdx (m ((c.tc : Thread nD τ).loc main_arg2)) :=
  (W4_of_ne m ρ c main_v6 (by decide)).trans (val3_main_v6 m ρ c)

theorem val4_main_v16 : W4 m ρ c (Proc.devRef .tc main_v16) = dis2d (m ((c.tc : Thread nD τ).loc main_arg2)) :=
  (W4_of_ne m ρ c main_v16 (by decide)).trans (val3_main_v16 m ρ c)

theorem val4_main_v19_0 : W4 m ρ c (Proc.devRef .tc main_v19_0) = x0K (m ((c.tc : Thread nD τ).loc main_arg0)) (m ((c.tc : Thread nD τ).loc main_arg4)) (m ((c.tc : Thread nD τ).loc main_arg5)) := by
  have h := (W4_arr m ρ c 4).trans (RegionVal.arr0_4 (V3 m ρ) c)
  have e0 : V3 m ρ c (Pipeline.arrRef spec0 0) = (m ((c.tc : Thread nD τ).loc main_arg0)) := val3_main_arg0 m ρ c
  have e2 : V3 m ρ c (Pipeline.arrRef spec0 2) = narrow (m ((c.tc : Thread nD τ).loc main_arg4)) := val3_main_v17 m ρ c
  have e3 : V3 m ρ c (Pipeline.arrRef spec0 3) = row256 (m ((c.tc : Thread nD τ).loc main_arg5)) := val3_main_v18 m ρ c
  rw [e0, e2, e3] at h
  exact h

theorem val4_main_v19_1 : W4 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) := by
  have h := (W4_arr m ρ c 5).trans (RegionVal.arr0_5 (V3 m ρ) c)
  have e0 : V3 m ρ c (Pipeline.arrRef spec0 0) = (m ((c.tc : Thread nD τ).loc main_arg0)) := val3_main_arg0 m ρ c
  have e1 : V3 m ρ c (Pipeline.arrRef spec0 1) = (m ((c.tc : Thread nD τ).loc main_arg1)) := val3_main_arg1 m ρ c
  have e2 : V3 m ρ c (Pipeline.arrRef spec0 2) = narrow (m ((c.tc : Thread nD τ).loc main_arg4)) := val3_main_v17 m ρ c
  have e3 : V3 m ρ c (Pipeline.arrRef spec0 3) = row256 (m ((c.tc : Thread nD τ).loc main_arg5)) := val3_main_v18 m ρ c
  rw [e0, e1, e2, e3] at h
  exact h

theorem val4_main_arg6 : W4 m ρ c (Proc.devRef .tc main_arg6) = (m ((c.tc : Thread nD τ).loc main_arg6)) :=
  (W4_of_ne m ρ c main_arg6 (by decide)).trans (val3_main_arg6 m ρ c)

theorem val4_main_arg7 : W4 m ρ c (Proc.devRef .tc main_arg7) = (m ((c.tc : Thread nD τ).loc main_arg7)) :=
  (W4_of_ne m ρ c main_arg7 (by decide)).trans (val3_main_arg7 m ρ c)

theorem val4_main_arg8 : W4 m ρ c (Proc.devRef .tc main_arg8) = (m ((c.tc : Thread nD τ).loc main_arg8)) :=
  (W4_of_ne m ρ c main_arg8 (by decide)).trans (val3_main_arg8 m ρ c)

theorem val4_main_arg9 : W4 m ρ c (Proc.devRef .tc main_arg9) = (m ((c.tc : Thread nD τ).loc main_arg9)) :=
  (W4_of_ne m ρ c main_arg9 (by decide)).trans (val3_main_arg9 m ρ c)

theorem val4_main_arg10 : W4 m ρ c (Proc.devRef .tc main_arg10) = (m ((c.tc : Thread nD τ).loc main_arg10)) :=
  (W4_of_ne m ρ c main_arg10 (by decide)).trans (val3_main_arg10 m ρ c)

theorem val4_main_arg11 : W4 m ρ c (Proc.devRef .tc main_arg11) = (m ((c.tc : Thread nD τ).loc main_arg11)) :=
  (W4_of_ne m ρ c main_arg11 (by decide)).trans (val3_main_arg11 m ρ c)

theorem val5_main_v5 : W5 m ρ c (Proc.devRef .tc main_v5) = sIdx (m ((c.tc : Thread nD τ).loc main_arg2)) :=
  (HostVal.hostOps1_keep_main_v5 (W4 m ρ c)).trans (val4_main_v5 m ρ c)

theorem val5_main_v6 : W5 m ρ c (Proc.devRef .tc main_v6) = dIdx (m ((c.tc : Thread nD τ).loc main_arg2)) :=
  (HostVal.hostOps1_keep_main_v6 (W4 m ρ c)).trans (val4_main_v6 m ρ c)

theorem val5_main_v16 : W5 m ρ c (Proc.devRef .tc main_v16) = dis2d (m ((c.tc : Thread nD τ).loc main_arg2)) :=
  (HostVal.hostOps1_keep_main_v16 (W4 m ρ c)).trans (val4_main_v16 m ρ c)

theorem val5_main_v19_0 : W5 m ρ c (Proc.devRef .tc main_v19_0) = x0K (m ((c.tc : Thread nD τ).loc main_arg0)) (m ((c.tc : Thread nD τ).loc main_arg4)) (m ((c.tc : Thread nD τ).loc main_arg5)) :=
  (HostVal.hostOps1_keep_main_v19_0 (W4 m ρ c)).trans (val4_main_v19_0 m ρ c)

theorem val5_main_v19_1 : W5 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps1_keep_main_v19_1 (W4 m ρ c)).trans (val4_main_v19_1 m ρ c)

theorem val5_main_v20 : W5 m ρ c (Proc.devRef .tc main_v20) = narrow (m ((c.tc : Thread nD τ).loc main_arg6)) := by
  have h := HostVal.hostOps1_main_v20 (W4 m ρ c)
  rw [val4_main_arg6 m ρ c] at h
  exact h

theorem val5_main_arg7 : W5 m ρ c (Proc.devRef .tc main_arg7) = (m ((c.tc : Thread nD τ).loc main_arg7)) :=
  (HostVal.hostOps1_keep_main_arg7 (W4 m ρ c)).trans (val4_main_arg7 m ρ c)

theorem val5_main_arg8 : W5 m ρ c (Proc.devRef .tc main_arg8) = (m ((c.tc : Thread nD τ).loc main_arg8)) :=
  (HostVal.hostOps1_keep_main_arg8 (W4 m ρ c)).trans (val4_main_arg8 m ρ c)

theorem val5_main_arg9 : W5 m ρ c (Proc.devRef .tc main_arg9) = (m ((c.tc : Thread nD τ).loc main_arg9)) :=
  (HostVal.hostOps1_keep_main_arg9 (W4 m ρ c)).trans (val4_main_arg9 m ρ c)

theorem val5_main_arg10 : W5 m ρ c (Proc.devRef .tc main_arg10) = (m ((c.tc : Thread nD τ).loc main_arg10)) :=
  (HostVal.hostOps1_keep_main_arg10 (W4 m ρ c)).trans (val4_main_arg10 m ρ c)

theorem val5_main_arg11 : W5 m ρ c (Proc.devRef .tc main_arg11) = (m ((c.tc : Thread nD τ).loc main_arg11)) :=
  (HostVal.hostOps1_keep_main_arg11 (W4 m ρ c)).trans (val4_main_arg11 m ρ c)

theorem val6_main_v5 : W6 m ρ c (Proc.devRef .tc main_v5) = sIdx (m ((c.tc : Thread nD τ).loc main_arg2)) :=
  (W6_of_ne m ρ c main_v5 (by decide)).trans (val5_main_v5 m ρ c)

theorem val6_main_v6 : W6 m ρ c (Proc.devRef .tc main_v6) = dIdx (m ((c.tc : Thread nD τ).loc main_arg2)) :=
  (W6_of_ne m ρ c main_v6 (by decide)).trans (val5_main_v6 m ρ c)

theorem val6_main_v16 : W6 m ρ c (Proc.devRef .tc main_v16) = dis2d (m ((c.tc : Thread nD τ).loc main_arg2)) :=
  ((W6_arr m ρ c 2).trans (((dat1 (V5 m ρ) c).arrAt_in 2 rfl _).trans (A_eq1 (V5 m ρ) c 2))).trans (val5_main_v16 m ρ c)

theorem val6_main_v19_1 : W6 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (W6_of_ne m ρ c main_v19_1 (by decide)).trans (val5_main_v19_1 m ρ c)

theorem val6_main_v21 : W6 m ρ c (Proc.devRef .tc main_v21) = h1sK (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) := by
  have h := (W6_arr m ρ c 3).trans (RegionVal.arr1_3 (V5 m ρ) c)
  have e0 : V5 m ρ c (Pipeline.arrRef spec1 0) = x0K (m ((c.tc : Thread nD τ).loc main_arg0)) (m ((c.tc : Thread nD τ).loc main_arg4)) (m ((c.tc : Thread nD τ).loc main_arg5)) := val5_main_v19_0 m ρ c
  have e1 : V5 m ρ c (Pipeline.arrRef spec1 1) = narrow (m ((c.tc : Thread nD τ).loc main_arg6)) := val5_main_v20 m ρ c
  have e2 : V5 m ρ c (Pipeline.arrRef spec1 2) = dis2d (m ((c.tc : Thread nD τ).loc main_arg2)) := val5_main_v16 m ρ c
  rw [e0, e1, e2] at h
  exact h

theorem val6_main_arg7 : W6 m ρ c (Proc.devRef .tc main_arg7) = (m ((c.tc : Thread nD τ).loc main_arg7)) :=
  (W6_of_ne m ρ c main_arg7 (by decide)).trans (val5_main_arg7 m ρ c)

theorem val6_main_arg8 : W6 m ρ c (Proc.devRef .tc main_arg8) = (m ((c.tc : Thread nD τ).loc main_arg8)) :=
  (W6_of_ne m ρ c main_arg8 (by decide)).trans (val5_main_arg8 m ρ c)

theorem val6_main_arg9 : W6 m ρ c (Proc.devRef .tc main_arg9) = (m ((c.tc : Thread nD τ).loc main_arg9)) :=
  (W6_of_ne m ρ c main_arg9 (by decide)).trans (val5_main_arg9 m ρ c)

theorem val6_main_arg10 : W6 m ρ c (Proc.devRef .tc main_arg10) = (m ((c.tc : Thread nD τ).loc main_arg10)) :=
  (W6_of_ne m ρ c main_arg10 (by decide)).trans (val5_main_arg10 m ρ c)

theorem val6_main_arg11 : W6 m ρ c (Proc.devRef .tc main_arg11) = (m ((c.tc : Thread nD τ).loc main_arg11)) :=
  (W6_of_ne m ρ c main_arg11 (by decide)).trans (val5_main_arg11 m ρ c)

theorem val7_main_v5 : W7 m ρ c (Proc.devRef .tc main_v5) = sIdx (m ((c.tc : Thread nD τ).loc main_arg2)) :=
  (HostVal.hostOps2_keep_main_v5 (W6 m ρ c)).trans (val6_main_v5 m ρ c)

theorem val7_main_v6 : W7 m ρ c (Proc.devRef .tc main_v6) = dIdx (m ((c.tc : Thread nD τ).loc main_arg2)) :=
  (HostVal.hostOps2_keep_main_v6 (W6 m ρ c)).trans (val6_main_v6 m ρ c)

theorem val7_main_v16 : W7 m ρ c (Proc.devRef .tc main_v16) = dis2d (m ((c.tc : Thread nD τ).loc main_arg2)) :=
  (HostVal.hostOps2_keep_main_v16 (W6 m ρ c)).trans (val6_main_v16 m ρ c)

theorem val7_main_v19_1 : W7 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps2_keep_main_v19_1 (W6 m ρ c)).trans (val6_main_v19_1 m ρ c)

theorem val7_main_v32 : W7 m ρ c (Proc.devRef .tc main_v32) = raw1 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) := by
  have h := HostVal.hostOps2_main_v32 (W6 m ρ c)
  rw [val6_main_v5 m ρ c, val6_main_v6 m ρ c, val6_main_v21 m ρ c] at h
  exact h

theorem val7_main_v33 : W7 m ρ c (Proc.devRef .tc main_v33) = row256 (m ((c.tc : Thread nD τ).loc main_arg7)) := by
  have h := HostVal.hostOps2_main_v33 (W6 m ρ c)
  rw [val6_main_arg7 m ρ c] at h
  exact h

theorem val7_main_v34 : W7 m ρ c (Proc.devRef .tc main_v34) = narrow (m ((c.tc : Thread nD τ).loc main_arg8)) := by
  have h := HostVal.hostOps2_main_v34 (W6 m ρ c)
  rw [val6_main_arg8 m ρ c] at h
  exact h

theorem val7_main_arg9 : W7 m ρ c (Proc.devRef .tc main_arg9) = (m ((c.tc : Thread nD τ).loc main_arg9)) :=
  (HostVal.hostOps2_keep_main_arg9 (W6 m ρ c)).trans (val6_main_arg9 m ρ c)

theorem val7_main_arg10 : W7 m ρ c (Proc.devRef .tc main_arg10) = (m ((c.tc : Thread nD τ).loc main_arg10)) :=
  (HostVal.hostOps2_keep_main_arg10 (W6 m ρ c)).trans (val6_main_arg10 m ρ c)

theorem val7_main_arg11 : W7 m ρ c (Proc.devRef .tc main_arg11) = (m ((c.tc : Thread nD τ).loc main_arg11)) :=
  (HostVal.hostOps2_keep_main_arg11 (W6 m ρ c)).trans (val6_main_arg11 m ρ c)

theorem val8_main_v5 : W8 m ρ c (Proc.devRef .tc main_v5) = sIdx (m ((c.tc : Thread nD τ).loc main_arg2)) :=
  (W8_of_ne m ρ c main_v5 (by decide)).trans (val7_main_v5 m ρ c)

theorem val8_main_v6 : W8 m ρ c (Proc.devRef .tc main_v6) = dIdx (m ((c.tc : Thread nD τ).loc main_arg2)) :=
  (W8_of_ne m ρ c main_v6 (by decide)).trans (val7_main_v6 m ρ c)

theorem val8_main_v16 : W8 m ρ c (Proc.devRef .tc main_v16) = dis2d (m ((c.tc : Thread nD τ).loc main_arg2)) :=
  ((W8_arr m ρ c 1).trans (((dat2 (V7 m ρ) c).arrAt_in 1 rfl _).trans (A_eq2 (V7 m ρ) c 1))).trans (val7_main_v16 m ρ c)

theorem val8_main_v19_1 : W8 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (W8_of_ne m ρ c main_v19_1 (by decide)).trans (val7_main_v19_1 m ρ c)

theorem val8_main_v35 : W8 m ρ c (Proc.devRef .tc main_v35) = h2sK (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := (W8_arr m ρ c 4).trans (RegionVal.arr2_4 (V7 m ρ) c)
  have e0 : V7 m ρ c (Pipeline.arrRef spec2 0) = raw1 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) := val7_main_v32 m ρ c
  have e1 : V7 m ρ c (Pipeline.arrRef spec2 1) = dis2d (m ((c.tc : Thread nD τ).loc main_arg2)) := val7_main_v16 m ρ c
  have e2 : V7 m ρ c (Pipeline.arrRef spec2 2) = row256 (m ((c.tc : Thread nD τ).loc main_arg7)) := val7_main_v33 m ρ c
  have e3 : V7 m ρ c (Pipeline.arrRef spec2 3) = narrow (m ((c.tc : Thread nD τ).loc main_arg8)) := val7_main_v34 m ρ c
  rw [e0, e1, e2, e3] at h
  exact h

theorem val8_main_arg9 : W8 m ρ c (Proc.devRef .tc main_arg9) = (m ((c.tc : Thread nD τ).loc main_arg9)) :=
  (W8_of_ne m ρ c main_arg9 (by decide)).trans (val7_main_arg9 m ρ c)

theorem val8_main_arg10 : W8 m ρ c (Proc.devRef .tc main_arg10) = (m ((c.tc : Thread nD τ).loc main_arg10)) :=
  (W8_of_ne m ρ c main_arg10 (by decide)).trans (val7_main_arg10 m ρ c)

theorem val8_main_arg11 : W8 m ρ c (Proc.devRef .tc main_arg11) = (m ((c.tc : Thread nD τ).loc main_arg11)) :=
  (W8_of_ne m ρ c main_arg11 (by decide)).trans (val7_main_arg11 m ρ c)

theorem val9_main_v16 : W9 m ρ c (Proc.devRef .tc main_v16) = dis2d (m ((c.tc : Thread nD τ).loc main_arg2)) :=
  (HostVal.hostOps3_keep_main_v16 (W8 m ρ c)).trans (val8_main_v16 m ρ c)

theorem val9_main_v19_1 : W9 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps3_keep_main_v19_1 (W8 m ρ c)).trans (val8_main_v19_1 m ρ c)

theorem val9_main_v46 : W9 m ρ c (Proc.devRef .tc main_v46) = raw2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h := HostVal.hostOps3_main_v46 (W8 m ρ c)
  rw [val8_main_v5 m ρ c, val8_main_v6 m ρ c, val8_main_v35 m ρ c] at h
  exact h

theorem val9_main_v47 : W9 m ρ c (Proc.devRef .tc main_v47) = row256 (m ((c.tc : Thread nD τ).loc main_arg9)) := by
  have h := HostVal.hostOps3_main_v47 (W8 m ρ c)
  rw [val8_main_arg9 m ρ c] at h
  exact h

theorem val9_main_c_8 : W9 m ρ c (Proc.devRef .tc main_c_8) = constantI S_ 32 0#32 := by
  have h := HostVal.hostOps3_main_c_8 (W8 m ρ c)
  exact h

theorem val9_main_arg10 : W9 m ρ c (Proc.devRef .tc main_arg10) = (m ((c.tc : Thread nD τ).loc main_arg10)) :=
  (HostVal.hostOps3_keep_main_arg10 (W8 m ρ c)).trans (val8_main_arg10 m ρ c)

theorem val9_main_arg11 : W9 m ρ c (Proc.devRef .tc main_arg11) = (m ((c.tc : Thread nD τ).loc main_arg11)) :=
  (HostVal.hostOps3_keep_main_arg11 (W8 m ρ c)).trans (val8_main_arg11 m ρ c)

theorem val10_main_v16 : W10 m ρ c (Proc.devRef .tc main_v16) = dis2d (m ((c.tc : Thread nD τ).loc main_arg2)) :=
  (HostVal.hostOps3_1_keep_main_v16 (W9 m ρ c)).trans (val9_main_v16 m ρ c)

theorem val10_main_v19_1 : W10 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps3_1_keep_main_v19_1 (W9 m ρ c)).trans (val9_main_v19_1 m ρ c)

theorem val10_main_v46 : W10 m ρ c (Proc.devRef .tc main_v46) = raw2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (HostVal.hostOps3_1_keep_main_v46 (W9 m ρ c)).trans (val9_main_v46 m ρ c)

theorem val10_main_v47 : W10 m ρ c (Proc.devRef .tc main_v47) = row256 (m ((c.tc : Thread nD τ).loc main_arg9)) :=
  (HostVal.hostOps3_1_keep_main_v47 (W9 m ρ c)).trans (val9_main_v47 m ρ c)

theorem val10_main_v48 : W10 m ρ c (Proc.devRef .tc main_v48) = pad S256x128 ![0, 0] ![0, 126] ![0, 0] (m ((c.tc : Thread nD τ).loc main_arg10)) (sitofp (F := Ideal) .f32 (constantI S_ 32 0#32)) pads_S256x2_S256x128_000_01260 h_S_ := by
  have h := HostVal.hostOps3_1_main_v48 (W9 m ρ c)
  rw [val9_main_arg10 m ρ c, val9_main_c_8 m ρ c] at h
  exact h

theorem val10_main_arg11 : W10 m ρ c (Proc.devRef .tc main_arg11) = (m ((c.tc : Thread nD τ).loc main_arg11)) :=
  (HostVal.hostOps3_1_keep_main_arg11 (W9 m ρ c)).trans (val9_main_arg11 m ρ c)

theorem val11_main_v16 : W11 m ρ c (Proc.devRef .tc main_v16) = dis2d (m ((c.tc : Thread nD τ).loc main_arg2)) :=
  (HostVal.hostOps3_2_keep_main_v16 (W10 m ρ c)).trans (val10_main_v16 m ρ c)

theorem val11_main_v19_1 : W11 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps3_2_keep_main_v19_1 (W10 m ρ c)).trans (val10_main_v19_1 m ρ c)

theorem val11_main_v46 : W11 m ρ c (Proc.devRef .tc main_v46) = raw2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (HostVal.hostOps3_2_keep_main_v46 (W10 m ρ c)).trans (val10_main_v46 m ρ c)

theorem val11_main_v47 : W11 m ρ c (Proc.devRef .tc main_v47) = row256 (m ((c.tc : Thread nD τ).loc main_arg9)) :=
  (HostVal.hostOps3_2_keep_main_v47 (W10 m ρ c)).trans (val10_main_v47 m ρ c)

theorem val11_main_v49 : W11 m ρ c (Proc.devRef .tc main_v49) = wPad (m ((c.tc : Thread nD τ).loc main_arg10)) := by
  have h := HostVal.hostOps3_2_main_v49 (W10 m ρ c)
  rw [val10_main_v48 m ρ c] at h
  exact h

theorem val11_main_c_9 : W11 m ρ c (Proc.devRef .tc main_c_9) = constantI S_ 32 0#32 := by
  have h := HostVal.hostOps3_2_main_c_9 (W10 m ρ c)
  exact h

theorem val11_main_arg11 : W11 m ρ c (Proc.devRef .tc main_arg11) = (m ((c.tc : Thread nD τ).loc main_arg11)) :=
  (HostVal.hostOps3_2_keep_main_arg11 (W10 m ρ c)).trans (val10_main_arg11 m ρ c)

theorem val12_main_v16 : W12 m ρ c (Proc.devRef .tc main_v16) = dis2d (m ((c.tc : Thread nD τ).loc main_arg2)) :=
  (HostVal.hostOps3_3_keep_main_v16 (W11 m ρ c)).trans (val11_main_v16 m ρ c)

theorem val12_main_v19_1 : W12 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps3_3_keep_main_v19_1 (W11 m ρ c)).trans (val11_main_v19_1 m ρ c)

theorem val12_main_v46 : W12 m ρ c (Proc.devRef .tc main_v46) = raw2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (HostVal.hostOps3_3_keep_main_v46 (W11 m ρ c)).trans (val11_main_v46 m ρ c)

theorem val12_main_v47 : W12 m ρ c (Proc.devRef .tc main_v47) = row256 (m ((c.tc : Thread nD τ).loc main_arg9)) :=
  (HostVal.hostOps3_3_keep_main_v47 (W11 m ρ c)).trans (val11_main_v47 m ρ c)

theorem val12_main_v49 : W12 m ρ c (Proc.devRef .tc main_v49) = wPad (m ((c.tc : Thread nD τ).loc main_arg10)) :=
  (HostVal.hostOps3_3_keep_main_v49 (W11 m ρ c)).trans (val11_main_v49 m ρ c)

theorem val12_main_v50 : W12 m ρ c (Proc.devRef .tc main_v50) = pad S128 ![0] ![126] ![0] (m ((c.tc : Thread nD τ).loc main_arg11)) (sitofp (F := Ideal) .f32 (constantI S_ 32 0#32)) pads_S2_S128_01260 h_S_ := by
  have h := HostVal.hostOps3_3_main_v50 (W11 m ρ c)
  rw [val11_main_arg11 m ρ c, val11_main_c_9 m ρ c] at h
  exact h

theorem val13_main_v16 : W13 m ρ c (Proc.devRef .tc main_v16) = dis2d (m ((c.tc : Thread nD τ).loc main_arg2)) :=
  (HostVal.hostOps3_4_keep_main_v16 (W12 m ρ c)).trans (val12_main_v16 m ρ c)

theorem val13_main_v19_1 : W13 m ρ c (Proc.devRef .tc main_v19_1) = m0K (m ((c.tc : Thread nD τ).loc main_arg0)) (m ((c.tc : Thread nD τ).loc main_arg1)) (m ((c.tc : Thread nD τ).loc main_arg4)) (m ((c.tc : Thread nD τ).loc main_arg5)) :=
  (HostVal.hostOps3_4_keep_main_v19_1 (W12 m ρ c)).trans (val12_main_v19_1 m ρ c)

theorem val13_main_v46 : W13 m ρ c (Proc.devRef .tc main_v46) = raw2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (HostVal.hostOps3_4_keep_main_v46 (W12 m ρ c)).trans (val12_main_v46 m ρ c)

theorem val13_main_v47 : W13 m ρ c (Proc.devRef .tc main_v47) = row256 (m ((c.tc : Thread nD τ).loc main_arg9)) :=
  (HostVal.hostOps3_4_keep_main_v47 (W12 m ρ c)).trans (val12_main_v47 m ρ c)

theorem val13_main_v49 : W13 m ρ c (Proc.devRef .tc main_v49) = wPad (m ((c.tc : Thread nD τ).loc main_arg10)) :=
  (HostVal.hostOps3_4_keep_main_v49 (W12 m ρ c)).trans (val12_main_v49 m ρ c)

theorem val13_main_v51 : W13 m ρ c (Proc.devRef .tc main_v51) = bPad (m ((c.tc : Thread nD τ).loc main_arg11)) := by
  have h := HostVal.hostOps3_4_main_v51 (W12 m ρ c)
  rw [val12_main_v50 m ρ c] at h
  exact h

theorem val14_main_v52 : W14 m ρ c (Proc.devRef .tc main_v52) = outP (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h := (W14_arr m ρ c 6).trans (RegionVal.arr3_6 (V13 m ρ) c)
  have e0 : V13 m ρ c (Pipeline.arrRef spec3 0) = raw2 (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := val13_main_v46 m ρ c
  have e1 : V13 m ρ c (Pipeline.arrRef spec3 1) = dis2d (m ((c.tc : Thread nD τ).loc main_arg2)) := val13_main_v16 m ρ c
  have e2 : V13 m ρ c (Pipeline.arrRef spec3 2) = row256 (m ((c.tc : Thread nD τ).loc main_arg9)) := val13_main_v47 m ρ c
  have e3 : V13 m ρ c (Pipeline.arrRef spec3 3) = m0K (m ((c.tc : Thread nD τ).loc main_arg0)) (m ((c.tc : Thread nD τ).loc main_arg1)) (m ((c.tc : Thread nD τ).loc main_arg4)) (m ((c.tc : Thread nD τ).loc main_arg5)) := val13_main_v19_1 m ρ c
  have e4 : V13 m ρ c (Pipeline.arrRef spec3 4) = wPad (m ((c.tc : Thread nD τ).loc main_arg10)) := val13_main_v49 m ρ c
  have e5 : V13 m ρ c (Pipeline.arrRef spec3 5) = bPad (m ((c.tc : Thread nD τ).loc main_arg11)) := val13_main_v51 m ρ c
  rw [e0, e1, e2, e3, e4, e5] at h
  exact h

theorem val15_main_v53 : W15 m ρ c (Proc.devRef .tc main_v53) = outK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h := HostVal.hostOps4_main_v53 (W14 m ρ c)
  rw [val14_main_v52 m ρ c] at h
  exact h

/-- At the last boundary the result buffer holds `outK` of the launch contents of the arguments. -/
theorem result_eq : W15 m ρ c (Proc.devRef .tc main_v53) = outK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := val15_main_v53 m ρ c

end Cert.KernelIdeal.Fold

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibDenseLayer.lean ====
/-
  One dense layer of a perceptron — a matrix product with a weight matrix, plus a bias row, clamped below at zero — read
  over the extended reals as ONE function (`Cert.MatProd.denseRelu`) in the two spellings it is met in, general in the
  three extents and in the operands' float formats:

    * the kernel's: a matrix product into a zero accumulator, plus the bias ROW `[1, N]` broadcast down the rows, then a
      maximum with a splat zero (`kernel_layer`; without the clamp, entry by entry, `kernel_affine`);
    * the host's: a `dot_general`, plus the bias VECTOR `[N]` laid out as a row and broadcast down the rows (two
      `broadcast_in_dim`s), then a maximum with a broadcast zero constant (`host_layer`; without the clamp,
      `host_affine`).

  The product's dimension record is any record equal to the plain one (rows by contraction times contraction by
  columns); `asRow` lays a vector out as a one-row matrix. No finiteness is asked: both sides are the same sum, term by
  term. Imports LibMatProd, LibBroadcastTo and LibBroadcast, which must be copied with it.
-/
import proofs.«128825_j43533788512795_2_alg».proof.Proof.LibMatProd
import proofs.«128825_j43533788512795_2_alg».proof.Proof.LibBroadcastTo
import proofs.«128825_j43533788512795_2_alg».proof.Proof.LibBroadcast
import Idealize.ShloMosaic.PureOps.Contract
import Idealize.ShloMosaic.Lib.Pipeline.Value

noncomputable section

open scoped BigOperators

namespace Cert.DenseLayer

open Idealize.ShloMosaic Idealize.ShloMosaic.ValueIdx Cert.MatProd

/-- A matrix of extended reals with `M` rows and `N` columns. -/
abbrev Mat (M N : Nat) : Type := (⟨2, ![M, N]⟩ : Shape).Idx → EReal

/-- A vector of length `N` laid out as a one-row matrix. -/
def asRow {N : Nat} (b : (⟨1, ![N]⟩ : Shape).Idx → EReal) : Mat 1 N := fun i => b (ix1 (i 1))

/-- The kernel's product plus bias row: a matrix product into a zero accumulator, plus the bias row broadcast down the rows. -/
theorem kernel_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d none a w (constant ⟨2, ![M, N]⟩ .f32 0x00000000#32)) (broadcastTo ⟨2, ![M, N]⟩ b hb) (ix2 p q)
      = prod a w (ix2 p q) + b (ix2 0 q) := by
  subst hd
  show FloatOps.matmul (DotDims.plain M K N) none a w (constant ⟨2, ![M, N]⟩ .f32 0x00000000#32) (ix2 p q)
      + broadcastTo ⟨2, ![M, N]⟩ b hb (ix2 p q) = _
  rw [matmul_plain_zero_apply, Cert.BroadcastTo.row_apply]
  rfl

/-- The kernel's dense layer is `denseRelu`. -/
theorem kernel_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    maximumf (addf (matmul d none a w (constant ⟨2, ![M, N]⟩ .f32 0x00000000#32)) (broadcastTo ⟨2, ![M, N]⟩ b hb))
        (broadcast ⟨2, ![M, N]⟩ (Scalar.ofBits (F := Ideal) .f32 0x00000000#32))
      = denseRelu a w b := by
  funext i
  obtain ⟨p, q, rfl⟩ : ∃ (p : Fin M) (q : Fin N), i = ix2 p q := ⟨i 0, i 1, eq_ix2 i⟩
  show max (addf (matmul d none a w (constant ⟨2, ![M, N]⟩ .f32 0x00000000#32)) (broadcastTo ⟨2, ![M, N]⟩ b hb) (ix2 p q)) _ = _
  rw [kernel_affine d hd a w b hb p q]
  rfl

/-- The host's product plus bias: a `dot_general`, plus the bias vector laid out as a row and broadcast down the rows. -/
theorem host_affine {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral d none a w) (broadcastInDim ⟨2, ![M, N]⟩ ![0, 1] h2 (broadcastInDim ⟨2, ![1, N]⟩ ![1] h1 b)) (ix2 p q)
      = prod a w (ix2 p q) + asRow b (ix2 0 q) := by
  subst hd
  show FloatOps.dotGeneral (DotDims.plain M K N) none .single a w (ix2 p q)
      + broadcastInDim ⟨2, ![M, N]⟩ ![0, 1] h2 (broadcastInDim ⟨2, ![1, N]⟩ ![1] h1 b) (ix2 p q) = _
  rw [dotGeneral_plain_apply, Cert.Layout.rows_of_vec_apply]
  rfl

/-- The host's dense layer is `denseRelu`. -/
theorem host_layer {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ (![] : Fin 0 → Fin 2)) :
    maximumf (addf (Host.dotGeneral d none a w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = denseRelu a w (asRow b) := by
  funext i
  obtain ⟨p, q, rfl⟩ : ∃ (p : Fin M) (q : Fin N), i = ix2 p q := ⟨i 0, i 1, eq_ix2 i⟩
  show max (addf (Host.dotGeneral d none a w) (broadcastInDim ⟨2, ![M, N]⟩ ![0, 1] h2 (broadcastInDim ⟨2, ![1, N]⟩ ![1] h1 b)) (ix2 p q))
      (broadcastInDim ⟨2, ![M, N]⟩ ![] h0 (constant (F := Ideal) ⟨0, ![]⟩ .f32 0x00000000#32) (ix2 p q)) = _
  rw [host_affine d hd a w b h1 h2 p q, Cert.Layout.splat_apply]
  rfl

end Cert.DenseLayer

end
-- ==== Proof.Payloads.lean ====
/-
  The arithmetic of the four kernel bodies, read at one entry over the extended reals. Each body's stored array is a
  pure function of the arrays it loads; at an entry `(p, q)` it is a matrix product (a finite sum over the contraction
  axis), plus or times a broadcast row or column, and in the first body a leaky rectifier on top. A change of float
  format is the identity over the extended reals, and a shape cast of a shape to itself is the identity.
-/
import proofs.«128825_j43533788512795_2_alg».proof.Proof.Gen.KernelIdeal.Skeleton
import proofs.«128825_j43533788512795_2_alg».proof.Proof.LibMatProd
import proofs.«128825_j43533788512795_2_alg».proof.Proof.LibDenseLayer
import proofs.«128825_j43533788512795_2_alg».proof.Proof.LibBroadcastTo
import proofs.«128825_j43533788512795_2_alg».proof.Proof.LibBroadcast
import proofs.«128825_j43533788512795_2_alg».proof.Proof.Gcn
import Idealize.ShloMosaic.Lib.ValueIdx
import Idealize.ShloMosaic.Lib.Pipeline.Value

noncomputable section

open scoped BigOperators

namespace Cert.KernelIdeal.Payloads

open Cert.KernelIdeal Cert.KernelIdeal.Gen Cert.Gcn Cert.MatProd Idealize.ShloMosaic Idealize.ShloMosaic.ValueIdx

/-- A kernel product into a zero accumulator, for any dimension record equal to the plain one, at `(p, q)`. -/
theorem matmul_zero_apply {M K N : Nat} {φ₁ φ₂ : FTy} (d : DotDims ⟨2, ![M, K]⟩ ⟨2, ![K, N]⟩ ⟨2, ![M, N]⟩)
    (hd : d = DotDims.plain M K N) (a : FVec Ideal ⟨2, ![M, K]⟩ φ₁) (w : FVec Ideal ⟨2, ![K, N]⟩ φ₂)
    (p : Fin M) (q : Fin N) :
    matmul d none a w (constant ⟨2, ![M, N]⟩ .f32 0x00000000#32) (ix2 p q) = prod a w (ix2 p q) := by
  subst hd
  exact matmul_plain_zero_apply none a w p q

/-- The three dimension records the bodies use are plain products (rows by contraction times contraction by columns). -/
theorem hd_128_256 : dot_S2000x128_S128x256_S2000x256_1_0_0_1_n_n = DotDims.plain 2000 128 256 := rfl
theorem hd_256_256 : dot_S2000x256_S256x256_S2000x256_1_0_0_1_n_n = DotDims.plain 2000 256 256 := rfl
theorem hd_256_128 : dot_S2000x256_S256x128_S2000x128_1_0_0_1_n_n = DotDims.plain 2000 256 128 := rfl

/-- Second body: the product of the block with the weight matrix, each row scaled by that row's entry of the column `d`. -/
theorem pay1_1 (x : Vec Ideal S2000x256 .bf16) (w : Vec Ideal S256x256 .bf16) (d : Vec Ideal S2000x1 .f32)
    (p : Fin 2000) (q : Fin 256) :
    k1_pay1 (F := Ideal) x w d (ix2 p q) = prod x w (ix2 p q) * d (ix2 p 0) := by
  unfold k1_pay1
  rw [shapeCast_self, shapeCast_self, shapeCast_self, truncf_apply, mulf_apply,
    matmul_zero_apply _ hd_256_256, Cert.BroadcastTo.col_apply]

/-- First body, first output: the leaky rectifier of the product of the block with the weight matrix plus the bias row. -/
theorem pay0_3 (x : Vec Ideal S2000x128 .f32) (w : Vec Ideal S128x256 .bf16) (b : Vec Ideal S1x256 .f32)
    (p : Fin 2000) (q : Fin 256) :
    k0_pay3 (F := Ideal) x w b (ix2 p q) = leaky (prod x w (ix2 p q) + b (ix2 0 q)) := by
  unfold k0_pay3 k0_pay1 k0_pay2
  rw [shapeCast_self, shapeCast_self, truncf_apply, select_apply, cmpf_apply, mulf_apply, broadcast_apply,
    broadcast_apply, Cert.DenseLayer.kernel_affine _ hd_128_256]
  rfl

/-- First body, second output: the same layer applied to the difference `x1 - x0` of the two blocks. -/
theorem pay0_4 (x0 x1 : Vec Ideal S2000x128 .f32) (w : Vec Ideal S128x256 .bf16) (b : Vec Ideal S1x256 .f32)
    (p : Fin 2000) (q : Fin 256) :
    k0_pay4 (F := Ideal) x0 x1 w b (ix2 p q)
      = leaky (prod (fun i => x1 i - x0 i) w (ix2 p q) + b (ix2 0 q)) := by
  unfold k0_pay4 k0_pay1 k0_pay2
  rw [shapeCast_self, shapeCast_self, truncf_apply, select_apply, cmpf_apply, mulf_apply, broadcast_apply,
    broadcast_apply, Cert.DenseLayer.kernel_affine _ hd_128_256]
  rfl

/-- Third body: the rows of `r` scaled by `d`, plus the bias row, times the weight matrix, each row again scaled by `d`. -/
theorem pay2_1 (d : Vec Ideal S2000x1 .f32) (r : Vec Ideal S2000x256 .f32) (b : Vec Ideal S1x256 .f32)
    (w : Vec Ideal S256x256 .bf16) (p : Fin 2000) (q : Fin 256) :
    k2_pay1 (F := Ideal) d r b w (ix2 p q)
      = prod (fun i => r i * d (ix2 (i 0) 0) + b (ix2 0 (i 1))) w (ix2 p q) * d (ix2 p 0) := by
  unfold k2_pay1
  rw [shapeCast_self, shapeCast_self, shapeCast_self, shapeCast_self, truncf_apply, mulf_apply,
    matmul_zero_apply _ hd_256_256, Cert.BroadcastTo.col_apply, prod_apply, prod_apply]
  congr 1
  refine Finset.sum_congr rfl fun k _ => ?_
  congr 1
  rw [truncf_apply, addf_apply, mulf_apply, Cert.BroadcastTo.col_apply, Cert.BroadcastTo.row_apply]

/-- Fourth body: the entrywise product of two affine images under the same weight matrix and bias row — of the scaled-and-shifted `r` and of `m0`. -/
theorem pay3_1 (d : Vec Ideal S2000x1 .f32) (r : Vec Ideal S2000x256 .f32) (b : Vec Ideal S1x256 .f32)
    (m0 : Vec Ideal S2000x256 .bf16) (wp : Vec Ideal S256x128 .bf16) (bp : Vec Ideal S1x128 .f32)
    (p : Fin 2000) (q : Fin 128) :
    k3_pay1 (F := Ideal) d r b m0 wp bp (ix2 p q)
      = (prod (fun i => r i * d (ix2 (i 0) 0) + b (ix2 0 (i 1))) wp (ix2 p q) + bp (ix2 0 q))
        * (prod m0 wp (ix2 p q) + bp (ix2 0 q)) := by
  unfold k3_pay1
  rw [shapeCast_self, shapeCast_self, shapeCast_self, shapeCast_self, shapeCast_self, shapeCast_self, mulf_apply,
    Cert.DenseLayer.kernel_affine _ hd_256_128, Cert.DenseLayer.kernel_affine _ hd_256_128, prod_apply, prod_apply]
  congr 2
  refine Finset.sum_congr rfl fun k _ => ?_
  congr 1
  rw [truncf_apply, addf_apply, mulf_apply, Cert.BroadcastTo.col_apply, Cert.BroadcastTo.row_apply]

end Cert.KernelIdeal.Payloads

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.LibColumnsInDim.lean ====
/-
  Column layouts made by `broadcast_in_dim`, read at an entry.

  A vector `[a]` laid out as a one-column matrix `[a, 1]`, a one-column matrix repeated across `b` columns, and a
  `1 × 1` matrix repeated down `a` rows: each reads, at an entry, the operand at the row (or at its one entry). General
  in the extents and in the element type.
-/
import Idealize.ShloMosaic.Lib.Pipeline.Value
import Idealize.ShloMosaic.Lib.ValueIdx

namespace LibColumnsInDim

open Idealize.ShloMosaic Idealize.ShloMosaic.ValueIdx

variable {α : Type} {a b : ℕ}

/-- A vector as a one-column matrix: entry `(i, u)` is the vector's entry `i`. -/
theorem vec_col_apply (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply (![0] : Fin 1 → Fin 2) h x (ix2 i u) (ix1 i) fun ax => ?_
  match ax with
  | ⟨0, _⟩ =>
    show i.val = if a = 1 then 0 else i.val
    split
    · have := i.isLt; omega
    · rfl

/-- A one-column matrix repeated across `b` columns: entry `(i, k)` is the column's entry `i`. -/
theorem col_across_apply (x : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ ![0, 1] h x (ix2 i k) = x (ix2 i (0 : Fin 1)) := by
  refine broadcastInDim_apply (![0, 1] : Fin 2 → Fin 2) h x (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else k.val
    rw [if_pos rfl]

/-- A `1 × 1` matrix repeated down `a` rows: every entry is its one entry. -/
theorem one_down_apply (x : (⟨2, ![1, 1]⟩ : Shape).Idx → α)
    (h : (⟨2, ![1, 1]⟩ : Shape).BroadcastsInDim ⟨2, ![a, 1]⟩ (![0, 1] : Fin 2 → Fin 2)) (i : Fin a) (u : Fin 1) :
    broadcastInDim ⟨2, ![a, 1]⟩ ![0, 1] h x (ix2 i u) = x (ix2 (0 : Fin 1) (0 : Fin 1)) := by
  refine broadcastInDim_apply (![0, 1] : Fin 2 → Fin 2) h x (ix2 i u) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else u.val
    rw [if_pos rfl]

end LibColumnsInDim
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.GcnMath.lean ====
/-
  The algebra of one graph-convolution layer on the extended reals.

  A layer sums, over the edges that arrive at a node, the source node's feature scaled by the two endpoints' degree
  factors. One program scales each gathered row by the source's factor, sums, and scales the sum by the target's factor;
  the other scales each edge's term by the product of the two factors and sums. Multiplication of extended reals does
  not distribute over addition in general, but it does for a factor that is non-negative and not +infinity, and a degree
  factor (a guarded inverse square root) is such a number whatever the degree.
-/
import Idealize.ShloMosaic.PureOps.Ideal
import Idealize.ShloMosaic.PureOps.Ideal.Laws

open scoped BigOperators

namespace Cert.GcnMath

open Idealize.ShloMosaic

/-- A factor that is non-negative and not +infinity distributes over a start value plus a finite sum. -/
theorem sum_mul_nonneg_fin {ι : Type} (s : Finset ι) (f : ι → EReal) (x c : EReal) (h0 : 0 ≤ c) (ht : c ≠ ⊤) :
    (x + ∑ e ∈ s, f e) * c = x * c + ∑ e ∈ s, f e * c := by
  classical
  rw [EReal.right_distrib_of_nonneg_of_ne_top h0 ht]
  congr 1
  induction s using Finset.induction_on with
  | empty => simp
  | insert a s ha ih =>
    rw [Finset.sum_insert ha, Finset.sum_insert ha, EReal.right_distrib_of_nonneg_of_ne_top h0 ht, ih]

/-- THE LAYER IDENTITY. Scaling each arriving edge's term by the source's factor, summing from a zero start and scaling
    the sum by the target's factor is summing the terms scaled by the product of the two factors: the target's factor is
    non-negative and not +infinity, so it goes inside the sum, and an edge that arrives at node `n` has `n` as its
    target. -/
theorem layer_eq {E N C : Type} [Fintype E] (tgt : E → Int) (num : N → Int) (src dstc : E → N) (d : N → EReal)
    (hd : ∀ n, 0 ≤ d n ∧ d n ≠ ⊤) (hdst : ∀ e n, tgt e = num n → dstc e = n) (h : N → C → EReal) (b : C → EReal)
    (z : EReal) (hz : z = 0) (n : N) (c : C) :
    (z + ∑ e : E, if tgt e = num n then h (src e) c * d (src e) else 0) * d n + b c
      = (z + ∑ e : E, if tgt e = num n then h (src e) c * (d (src e) * d (dstc e)) else 0) + b c := by
  rw [sum_mul_nonneg_fin _ _ _ _ (hd n).1 (hd n).2, hz, zero_mul]
  congr 2
  refine Finset.sum_congr rfl fun e _ => ?_
  split_ifs with he
  · rw [hdst e n he, mul_assoc]
  · exact zero_mul _

/-- The degree factor of a count `x`: the inverse square root where `x` is positive, the zero word elsewhere. -/
noncomputable def guardedRsqrt (x : EReal) : EReal :=
  Scalar.select (Ideal.cmp .ogt x (Ideal.ofBits .f32 0x00000000#32)) (Ideal.rsqrt x) (Ideal.ofBits .f32 0x00000000#32)

/-- Whatever the count, its degree factor is non-negative and not +infinity: at a positive real it is the reciprocal of a
    square root, at +infinity it is zero, and everywhere else the guard puts zero. -/
theorem guarded_rsqrt_bounds (x : EReal) : 0 ≤ guardedRsqrt x ∧ guardedRsqrt x ≠ ⊤ := by
  unfold guardedRsqrt
  rw [Ideal.ofBits_zero_f32]
  by_cases hx : (0 : EReal) < x
  · have hc : Ideal.cmp .ogt x 0 = 1#1 := by
      show BitVec.ofBool (decide ((0 : EReal) < x)) = 1#1
      rw [decide_eq_true hx]; rfl
    rw [hc]
    show 0 ≤ (if (1#1 : BitVec 1) = 1 then Ideal.rsqrt x else 0) ∧ (if (1#1 : BitVec 1) = 1 then Ideal.rsqrt x else 0) ≠ ⊤
    rw [if_pos (show (1#1 : BitVec 1) = 1 from rfl)]
    induction x using EReal.rec with
    | bot => exact absurd hx (not_lt_bot)
    | top => exact ⟨le_refl _, EReal.zero_ne_top⟩
    | coe r =>
      have hr : 0 < r := by exact_mod_cast hx
      have h1 : ¬ r < 0 := not_lt.mpr hr.le
      have h2 : ¬ r = 0 := hr.ne'
      show 0 ≤ (if r < 0 then ⊥ else if r = 0 then ⊤ else (((Real.sqrt r)⁻¹ : ℝ) : EReal))
        ∧ (if r < 0 then ⊥ else if r = 0 then ⊤ else (((Real.sqrt r)⁻¹ : ℝ) : EReal)) ≠ ⊤
      rw [if_neg h1, if_neg h2]
      exact ⟨by exact_mod_cast (inv_nonneg.mpr (Real.sqrt_nonneg r)), EReal.coe_ne_top _⟩
  · have hc : Ideal.cmp .ogt x 0 = 0#1 := by
      show BitVec.ofBool (decide ((0 : EReal) < x)) = 0#1
      rw [decide_eq_false hx]; rfl
    rw [hc]
    show 0 ≤ (if (0#1 : BitVec 1) = 1 then Ideal.rsqrt x else 0) ∧ (if (0#1 : BitVec 1) = 1 then Ideal.rsqrt x else 0) ≠ ⊤
    rw [if_neg (show ¬ (0#1 : BitVec 1) = 1 by decide)]
    exact ⟨le_refl _, EReal.zero_ne_top⟩

end Cert.GcnMath
-- ==== Proof.GraphOps.lean ====
/-
  The idealized kernel program's graph operations read at one entry over the extended reals: the sum of gathered rows
  per target node, the degree factor as a column, the bias rows, the zero-padded output weight and bias, and the first
  two columns of the padded result.
-/
import proofs.«128825_j43533788512795_2_alg».proof.Proof.KernelStages
import proofs.«128825_j43533788512795_2_alg».proof.Proof.LibScatterAddRows
import proofs.«128825_j43533788512795_2_alg».proof.Proof.LibRowGather
import proofs.«128825_j43533788512795_2_alg».proof.Proof.LibBroadcast
import proofs.«128825_j43533788512795_2_alg».proof.Proof.LibColumnsInDim
import proofs.«128825_j43533788512795_2_alg».proof.Proof.LibKeepdims
import proofs.«128825_j43533788512795_2_alg».proof.Proof.GcnMath
import proofs.«128825_j43533788512795_2_alg».proof.Proof.KernelHost
import Idealize.ShloMosaic.Lib.ValueIdx
import Idealize.ShloMosaic.Lib.ValueLayout
import Idealize.ShloMosaic.Lib.KernelVsHost
import Idealize.ShloMosaic.Lib.Pipeline.Value

noncomputable section

open scoped BigOperators

namespace Cert.KernelIdeal.GraphOps

open Cert.KernelIdeal Cert.KernelIdeal.Gen Cert.KernelIdeal.Stages Idealize.ShloMosaic Idealize.ShloMosaic.ValueIdx

/-- The source node of list entry `e`: the wrapped source number, read signed and brought into `0 … 49999`. -/
def srcOf (a2 : IVec S2x800000 32) (e : Fin 850000) : Fin 50000 :=
  ⟨min ((sNorm a2 (ix1 e)).toInt.toNat) 49999, by omega⟩

/-- The target number of list entry `e`, read signed. -/
def tgtOf (a2 : IVec S2x800000 32) (e : Fin 850000) : Int := (dIdx a2 (ix1 e)).toInt

/-- The printed scatter record is the row scatter's. -/
theorem hScatter : scatter_S50000x256_S850000x1_S850000x256_1_0_0_1
    = LibScatterAddRows.rowDims 50000 850000 256 scatter_S50000x256_S850000x1_S850000x256_1_0_0_1_wf := rfl

/-- The printed gather record is the row gather's. -/
theorem hGather : gather_S50000x256_S850000x1_S850000x256_1_0_n_n_0_1_1256
    = Cert.RowGather.dims2 50000 256 850000 gather_S50000x256_S850000x1_S850000x256_1_0_n_n_0_1_1256_wf := rfl

/-- Entry `(n, c)` of the aggregate: the zero word plus, over the list entries that target node `n`, column `c` of
    the row of `h` at the entry's source node. -/
theorem aggr_apply (a2 : IVec S2x800000 32) (h : FVec Ideal S50000x256 .bf16) (n : Fin 50000) (c : Fin 256) :
    aggr a2 h (ix2 n c) = Ideal.ofBits .f32 0x00000000#32
      + ∑ e : Fin 850000, if tgtOf a2 e = (n.val : Int) then h (ix2 (srcOf a2 e) c) else 0 := by
  unfold aggr
  rw [hScatter, hGather]
  refine (LibScatterAddRows.scatterAdd_rows _ _ _ _ n c).trans ?_
  refine congrArg₂ (· + ·) (Cert.Layout.splat_apply _ _ _) (Finset.sum_congr rfl fun e _ => ?_)
  have hd : dCol a2 (ix2 e (0 : Fin 1)) = dIdx a2 (ix1 e) := Cert.Layout.col_of_vec_apply _ _ e
  have hs : broadcastInDim S850000x1 ![0] bcast_S850000_S850000x1_0 (sNorm a2) (ix2 e (0 : Fin 1)) = sNorm a2 (ix1 e) :=
    Cert.Layout.col_of_vec_apply _ _ e
  have hg : extf .f32
      (Host.gather (Cert.RowGather.dims2 50000 256 850000 gather_S50000x256_S850000x1_S850000x256_1_0_n_n_0_1_1256_wf) h
        (broadcastInDim S850000x1 ![0] bcast_S850000_S850000x1_0 (sNorm a2))) bitsLt_bf16_f32 (ix2 e c)
      = h (ix2 (srcOf a2 e) c) := by
    refine (Cert.RowGather.rows2_apply (by decide) _ h _ e c).trans ?_
    refine congrArg (fun r => h (ix2 r c)) (Fin.ext ?_)
    show min (broadcastInDim S850000x1 ![0] bcast_S850000_S850000x1_0 (sNorm a2) (ix2 e (0 : Fin 1))).toInt.toNat (50000 - 1)
      = min (sNorm a2 (ix1 e)).toInt.toNat 49999
    rw [hs]
  rw [hd, hg]
  rfl

/-- The degree factor as a column reads, at `(n, 0)`, the factor of node `n`. -/
theorem dis2d_apply (a2 : IVec S2x800000 32) (n : Fin 50000) : dis2d a2 (ix2 n 0) = dis a2 (ix1 n) :=
  Cert.Keepdims.shapeCast_a_a1_apply (dis a2) shapeCasts_S50000_S50000x1 n 0

/-- A bias vector as a row reads, at `(0, c)`, the vector's entry `c`. -/
theorem row256_apply (b : FVec Ideal S256 .f32) (c : Fin 256) : row256 b (ix2 0 c) = b (ix1 c) :=
  Cert.Layout.row_of_vec_apply b shapeCasts_S256_S1x256 c

/-- Narrowing changes nothing on the extended reals. -/
theorem narrow_apply {s : Shape} (w : FVec Ideal s .f32) (i : s.Idx) : narrow w i = w i := rfl

/-- The padded output weight reads, in its first two columns, the output weight. -/
theorem wPad_apply (a10 : FVec Ideal S256x2 .f32) (k : Fin 256) (j : Fin 2) :
    wPad a10 (ix2 k ⟨j.val, by omega⟩) = a10 (ix2 k j) := by
  unfold wPad
  rw [narrow_apply]
  refine pad_apply_of_inside _ _ _ a10 _ _ _ _ (ix2 k j) (fun a => ?_)
  match a with
  | ⟨0, _⟩ => show k.val = 0 + k.val * (0 + 1); omega
  | ⟨1, _⟩ => show j.val = 0 + j.val * (0 + 1); omega

/-- The padded output bias, as a row, reads in its first two columns the output bias. -/
theorem bPad_apply (a11 : FVec Ideal S2 .f32) (j : Fin 2) :
    bPad a11 (ix2 0 ⟨j.val, by omega⟩) = a11 (ix1 j) := by
  unfold bPad
  refine (Cert.Layout.row_of_vec_apply _ shapeCasts_S128_S1x128 _).trans ?_
  refine pad_apply_of_inside _ _ _ a11 _ _ _ _ (ix1 j) (fun a => ?_)
  match a with
  | ⟨0, _⟩ => show j.val = 0 + j.val * (0 + 1); omega

/-- The first two columns of the padded result, read at `(n, j)`. -/
theorem firstTwo_apply (o : FVec Ideal S50000x128 .f32) (n : Fin 50000) (j : Fin 2) :
    firstTwo o (ix2 n j) = o (ix2 n ⟨j.val, by omega⟩) :=
  slice2_axis1_apply 0 o slices_S50000x128_S50000x2_0_0 n j ⟨j.val, by omega⟩ (Nat.zero_add _).symm

/-- The guarded inverse square root of any vector of counts, read at an entry. -/
theorem guarded_apply (D : FVec Ideal S50000 .f32) (i : S50000.Idx) :
    select (cmpf .ogt D zeroN) (Host.rsqrt (F := Ideal) D) zeroN i = Cert.GcnMath.guardedRsqrt (D i) := rfl

/-- The degree factor of node `n` is the guarded inverse square root of its degree. -/
theorem dis_eq (a2 : IVec S2x800000 32) (n : Fin 50000) :
    dis a2 (ix1 n) = Cert.GcnMath.guardedRsqrt (deg a2 (ix1 n)) := guarded_apply (deg a2) (ix1 n)

/-- Every node's degree factor is non-negative and not +infinity. -/
theorem dis_bounds (a2 : IVec S2x800000 32) (n : Fin 50000) : 0 ≤ dis a2 (ix1 n) ∧ dis a2 (ix1 n) ≠ ⊤ := by
  rw [dis_eq]
  exact Cert.GcnMath.guarded_rsqrt_bounds _

/-- The target node of list entry `e`: the wrapped target number, read signed and brought into `0 … 49999`. -/
def dstOf (a2 : IVec S2x800000 32) (e : Fin 850000) : Fin 50000 :=
  ⟨min ((HostVal.sNormOf (dIdx a2) (ix1 e)).toInt.toNat) 49999, by omega⟩

/-- A list entry whose target number is the node number `n` has `n` as its target node: a node number is not
    negative, so the wrap leaves it alone, and it is already in `0 … 49999`. -/
theorem dstOf_of_tgt (a2 : IVec S2x800000 32) (e : Fin 850000) (n : Fin 50000) (h : tgtOf a2 e = (n.val : Int)) :
    dstOf a2 e = n := by
  have hn := n.isLt
  have hx : (dIdx a2 (ix1 e)).toInt = (n.val : Int) := h
  have hslt : (dIdx a2 (ix1 e)).slt 0#32 = false := by
    show decide ((dIdx a2 (ix1 e)).toInt < (0#32 : BitVec 32).toInt) = false
    rw [hx, BitVec.toInt_zero]
    exact decide_eq_false (by omega)
  have hsel : HostVal.sNormOf (dIdx a2) (ix1 e) = dIdx a2 (ix1 e) := by
    show Scalar.select (BitVec.ofBool ((dIdx a2 (ix1 e)).slt 0#32)) _ (dIdx a2 (ix1 e)) = dIdx a2 (ix1 e)
    rw [hslt]
    exact select_zero _ _
  refine Fin.ext ?_
  show min (HostVal.sNormOf (dIdx a2) (ix1 e)).toInt.toNat 49999 = n.val
  rw [hsel, hx]
  omega

end Cert.KernelIdeal.GraphOps

end
-- ==== Proof.KernelEntries.lean ====
/-
  The idealized kernel program's stages read at an entry.

  Every kernel walks the node arrays in blocks of 2000 rows and its body acts row by row, so an entry of a region's
  output array is the body's arithmetic at that row of the whole arrays: a row block of a product is the product of the
  row block. Read this way the stages are: the two rectified dense layers; the convolution products scaled by the
  node's degree factor; the per-target sums of the scaled rows; and the gated output.
-/
import proofs.«128825_j43533788512795_2_alg».proof.Proof.KernelFold
import proofs.«128825_j43533788512795_2_alg».proof.Proof.Payloads
import proofs.«128825_j43533788512795_2_alg».proof.Proof.GraphOps

noncomputable section

open scoped BigOperators

namespace Cert.KernelIdeal.Entries

open Cert.KernelIdeal Cert.KernelIdeal.Gen Cert.KernelIdeal.Stages Cert.KernelIdeal.RegionVal Cert.KernelIdeal.Fold
open Cert.KernelIdeal.Payloads Cert.KernelIdeal.GraphOps Cert.MatProd Cert.Gcn
open Idealize.ShloMosaic Idealize.ShloMosaic.ValueIdx

/-- A row of a product of a row block is that row of the product of the whole array. -/
theorem prod_rowBlock {f g : Nat} (X : (⟨2, ![50000, f]⟩ : Shape).Idx → EReal) (W : (⟨2, ![f, g]⟩ : Shape).Idx → EReal)
    (i : Fin 50000) (q : Fin g) :
    prod (rowBlock X (blockOf i)) W (ix2 (placeOf i) q) = prod X W (ix2 i q) :=
  prod_block_eq X W (rowBlock X (blockOf i)) W (placeOf i) q (ix2 i q) (fun k => rowBlock_blockOf X i k) (fun _ => rfl)

variable (a0 a1 : FVec Ideal S50000x128 .f32) (a2 : IVec S2x800000 32) (a4 : FVec Ideal S128x256 .f32)
  (a5 : FVec Ideal S256 .f32) (a6 : FVec Ideal S256x256 .f32) (a7 : FVec Ideal S256 .f32) (a8 : FVec Ideal S256x256 .f32)
  (a9 : FVec Ideal S256 .f32) (a10 : FVec Ideal S256x2 .f32) (a11 : FVec Ideal S2 .f32)

/-- The first dense layer at an entry. -/
theorem x0K_apply (i : Fin 50000) (c : Fin 256) :
    x0K a0 a4 a5 (ix2 i c) = leaky (prod a0 a4 (ix2 i c) + a5 (ix1 c)) := by
  show k0_pay3 (F := Ideal) (rowBlock a0 (blockOf i)) (narrow a4) (row256 a5) (ix2 (placeOf i) c) = _
  rw [pay0_3, prod_rowBlock, row256_apply]
  rfl

/-- The same layer on the difference of the feature arrays, at an entry. -/
theorem m0K_apply (i : Fin 50000) (c : Fin 256) :
    m0K a0 a1 a4 a5 (ix2 i c) = leaky (prod (fun y => a1 y - a0 y) a4 (ix2 i c) + a5 (ix1 c)) := by
  show k0_pay4 (F := Ideal) (rowBlock a0 (blockOf i)) (rowBlock a1 (blockOf i)) (narrow a4) (row256 a5) (ix2 (placeOf i) c) = _
  rw [pay0_4, row256_apply]
  rw [prod_block_eq (fun y => a1 y - a0 y) a4 (fun y => rowBlock a1 (blockOf i) y - rowBlock a0 (blockOf i) y) (narrow a4)
    (placeOf i) c (ix2 i c)
    (fun k => by show rowBlock a1 (blockOf i) (ix2 (placeOf i) k) - rowBlock a0 (blockOf i) (ix2 (placeOf i) k) = _
                 rw [rowBlock_blockOf, rowBlock_blockOf])
    (fun _ => rfl)]

/-- The first convolution's scaled product at an entry. -/
theorem h1sK_apply (i : Fin 50000) (c : Fin 256) :
    h1sK a0 a2 a4 a5 a6 (ix2 i c) = prod (x0K a0 a4 a5) a6 (ix2 i c) * dis a2 (ix1 i) := by
  show k1_pay1 (F := Ideal) (rowBlock (x0K a0 a4 a5) (blockOf i)) (narrow a6) (rowBlock (dis2d a2) (blockOf i)) (ix2 (placeOf i) c) = _
  rw [pay1_1, prod_rowBlock, rowBlock_blockOf, dis2d_apply]
  rfl

/-- The per-target sum of the scaled rows at an entry. -/
theorem raw1_apply (n : Fin 50000) (c : Fin 256) :
    raw1 a0 a2 a4 a5 a6 (ix2 n c) = Ideal.ofBits .f32 0x00000000#32
      + ∑ e : Fin 850000, if tgtOf a2 e = (n.val : Int) then h1sK a0 a2 a4 a5 a6 (ix2 (srcOf a2 e) c) else 0 :=
  aggr_apply a2 _ n c

/-- The second convolution's scaled product at an entry. -/
theorem h2sK_apply (i : Fin 50000) (c : Fin 256) :
    h2sK a0 a2 a4 a5 a6 a7 a8 (ix2 i c)
      = prod (fun y => raw1 a0 a2 a4 a5 a6 y * dis a2 (ix1 (y 0)) + a7 (ix1 (y 1))) a8 (ix2 i c) * dis a2 (ix1 i) := by
  show k2_pay1 (F := Ideal) (rowBlock (dis2d a2) (blockOf i)) (rowBlock (raw1 a0 a2 a4 a5 a6) (blockOf i)) (row256 a7) (narrow a8)
    (ix2 (placeOf i) c) = _
  rw [pay2_1, rowBlock_blockOf, dis2d_apply]
  rw [prod_block_eq (fun y => raw1 a0 a2 a4 a5 a6 y * dis a2 (ix1 (y 0)) + a7 (ix1 (y 1))) a8
    (fun y => rowBlock (raw1 a0 a2 a4 a5 a6) (blockOf i) y * rowBlock (dis2d a2) (blockOf i) (ix2 (y 0) 0) + row256 a7 (ix2 0 (y 1)))
    (narrow a8) (placeOf i) c (ix2 i c)
    (fun k => by
      show rowBlock (raw1 a0 a2 a4 a5 a6) (blockOf i) (ix2 (placeOf i) k) * rowBlock (dis2d a2) (blockOf i) (ix2 (placeOf i) 0)
        + row256 a7 (ix2 0 k) = _
      rw [rowBlock_blockOf, rowBlock_blockOf, dis2d_apply, row256_apply])
    (fun _ => rfl)]

/-- The second per-target sum at an entry. -/
theorem raw2_apply (n : Fin 50000) (c : Fin 256) :
    raw2 a0 a2 a4 a5 a6 a7 a8 (ix2 n c) = Ideal.ofBits .f32 0x00000000#32
      + ∑ e : Fin 850000, if tgtOf a2 e = (n.val : Int) then h2sK a0 a2 a4 a5 a6 a7 a8 (ix2 (srcOf a2 e) c) else 0 :=
  aggr_apply a2 _ n c

/-- The gated output at an entry of its 128 columns. -/
theorem outP_apply (i : Fin 50000) (q : Fin 128) :
    outP a0 a1 a2 a4 a5 a6 a7 a8 a9 a10 a11 (ix2 i q)
      = (prod (fun y => raw2 a0 a2 a4 a5 a6 a7 a8 y * dis a2 (ix1 (y 0)) + a9 (ix1 (y 1))) (wPad a10) (ix2 i q) + bPad a11 (ix2 0 q))
        * (prod (m0K a0 a1 a4 a5) (wPad a10) (ix2 i q) + bPad a11 (ix2 0 q)) := by
  show k3_pay1 (F := Ideal) (rowBlock (dis2d a2) (blockOf i)) (rowBlock (raw2 a0 a2 a4 a5 a6 a7 a8) (blockOf i)) (row256 a9)
    (rowBlock (m0K a0 a1 a4 a5) (blockOf i)) (wPad a10) (bPad a11) (ix2 (placeOf i) q) = _
  rw [pay3_1, prod_rowBlock]
  rw [prod_block_eq (fun y => raw2 a0 a2 a4 a5 a6 a7 a8 y * dis a2 (ix1 (y 0)) + a9 (ix1 (y 1))) (wPad a10)
    (fun y => rowBlock (raw2 a0 a2 a4 a5 a6 a7 a8) (blockOf i) y * rowBlock (dis2d a2) (blockOf i) (ix2 (y 0) 0) + row256 a9 (ix2 0 (y 1)))
    (wPad a10) (placeOf i) q (ix2 i q)
    (fun k => by
      show rowBlock (raw2 a0 a2 a4 a5 a6 a7 a8) (blockOf i) (ix2 (placeOf i) k) * rowBlock (dis2d a2) (blockOf i) (ix2 (placeOf i) 0)
        + row256 a9 (ix2 0 k) = _
      rw [rowBlock_blockOf, rowBlock_blockOf, dis2d_apply, row256_apply])
    (fun _ => rfl)]

end Cert.KernelIdeal.Entries

end
-- ==== Proof.Spec.lean ====
/-
  The two-layer graph convolution between dense layers, as one function of the argument arrays, entry by entry.

  `dense` is a product with a weight matrix plus a bias, rectified. `conv H b` is one convolution layer: at node `n`
  and column `c`, the sum over the list entries that target `n` of `H` at the entry's source, weighted by the product of
  the degree factors of the source and of the target, plus the bias. The result gates the output projection of the
  convolved features by the output projection of the rectified difference branch.
-/
import proofs.«128825_j43533788512795_2_alg».proof.Proof.GraphOps
import proofs.«128825_j43533788512795_2_alg».proof.Proof.LibMatProd
import proofs.«128825_j43533788512795_2_alg».proof.Proof.Gcn

noncomputable section

open scoped BigOperators

namespace Cert.Spec

open Cert.KernelIdeal Cert.KernelIdeal.Stages Cert.KernelIdeal.GraphOps Cert.MatProd Cert.Gcn
open Idealize.ShloMosaic Idealize.ShloMosaic.ValueIdx

/-- A matrix of extended reals. -/
abbrev Mat (M N : Nat) : Type := (⟨2, ![M, N]⟩ : Shape).Idx → EReal
/-- A vector of extended reals. -/
abbrev Vec1 (N : Nat) : Type := (⟨1, ![N]⟩ : Shape).Idx → EReal

/-- A rectified dense layer. -/
def dense {f : Nat} (A : Mat 50000 f) (W : Mat f 256) (b : Vec1 256) : Mat 50000 256 :=
  fun i => leaky (prod A W i + b (ix1 (i 1)))

/-- One convolution layer over the edge list `a2`. -/
def conv (a2 : IVec S2x800000 32) (H : Mat 50000 256) (b : Vec1 256) : Mat 50000 256 := fun i =>
  (Ideal.ofBits .f32 0x00000000#32
      + ∑ e : Fin 850000, if tgtOf a2 e = ((i 0).val : Int)
          then H (ix2 (srcOf a2 e) (i 1)) * (dis a2 (ix1 (srcOf a2 e)) * dis a2 (ix1 (dstOf a2 e))) else 0)
    + b (ix1 (i 1))

variable (a0 a1 : Mat 50000 128) (a2 : IVec S2x800000 32) (a4 : Mat 128 256) (a5 : Vec1 256) (a6 : Mat 256 256) (a7 : Vec1 256)
  (a8 : Mat 256 256) (a9 : Vec1 256) (a10 : Mat 256 2) (a11 : Vec1 2)

/-- The rectified first layer on the masked features. -/
def X0 : Mat 50000 256 := dense a0 a4 a5
/-- The same layer on the difference of the feature arrays. -/
def M0 : Mat 50000 256 := dense (fun y => a1 y - a0 y) a4 a5
/-- The first convolution. -/
def X1 : Mat 50000 256 := conv a2 (prod (X0 a0 a4 a5) a6) a7
/-- The second convolution. -/
def X2 : Mat 50000 256 := conv a2 (prod (X1 a0 a2 a4 a5 a6 a7) a8) a9
/-- The gated output. -/
def out : Mat 50000 2 := fun i =>
  (prod (X2 a0 a2 a4 a5 a6 a7 a8 a9) a10 i + a11 (ix1 (i 1))) * (prod (M0 a0 a1 a4 a5) a10 i + a11 (ix1 (i 1)))

end Cert.Spec

end
-- ==== Proof.KernelMeetsSpec.lean ====
/-
  The idealized kernel program computes the specification.

  The kernels keep half of each convolution's weight outside the edge sum: they scale a node's row by its degree factor
  before the rows are gathered and summed per target, and scale the sum by the target's factor afterwards. Since a degree
  factor is a non-negative number that is not +inf, multiplying by it distributes over the sum, and the two weights
  multiply up to the specification's product of factors. The padded output weight agrees with the weight on its first two
  columns, which are the ones the result keeps.
-/
import proofs.«128825_j43533788512795_2_alg».proof.Proof.KernelEntries
import proofs.«128825_j43533788512795_2_alg».proof.Proof.Spec
import proofs.«128825_j43533788512795_2_alg».proof.Proof.GcnMath

noncomputable section

open scoped BigOperators

namespace Cert.KernelIdeal.MeetsSpec

open Cert.KernelIdeal Cert.KernelIdeal.Stages Cert.KernelIdeal.Fold Cert.KernelIdeal.Entries Cert.KernelIdeal.GraphOps
open Cert.MatProd Cert.Gcn Cert.Spec
open Idealize.ShloMosaic Idealize.ShloMosaic.ValueIdx

/-- Scaling rows before the per-target sum and the sum afterwards is one convolution layer. -/
theorem scaled_conv (a2 : IVec S2x800000 32) (H hs raw : Mat 50000 256) (b : Vec1 256)
    (hhs : ∀ (i : Fin 50000) (c : Fin 256), hs (ix2 i c) = H (ix2 i c) * dis a2 (ix1 i))
    (hraw : ∀ (n : Fin 50000) (c : Fin 256), raw (ix2 n c) = Ideal.ofBits .f32 0x00000000#32
      + ∑ e : Fin 850000, if tgtOf a2 e = (n.val : Int) then hs (ix2 (srcOf a2 e) c) else 0) :
    (fun y => raw y * dis a2 (ix1 (y 0)) + b (ix1 (y 1))) = conv a2 H b := by
  funext y
  obtain ⟨n, c, rfl⟩ : ∃ (n : Fin 50000) (c : Fin 256), y = ix2 n c := ⟨y 0, y 1, eq_ix2 y⟩
  show raw (ix2 n c) * dis a2 (ix1 n) + b (ix1 c) = _
  rw [hraw]
  simp only [hhs]
  exact Cert.GcnMath.layer_eq (tgtOf a2) (fun n : Fin 50000 => (n.val : Int)) (srcOf a2) (dstOf a2)
    (fun n => dis a2 (ix1 n)) (fun n => dis_bounds a2 n) (fun e n h => dstOf_of_tgt a2 e n h)
    (fun n c => H (ix2 n c)) (fun c => b (ix1 c)) (Ideal.ofBits .f32 0x00000000#32) Ideal.ofBits_zero_f32 n c

variable (a0 a1 : FVec Ideal S50000x128 .f32) (a2 : IVec S2x800000 32) (a4 : FVec Ideal S128x256 .f32)
  (a5 : FVec Ideal S256 .f32) (a6 : FVec Ideal S256x256 .f32) (a7 : FVec Ideal S256 .f32) (a8 : FVec Ideal S256x256 .f32)
  (a9 : FVec Ideal S256 .f32) (a10 : FVec Ideal S256x2 .f32) (a11 : FVec Ideal S2 .f32)

theorem x0K_eq : x0K a0 a4 a5 = X0 a0 a4 a5 := by
  funext y
  obtain ⟨i, c, rfl⟩ : ∃ (i : Fin 50000) (c : Fin 256), y = ix2 i c := ⟨y 0, y 1, eq_ix2 y⟩
  exact x0K_apply a0 a4 a5 i c

theorem m0K_eq : m0K a0 a1 a4 a5 = M0 a0 a1 a4 a5 := by
  funext y
  obtain ⟨i, c, rfl⟩ : ∃ (i : Fin 50000) (c : Fin 256), y = ix2 i c := ⟨y 0, y 1, eq_ix2 y⟩
  exact m0K_apply a0 a1 a4 a5 i c

/-- The first layer's sum, scaled by the target's factor and biased, is the first convolution. -/
theorem x1K_eq : (fun y => raw1 a0 a2 a4 a5 a6 y * dis a2 (ix1 (y 0)) + a7 (ix1 (y 1))) = X1 a0 a2 a4 a5 a6 a7 :=
  scaled_conv a2 (prod (X0 a0 a4 a5) a6) (h1sK a0 a2 a4 a5 a6) (raw1 a0 a2 a4 a5 a6) a7
    (fun i c => by rw [h1sK_apply, x0K_eq]) (fun n c => raw1_apply a0 a2 a4 a5 a6 n c)

/-- The second layer's sum likewise is the second convolution. -/
theorem x2K_eq : (fun y => raw2 a0 a2 a4 a5 a6 a7 a8 y * dis a2 (ix1 (y 0)) + a9 (ix1 (y 1))) = X2 a0 a2 a4 a5 a6 a7 a8 a9 :=
  scaled_conv a2 (prod (X1 a0 a2 a4 a5 a6 a7) a8) (h2sK a0 a2 a4 a5 a6 a7 a8) (raw2 a0 a2 a4 a5 a6 a7 a8) a9
    (fun i c => by rw [h2sK_apply, x1K_eq]) (fun n c => raw2_apply a0 a2 a4 a5 a6 a7 a8 n c)

/-- A product with the padded output weight, read at one of the first two columns, is the product with the weight. -/
theorem prod_wPad (A : Mat 50000 256) (i : Fin 50000) (j : Fin 2) :
    prod A (wPad a10) (ix2 i (⟨j.val, by omega⟩ : Fin 128)) = prod A a10 (ix2 i j) := by
  rw [prod_apply, prod_apply]
  exact Finset.sum_congr rfl fun k _ => by rw [wPad_apply]

/-- THE KERNEL PROGRAM'S RESULT IS THE SPECIFICATION. -/
theorem outK_eq : outK a0 a1 a2 a4 a5 a6 a7 a8 a9 a10 a11 = Cert.Spec.out a0 a1 a2 a4 a5 a6 a7 a8 a9 a10 a11 := by
  funext y
  obtain ⟨i, j, rfl⟩ : ∃ (i : Fin 50000) (j : Fin 2), y = ix2 i j := ⟨y 0, y 1, eq_ix2 y⟩
  show firstTwo (outP a0 a1 a2 a4 a5 a6 a7 a8 a9 a10 a11) (ix2 i j) = _
  rw [firstTwo_apply, outP_apply, x2K_eq, m0K_eq, prod_wPad, prod_wPad, bPad_apply]
  rfl

end Cert.KernelIdeal.MeetsSpec

end
-- ==== Proof.RefOps.lean ====
/-
  The reference program's @main as one list of its host operations, in order: the 133 operations @main states itself
  and, at each of its four calls, the callee's operations over that call's buffers (the leaky rectifier: the zero, its
  broadcast, the comparison, the slope's copy, its broadcast, the product, the select — seven; the guarded select of the
  inverse square root: one). @main is the straight line of these 148 steps, so every weakly fair execution of it
  terminates with every buffer at the fold of the operations' results over the launch contents.
-/
import proofs.«128825_j43533788512795_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 148 operations, in order, the four calls unfolded at their sites. -/
abbrev ops : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg4 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32),
    TRef.nullary main_call0.cst (constant S_ .f32 0x00000000#32),
    TRef.unary main_call0.cst main_call0.v0 (broadcastInDim S50000x256 ![] bcast_S_S50000x256),
    TRef.binary (.of main_v7 : TRef sig ⟨S50000x256, .f32⟩) main_call0.v0 main_call0.v1 (cmpf .oge),
    TRef.unary (.of main_cst : TRef sig ⟨S_, .f32⟩) main_call0.v2 id,
    TRef.unary main_call0.v2 main_call0.v3 (broadcastInDim S50000x256 ![] bcast_S_S50000x256),
    TRef.binary main_call0.v3 (.of main_v7 : TRef sig ⟨S50000x256, .f32⟩) main_call0.v4 mulf,
    TRef.ternary main_call0.v1 (.of main_v7 : TRef sig ⟨S50000x256, .f32⟩) main_call0.v4 main_call0.call0.v0 select,
    StableHlo.binary main_v8 main_arg6 main_v9 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v10 (iotaInDim S50000 32 0),
    StableHlo.binary main_v1 main_v10 main_v11 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v10 main_v12 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_0 (constant S_ .f32 0x3F800000#32),
    StableHlo.unary main_cst_0 main_v13 (broadcastInDim S850000 ![] bcast_S_S850000 : (⟨S_, .f32⟩ : BufTy).Contents (Elt F) → (⟨S850000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.unary main_v12 main_v15 (broadcastInDim S850000x1 ![0] bcast_S850000_S850000x1_0 : (⟨S850000, .i32⟩ : BufTy).Contents (Elt F) → (⟨S850000x1, .i32⟩ : BufTy).Contents (Elt F)),
    StableHlo.ternary main_v14 main_v15 main_v13 main_v16 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v17 (broadcastInDim S50000 ![] bcast_S_S50000 : (⟨S_, .f32⟩ : BufTy).Contents (Elt F) → (⟨S50000, .f32⟩ : BufTy).Contents (Elt F)),
    StableHlo.binary main_v16 main_v17 main_v18 (cmpf .ogt : (⟨S50000, .f32⟩ : BufTy).Contents (Elt F) → (⟨S50000, .f32⟩ : BufTy).Contents (Elt F) → (⟨S50000, .i1⟩ : BufTy).Contents (Elt F)),
    StableHlo.unary main_v16 main_v19 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_v20 (broadcastInDim S50000 ![] bcast_S_S50000 : (⟨S_, .f32⟩ : BufTy).Contents (Elt F) → (⟨S50000, .f32⟩ : BufTy).Contents (Elt F)),
    TRef.ternary (.of main_v18 : TRef sig ⟨S50000, .i1⟩) (.of main_v19 : TRef sig ⟨S50000, .f32⟩) (.of main_v20 : TRef sig ⟨S50000, .f32⟩) main_call1.v0 select,
    StableHlo.nullary main_c (constantI S_ 32 0#32),
    StableHlo.unary main_c main_v22 (broadcastInDim S850000 ![] bcast_S_S850000 : (⟨S_, .i32⟩ : BufTy).Contents (Elt F) → (⟨S850000, .i32⟩ : BufTy).Contents (Elt F)),
    StableHlo.binary main_v11 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v24 (broadcastInDim S850000 ![] bcast_S_S850000 : (⟨S_, .i32⟩ : BufTy).Contents (Elt F) → (⟨S850000, .i32⟩ : BufTy).Contents (Elt F)),
    StableHlo.binary main_v11 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v11 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v21 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v29 (broadcastInDim S850000 ![] bcast_S_S850000 : (⟨S_, .i32⟩ : BufTy).Contents (Elt F) → (⟨S850000, .i32⟩ : BufTy).Contents (Elt F)),
    StableHlo.binary main_v12 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v31 (broadcastInDim S850000 ![] bcast_S_S850000 : (⟨S_, .i32⟩ : BufTy).Contents (Elt F) → (⟨S850000, .i32⟩ : BufTy).Contents (Elt F)),
    StableHlo.binary main_v12 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v12 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v21 main_v34 main_v35 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v28 main_v35 main_v36 (mulf : (⟨S850000, .f32⟩ : BufTy).Contents (Elt F) → (⟨S850000, .f32⟩ : BufTy).Contents (Elt F) → (⟨S850000, .f32⟩ : BufTy).Contents (Elt F)),
    StableHlo.nullary main_c_7 (constantI S_ 32 0#32),
    StableHlo.unary main_c_7 main_v37 (broadcastInDim S850000 ![] bcast_S_S850000 : (⟨S_, .i32⟩ : BufTy).Contents (Elt F) → (⟨S850000, .i32⟩ : BufTy).Contents (Elt F)),
    StableHlo.binary main_v11 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v39 (broadcastInDim S850000 ![] bcast_S_S850000 : (⟨S_, .i32⟩ : BufTy).Contents (Elt F) → (⟨S850000, .i32⟩ : BufTy).Contents (Elt F)),
    StableHlo.binary main_v11 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v11 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v9 main_v42 main_v43 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v36 main_v44 (broadcastInDim S850000x1 ![0] bcast_S850000_S850000x1_0 : (⟨S850000, .f32⟩ : BufTy).Contents (Elt F) → (⟨S850000x1, .f32⟩ : BufTy).Contents (Elt F)),
    StableHlo.unary main_v44 main_v45 (broadcastInDim S850000x256 ![0, 1] bcast_S850000x1_S850000x256_0_1 : (⟨S850000x1, .f32⟩ : BufTy).Contents (Elt F) → (⟨S850000x256, .f32⟩ : BufTy).Contents (Elt F)),
    StableHlo.binary main_v43 main_v45 main_v46 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v47 (broadcastInDim S50000x256 ![] bcast_S_S50000x256 : (⟨S_, .f32⟩ : BufTy).Contents (Elt F) → (⟨S50000x256, .f32⟩ : BufTy).Contents (Elt F)),
    StableHlo.unary main_v12 main_v48 (broadcastInDim S850000x1 ![0] bcast_S850000_S850000x1_0 : (⟨S850000, .i32⟩ : BufTy).Contents (Elt F) → (⟨S850000x1, .i32⟩ : BufTy).Contents (Elt F)),
    StableHlo.ternary main_v47 main_v48 main_v46 main_v49 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v51 main_v52 (addf : (⟨S50000x256, .f32⟩ : BufTy).Contents (Elt F) → (⟨S50000x256, .f32⟩ : BufTy).Contents (Elt F) → (⟨S50000x256, .f32⟩ : BufTy).Contents (Elt F)),
    StableHlo.binary main_v52 main_arg8 main_v53 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v54 (iotaInDim S50000 32 0),
    StableHlo.binary main_v1 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_10 (constant S_ .f32 0x3F800000#32),
    StableHlo.unary main_cst_10 main_v57 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v58 (broadcastInDim S50000 ![] bcast_S_S50000 : (⟨S_, .f32⟩ : BufTy).Contents (Elt F) → (⟨S50000, .f32⟩ : BufTy).Contents (Elt F)),
    StableHlo.unary main_v56 main_v59 (broadcastInDim S850000x1 ![0] bcast_S850000_S850000x1_0 : (⟨S850000, .i32⟩ : BufTy).Contents (Elt F) → (⟨S850000x1, .i32⟩ : BufTy).Contents (Elt F)),
    StableHlo.ternary main_v58 main_v59 main_v57 main_v60 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_12 (constant S_ .f32 0x00000000#32),
    StableHlo.unary main_cst_12 main_v61 (broadcastInDim S50000 ![] bcast_S_S50000 : (⟨S_, .f32⟩ : BufTy).Contents (Elt F) → (⟨S50000, .f32⟩ : BufTy).Contents (Elt F)),
    StableHlo.binary main_v60 main_v61 main_v62 (cmpf .ogt : (⟨S50000, .f32⟩ : BufTy).Contents (Elt F) → (⟨S50000, .f32⟩ : BufTy).Contents (Elt F) → (⟨S50000, .i1⟩ : BufTy).Contents (Elt F)),
    StableHlo.unary main_v60 main_v63 (Host.rsqrt : (⟨S50000, .f32⟩ : BufTy).Contents (Elt F) → (⟨S50000, .f32⟩ : BufTy).Contents (Elt F)),
    StableHlo.nullary main_cst_13 (constant S_ .f32 0x00000000#32),
    StableHlo.unary main_cst_13 main_v64 (broadcastInDim S50000 ![] bcast_S_S50000 : (⟨S_, .f32⟩ : BufTy).Contents (Elt F) → (⟨S50000, .f32⟩ : BufTy).Contents (Elt F)),
    TRef.ternary (.of main_v62 : TRef sig ⟨S50000, .i1⟩) (.of main_v63 : TRef sig ⟨S50000, .f32⟩) (.of main_v64 : TRef sig ⟨S50000, .f32⟩) main_call2.v0 select,
    StableHlo.nullary main_c_14 (constantI S_ 32 0#32),
    StableHlo.unary main_c_14 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v73 (broadcastInDim S850000 ![] bcast_S_S850000 : (⟨S_, .i32⟩ : BufTy).Contents (Elt F) → (⟨S850000, .i32⟩ : BufTy).Contents (Elt F)),
    StableHlo.binary main_v56 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v75 (broadcastInDim S850000 ![] bcast_S_S850000 : (⟨S_, .i32⟩ : BufTy).Contents (Elt F) → (⟨S850000, .i32⟩ : BufTy).Contents (Elt F)),
    StableHlo.binary main_v56 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v56 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v65 main_v78 main_v79 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v79 main_v80 (mulf : (⟨S850000, .f32⟩ : BufTy).Contents (Elt F) → (⟨S850000, .f32⟩ : BufTy).Contents (Elt F) → (⟨S850000, .f32⟩ : BufTy).Contents (Elt F)),
    StableHlo.nullary main_c_18 (constantI S_ 32 0#32),
    StableHlo.unary main_c_18 main_v81 (broadcastInDim S850000 ![] bcast_S_S850000 : (⟨S_, .i32⟩ : BufTy).Contents (Elt F) → (⟨S850000, .i32⟩ : BufTy).Contents (Elt F)),
    StableHlo.binary main_v55 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v83 (broadcastInDim S850000 ![] bcast_S_S850000 : (⟨S_, .i32⟩ : BufTy).Contents (Elt F) → (⟨S850000, .i32⟩ : BufTy).Contents (Elt F)),
    StableHlo.binary main_v55 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v55 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v53 main_v86 main_v87 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v80 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x256 ![0, 1] bcast_S850000x1_S850000x256_0_1 : (⟨S850000x1, .f32⟩ : BufTy).Contents (Elt F) → (⟨S850000x256, .f32⟩ : BufTy).Contents (Elt F)),
    StableHlo.binary main_v87 main_v89 main_v90 (mulf : (⟨S850000x256, .f32⟩ : BufTy).Contents (Elt F) → (⟨S850000x256, .f32⟩ : BufTy).Contents (Elt F) → (⟨S850000x256, .f32⟩ : BufTy).Contents (Elt F)),
    StableHlo.nullary main_cst_20 (constant S_ .f32 0x00000000#32),
    StableHlo.unary main_cst_20 main_v91 (broadcastInDim S50000x256 ![] bcast_S_S50000x256 : (⟨S_, .f32⟩ : BufTy).Contents (Elt F) → (⟨S50000x256, .f32⟩ : BufTy).Contents (Elt F)),
    StableHlo.unary main_v56 main_v92 (broadcastInDim S850000x1 ![0] bcast_S850000_S850000x1_0 : (⟨S850000, .i32⟩ : BufTy).Contents (Elt F) → (⟨S850000x1, .i32⟩ : BufTy).Contents (Elt F)),
    StableHlo.ternary main_v91 main_v92 main_v90 main_v93 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (addf : (⟨S50000x256, .f32⟩ : BufTy).Contents (Elt F) → (⟨S50000x256, .f32⟩ : BufTy).Contents (Elt F) → (⟨S50000x256, .f32⟩ : BufTy).Contents (Elt F)),
    StableHlo.binary main_v96 main_arg10 main_v97 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg11 main_v98 (broadcastInDim S1x2 ![1] bcast_S2_S1x2_1 : (⟨S2, .f32⟩ : BufTy).Contents (Elt F) → (⟨S1x2, .f32⟩ : BufTy).Contents (Elt F)),
    StableHlo.unary main_v98 main_v99 (broadcastInDim S50000x2 ![0, 1] bcast_S1x2_S50000x2_0_1 : (⟨S1x2, .f32⟩ : BufTy).Contents (Elt F) → (⟨S50000x2, .f32⟩ : BufTy).Contents (Elt F)),
    StableHlo.binary main_v97 main_v99 main_v100 (addf : (⟨S50000x2, .f32⟩ : BufTy).Contents (Elt F) → (⟨S50000x2, .f32⟩ : BufTy).Contents (Elt F) → (⟨S50000x2, .f32⟩ : BufTy).Contents (Elt F)),
    StableHlo.binary main_arg1 main_arg0 main_v101 (subf : (⟨S50000x128, .f32⟩ : BufTy).Contents (Elt F) → (⟨S50000x128, .f32⟩ : BufTy).Contents (Elt F) → (⟨S50000x128, .f32⟩ : BufTy).Contents (Elt F)),
    StableHlo.binary main_v101 main_arg4 main_v102 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S50000x256 ![0, 1] bcast_S1x256_S50000x256_0_1 : (⟨S1x256, .f32⟩ : BufTy).Contents (Elt F) → (⟨S50000x256, .f32⟩ : BufTy).Contents (Elt F)),
    StableHlo.binary main_v102 main_v104 main_v105 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3C23D70A#32),
    TRef.nullary main_call3.cst (constant S_ .f32 0x00000000#32),
    TRef.unary main_call3.cst main_call3.v0 (broadcastInDim S50000x256 ![] bcast_S_S50000x256),
    TRef.binary (.of main_v105 : TRef sig ⟨S50000x256, .f32⟩) main_call3.v0 main_call3.v1 (cmpf .oge),
    TRef.unary (.of main_cst_21 : TRef sig ⟨S_, .f32⟩) main_call3.v2 id,
    TRef.unary main_call3.v2 main_call3.v3 (broadcastInDim S50000x256 ![] bcast_S_S50000x256),
    TRef.binary main_call3.v3 (.of main_v105 : TRef sig ⟨S50000x256, .f32⟩) main_call3.v4 mulf,
    TRef.ternary main_call3.v1 (.of main_v105 : TRef sig ⟨S50000x256, .f32⟩) main_call3.v4 main_call3.call0.v0 select,
    StableHlo.binary main_v106 main_arg10 main_v107 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg11 main_v108 (broadcastInDim S1x2 ![1] bcast_S2_S1x2_1 : (⟨S2, .f32⟩ : BufTy).Contents (Elt F) → (⟨S1x2, .f32⟩ : BufTy).Contents (Elt F)),
    StableHlo.unary main_v108 main_v109 (broadcastInDim S50000x2 ![0, 1] bcast_S1x2_S50000x2_0_1 : (⟨S1x2, .f32⟩ : BufTy).Contents (Elt F) → (⟨S50000x2, .f32⟩ : BufTy).Contents (Elt F)),
    StableHlo.binary main_v107 main_v109 main_v110 (addf : (⟨S50000x2, .f32⟩ : BufTy).Contents (Elt F) → (⟨S50000x2, .f32⟩ : BufTy).Contents (Elt F) → (⟨S50000x2, .f32⟩ : BufTy).Contents (Elt F)),
    StableHlo.binary main_v100 main_v110 main_v111 (mulf : (⟨S50000x2, .f32⟩ : BufTy).Contents (Elt F) → (⟨S50000x2, .f32⟩ : BufTy).Contents (Elt F) → (⟨S50000x2, .f32⟩ : BufTy).Contents (Elt F)) ]

-- 148 binds re-associated: the rewriting recurses once per statement
set_option maxRecDepth 4096 in
set_option maxHeartbeats 4000000 in
/-- @main is that straight line: its three windows in order, the called functions' definitions unfolded at their calls
    and the calls' records at their fields; both sides are one chain of steps once sequencing is reassociated. -/
theorem main_eq (c : Dev nD) : main (F := F) c = seq ops := by
  simp only [main, main_part0, main_part1, main_part2, fn_leaky_relu.body, fn_where.body, fn_where_0.body, seq, bind_assoc,
    pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., binary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStretch.lean ====
/-
  The reference's operation list cut into fourteen consecutive stretches — each ends right after a buffer a later stretch
  reads, and each called function's operations are a stretch of their own — with the list as their concatenation and the
  fold of a concatenation as the folds in turn.
-/
import proofs.«128825_j43533788512795_2_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 9 of the 148. -/
abbrev opsA : List (HloOp τ sig (Elt F)) :=
  [ StableHlo.unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg4 main_v4 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.nullary main_cst (constant S_ .f32 0x3C23D70A#32) ]

/-- Operations 10 … 16 of the 148. -/
abbrev opsB : List (HloOp τ sig (Elt F)) :=
  [ TRef.nullary main_call0.cst (constant S_ .f32 0x00000000#32),
    TRef.unary main_call0.cst main_call0.v0 (broadcastInDim S50000x256 ![] bcast_S_S50000x256),
    TRef.binary (.of main_v7 : TRef sig ⟨S50000x256, .f32⟩) main_call0.v0 main_call0.v1 (cmpf .oge),
    TRef.unary (.of main_cst : TRef sig ⟨S_, .f32⟩) main_call0.v2 id,
    TRef.unary main_call0.v2 main_call0.v3 (broadcastInDim S50000x256 ![] bcast_S_S50000x256),
    TRef.binary main_call0.v3 (.of main_v7 : TRef sig ⟨S50000x256, .f32⟩) main_call0.v4 mulf,
    TRef.ternary main_call0.v1 (.of main_v7 : TRef sig ⟨S50000x256, .f32⟩) main_call0.v4 main_call0.call0.v0 select ]

/-- Operations 17 … 32 of the 148. -/
abbrev opsC : List (HloOp τ sig (Elt F)) :=
  [ StableHlo.binary main_v8 main_arg6 main_v9 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v10 (iotaInDim S50000 32 0),
    StableHlo.binary main_v1 main_v10 main_v11 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v10 main_v12 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_0 (constant S_ .f32 0x3F800000#32),
    StableHlo.unary main_cst_0 main_v13 (broadcastInDim S850000 ![] bcast_S_S850000 : (⟨S_, .f32⟩ : BufTy).Contents (Elt F) → (⟨S850000, .f32⟩ : BufTy).Contents (Elt F)),
    StableHlo.nullary main_cst_1 (constant S_ .f32 0x00000000#32),
    StableHlo.unary main_cst_1 main_v14 (broadcastInDim S50000 ![] bcast_S_S50000 : (⟨S_, .f32⟩ : BufTy).Contents (Elt F) → (⟨S50000, .f32⟩ : BufTy).Contents (Elt F)),
    StableHlo.unary main_v12 main_v15 (broadcastInDim S850000x1 ![0] bcast_S850000_S850000x1_0 : (⟨S850000, .i32⟩ : BufTy).Contents (Elt F) → (⟨S850000x1, .i32⟩ : BufTy).Contents (Elt F)),
    StableHlo.ternary main_v14 main_v15 main_v13 main_v16 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_2 (constant S_ .f32 0x00000000#32),
    StableHlo.unary main_cst_2 main_v17 (broadcastInDim S50000 ![] bcast_S_S50000 : (⟨S_, .f32⟩ : BufTy).Contents (Elt F) → (⟨S50000, .f32⟩ : BufTy).Contents (Elt F)),
    StableHlo.binary main_v16 main_v17 main_v18 (cmpf .ogt : (⟨S50000, .f32⟩ : BufTy).Contents (Elt F) → (⟨S50000, .f32⟩ : BufTy).Contents (Elt F) → (⟨S50000, .i1⟩ : BufTy).Contents (Elt F)),
    StableHlo.unary main_v16 main_v19 (Host.rsqrt : (⟨S50000, .f32⟩ : BufTy).Contents (Elt F) → (⟨S50000, .f32⟩ : BufTy).Contents (Elt F)),
    StableHlo.nullary main_cst_3 (constant S_ .f32 0x00000000#32),
    StableHlo.unary main_cst_3 main_v20 (broadcastInDim S50000 ![] bcast_S_S50000 : (⟨S_, .f32⟩ : BufTy).Contents (Elt F) → (⟨S50000, .f32⟩ : BufTy).Contents (Elt F)) ]

/-- Operations 33 … 33 of the 148. -/
abbrev opsD : List (HloOp τ sig (Elt F)) :=
  [ TRef.ternary (.of main_v18 : TRef sig ⟨S50000, .i1⟩) (.of main_v19 : TRef sig ⟨S50000, .f32⟩) (.of main_v20 : TRef sig ⟨S50000, .f32⟩) main_call1.v0 select ]

/-- Operations 34 … 52 of the 148. -/
abbrev opsE : List (HloOp τ sig (Elt F)) :=
  [ StableHlo.nullary main_c (constantI S_ 32 0#32),
    StableHlo.unary main_c main_v22 (broadcastInDim S850000 ![] bcast_S_S850000 : (⟨S_, .i32⟩ : BufTy).Contents (Elt F) → (⟨S850000, .i32⟩ : BufTy).Contents (Elt F)),
    StableHlo.binary main_v11 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v24 (broadcastInDim S850000 ![] bcast_S_S850000 : (⟨S_, .i32⟩ : BufTy).Contents (Elt F) → (⟨S850000, .i32⟩ : BufTy).Contents (Elt F)),
    StableHlo.binary main_v11 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v11 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v21 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v29 (broadcastInDim S850000 ![] bcast_S_S850000 : (⟨S_, .i32⟩ : BufTy).Contents (Elt F) → (⟨S850000, .i32⟩ : BufTy).Contents (Elt F)),
    StableHlo.binary main_v12 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v31 (broadcastInDim S850000 ![] bcast_S_S850000 : (⟨S_, .i32⟩ : BufTy).Contents (Elt F) → (⟨S850000, .i32⟩ : BufTy).Contents (Elt F)),
    StableHlo.binary main_v12 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v12 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v21 main_v34 main_v35 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v28 main_v35 main_v36 (mulf : (⟨S850000, .f32⟩ : BufTy).Contents (Elt F) → (⟨S850000, .f32⟩ : BufTy).Contents (Elt F) → (⟨S850000, .f32⟩ : BufTy).Contents (Elt F)) ]

/-- Operations 53 … 66 of the 148. -/
abbrev opsF : List (HloOp τ sig (Elt F)) :=
  [ StableHlo.nullary main_c_7 (constantI S_ 32 0#32),
    StableHlo.unary main_c_7 main_v37 (broadcastInDim S850000 ![] bcast_S_S850000 : (⟨S_, .i32⟩ : BufTy).Contents (Elt F) → (⟨S850000, .i32⟩ : BufTy).Contents (Elt F)),
    StableHlo.binary main_v11 main_v37 main_v38 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v39 (broadcastInDim S850000 ![] bcast_S_S850000 : (⟨S_, .i32⟩ : BufTy).Contents (Elt F) → (⟨S850000, .i32⟩ : BufTy).Contents (Elt F)),
    StableHlo.binary main_v11 main_v39 main_v40 (addi : (⟨S850000, .i32⟩ : BufTy).Contents (Elt F) → (⟨S850000, .i32⟩ : BufTy).Contents (Elt F) → (⟨S850000, .i32⟩ : BufTy).Contents (Elt F)),
    StableHlo.ternary main_v38 main_v40 main_v11 main_v41 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v41 main_v42 (broadcastInDim S850000x1 ![0] bcast_S850000_S850000x1_0 : (⟨S850000, .i32⟩ : BufTy).Contents (Elt F) → (⟨S850000x1, .i32⟩ : BufTy).Contents (Elt F)),
    StableHlo.binary main_v9 main_v42 main_v43 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v36 main_v44 (broadcastInDim S850000x1 ![0] bcast_S850000_S850000x1_0 : (⟨S850000, .f32⟩ : BufTy).Contents (Elt F) → (⟨S850000x1, .f32⟩ : BufTy).Contents (Elt F)),
    StableHlo.unary main_v44 main_v45 (broadcastInDim S850000x256 ![0, 1] bcast_S850000x1_S850000x256_0_1 : (⟨S850000x1, .f32⟩ : BufTy).Contents (Elt F) → (⟨S850000x256, .f32⟩ : BufTy).Contents (Elt F)),
    StableHlo.binary main_v43 main_v45 main_v46 (mulf : (⟨S850000x256, .f32⟩ : BufTy).Contents (Elt F) → (⟨S850000x256, .f32⟩ : BufTy).Contents (Elt F) → (⟨S850000x256, .f32⟩ : BufTy).Contents (Elt F)),
    StableHlo.nullary main_cst_9 (constant S_ .f32 0x00000000#32),
    StableHlo.unary main_cst_9 main_v47 (broadcastInDim S50000x256 ![] bcast_S_S50000x256 : (⟨S_, .f32⟩ : BufTy).Contents (Elt F) → (⟨S50000x256, .f32⟩ : BufTy).Contents (Elt F)) ]

/-- Operations 67 … 71 of the 148. -/
abbrev opsG : List (HloOp τ sig (Elt F)) :=
  [ StableHlo.unary main_v12 main_v48 (broadcastInDim S850000x1 ![0] bcast_S850000_S850000x1_0 : (⟨S850000, .i32⟩ : BufTy).Contents (Elt F) → (⟨S850000x1, .i32⟩ : BufTy).Contents (Elt F)),
    StableHlo.ternary main_v47 main_v48 main_v46 main_v49 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S50000x256 ![0, 1] bcast_S1x256_S50000x256_0_1 : (⟨S1x256, .f32⟩ : BufTy).Contents (Elt F) → (⟨S50000x256, .f32⟩ : BufTy).Contents (Elt F)),
    StableHlo.binary main_v49 main_v51 main_v52 (addf : (⟨S50000x256, .f32⟩ : BufTy).Contents (Elt F) → (⟨S50000x256, .f32⟩ : BufTy).Contents (Elt F) → (⟨S50000x256, .f32⟩ : BufTy).Contents (Elt F)) ]

/-- Operations 72 … 87 of the 148. -/
abbrev opsH : List (HloOp τ sig (Elt F)) :=
  [ StableHlo.binary main_v52 main_arg8 main_v53 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_v54 (iotaInDim S50000 32 0),
    StableHlo.binary main_v1 main_v54 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v54 main_v56 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_10 (constant S_ .f32 0x3F800000#32),
    StableHlo.unary main_cst_10 main_v57 (broadcastInDim S850000 ![] bcast_S_S850000 : (⟨S_, .f32⟩ : BufTy).Contents (Elt F) → (⟨S850000, .f32⟩ : BufTy).Contents (Elt F)),
    StableHlo.nullary main_cst_11 (constant S_ .f32 0x00000000#32),
    StableHlo.unary main_cst_11 main_v58 (broadcastInDim S50000 ![] bcast_S_S50000 : (⟨S_, .f32⟩ : BufTy).Contents (Elt F) → (⟨S50000, .f32⟩ : BufTy).Contents (Elt F)),
    StableHlo.unary main_v56 main_v59 (broadcastInDim S850000x1 ![0] bcast_S850000_S850000x1_0 : (⟨S850000, .i32⟩ : BufTy).Contents (Elt F) → (⟨S850000x1, .i32⟩ : BufTy).Contents (Elt F)),
    StableHlo.ternary main_v58 main_v59 main_v57 main_v60 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_12 (constant S_ .f32 0x00000000#32),
    StableHlo.unary main_cst_12 main_v61 (broadcastInDim S50000 ![] bcast_S_S50000 : (⟨S_, .f32⟩ : BufTy).Contents (Elt F) → (⟨S50000, .f32⟩ : BufTy).Contents (Elt F)),
    StableHlo.binary main_v60 main_v61 main_v62 (cmpf .ogt : (⟨S50000, .f32⟩ : BufTy).Contents (Elt F) → (⟨S50000, .f32⟩ : BufTy).Contents (Elt F) → (⟨S50000, .i1⟩ : BufTy).Contents (Elt F)),
    StableHlo.unary main_v60 main_v63 (Host.rsqrt : (⟨S50000, .f32⟩ : BufTy).Contents (Elt F) → (⟨S50000, .f32⟩ : BufTy).Contents (Elt F)),
    StableHlo.nullary main_cst_13 (constant S_ .f32 0x00000000#32),
    StableHlo.unary main_cst_13 main_v64 (broadcastInDim S50000 ![] bcast_S_S50000 : (⟨S_, .f32⟩ : BufTy).Contents (Elt F) → (⟨S50000, .f32⟩ : BufTy).Contents (Elt F)) ]

/-- Operations 88 … 88 of the 148. -/
abbrev opsI : List (HloOp τ sig (Elt F)) :=
  [ TRef.ternary (.of main_v62 : TRef sig ⟨S50000, .i1⟩) (.of main_v63 : TRef sig ⟨S50000, .f32⟩) (.of main_v64 : TRef sig ⟨S50000, .f32⟩) main_call2.v0 select ]

/-- Operations 89 … 107 of the 148. -/
abbrev opsJ : List (HloOp τ sig (Elt F)) :=
  [ StableHlo.nullary main_c_14 (constantI S_ 32 0#32),
    StableHlo.unary main_c_14 main_v66 (broadcastInDim S850000 ![] bcast_S_S850000 : (⟨S_, .i32⟩ : BufTy).Contents (Elt F) → (⟨S850000, .i32⟩ : BufTy).Contents (Elt F)),
    StableHlo.binary main_v55 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_15 (constantI S_ 32 50000#32),
    StableHlo.unary main_c_15 main_v68 (broadcastInDim S850000 ![] bcast_S_S850000 : (⟨S_, .i32⟩ : BufTy).Contents (Elt F) → (⟨S850000, .i32⟩ : BufTy).Contents (Elt F)),
    StableHlo.binary main_v55 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v55 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_16 (constantI S_ 32 0#32),
    StableHlo.unary main_c_16 main_v73 (broadcastInDim S850000 ![] bcast_S_S850000 : (⟨S_, .i32⟩ : BufTy).Contents (Elt F) → (⟨S850000, .i32⟩ : BufTy).Contents (Elt F)),
    StableHlo.binary main_v56 main_v73 main_v74 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v75 (broadcastInDim S850000 ![] bcast_S_S850000 : (⟨S_, .i32⟩ : BufTy).Contents (Elt F) → (⟨S850000, .i32⟩ : BufTy).Contents (Elt F)),
    StableHlo.binary main_v56 main_v75 main_v76 (addi : (⟨S850000, .i32⟩ : BufTy).Contents (Elt F) → (⟨S850000, .i32⟩ : BufTy).Contents (Elt F) → (⟨S850000, .i32⟩ : BufTy).Contents (Elt F)),
    StableHlo.ternary main_v74 main_v76 main_v56 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v77 main_v78 (broadcastInDim S850000x1 ![0] bcast_S850000_S850000x1_0 : (⟨S850000, .i32⟩ : BufTy).Contents (Elt F) → (⟨S850000x1, .i32⟩ : BufTy).Contents (Elt F)),
    StableHlo.binary main_v65 main_v78 main_v79 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v72 main_v79 main_v80 (mulf : (⟨S850000, .f32⟩ : BufTy).Contents (Elt F) → (⟨S850000, .f32⟩ : BufTy).Contents (Elt F) → (⟨S850000, .f32⟩ : BufTy).Contents (Elt F)) ]

/-- Operations 108 … 126 of the 148. -/
abbrev opsK : List (HloOp τ sig (Elt F)) :=
  [ StableHlo.nullary main_c_18 (constantI S_ 32 0#32),
    StableHlo.unary main_c_18 main_v81 (broadcastInDim S850000 ![] bcast_S_S850000 : (⟨S_, .i32⟩ : BufTy).Contents (Elt F) → (⟨S850000, .i32⟩ : BufTy).Contents (Elt F)),
    StableHlo.binary main_v55 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v83 (broadcastInDim S850000 ![] bcast_S_S850000 : (⟨S_, .i32⟩ : BufTy).Contents (Elt F) → (⟨S850000, .i32⟩ : BufTy).Contents (Elt F)),
    StableHlo.binary main_v55 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v55 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v53 main_v86 main_v87 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v80 main_v88 (broadcastInDim S850000x1 ![0] bcast_S850000_S850000x1_0 : (⟨S850000, .f32⟩ : BufTy).Contents (Elt F) → (⟨S850000x1, .f32⟩ : BufTy).Contents (Elt F)),
    StableHlo.unary main_v88 main_v89 (broadcastInDim S850000x256 ![0, 1] bcast_S850000x1_S850000x256_0_1 : (⟨S850000x1, .f32⟩ : BufTy).Contents (Elt F) → (⟨S850000x256, .f32⟩ : BufTy).Contents (Elt F)),
    StableHlo.binary main_v87 main_v89 main_v90 (mulf : (⟨S850000x256, .f32⟩ : BufTy).Contents (Elt F) → (⟨S850000x256, .f32⟩ : BufTy).Contents (Elt F) → (⟨S850000x256, .f32⟩ : BufTy).Contents (Elt F)),
    StableHlo.nullary main_cst_20 (constant S_ .f32 0x00000000#32),
    StableHlo.unary main_cst_20 main_v91 (broadcastInDim S50000x256 ![] bcast_S_S50000x256 : (⟨S_, .f32⟩ : BufTy).Contents (Elt F) → (⟨S50000x256, .f32⟩ : BufTy).Contents (Elt F)),
    StableHlo.unary main_v56 main_v92 (broadcastInDim S850000x1 ![0] bcast_S850000_S850000x1_0 : (⟨S850000, .i32⟩ : BufTy).Contents (Elt F) → (⟨S850000x1, .i32⟩ : BufTy).Contents (Elt F)),
    StableHlo.ternary main_v91 main_v92 main_v90 main_v93 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg9 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v93 main_v95 main_v96 (addf : (⟨S50000x256, .f32⟩ : BufTy).Contents (Elt F) → (⟨S50000x256, .f32⟩ : BufTy).Contents (Elt F) → (⟨S50000x256, .f32⟩ : BufTy).Contents (Elt F)) ]

/-- Operations 127 … 136 of the 148. -/
abbrev opsL : List (HloOp τ sig (Elt F)) :=
  [ StableHlo.binary main_v96 main_arg10 main_v97 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg11 main_v98 (broadcastInDim S1x2 ![1] bcast_S2_S1x2_1 : (⟨S2, .f32⟩ : BufTy).Contents (Elt F) → (⟨S1x2, .f32⟩ : BufTy).Contents (Elt F)),
    StableHlo.unary main_v98 main_v99 (broadcastInDim S50000x2 ![0, 1] bcast_S1x2_S50000x2_0_1 : (⟨S1x2, .f32⟩ : BufTy).Contents (Elt F) → (⟨S50000x2, .f32⟩ : BufTy).Contents (Elt F)),
    StableHlo.binary main_v97 main_v99 main_v100 (addf : (⟨S50000x2, .f32⟩ : BufTy).Contents (Elt F) → (⟨S50000x2, .f32⟩ : BufTy).Contents (Elt F) → (⟨S50000x2, .f32⟩ : BufTy).Contents (Elt F)),
    StableHlo.binary main_arg1 main_arg0 main_v101 (subf : (⟨S50000x128, .f32⟩ : BufTy).Contents (Elt F) → (⟨S50000x128, .f32⟩ : BufTy).Contents (Elt F) → (⟨S50000x128, .f32⟩ : BufTy).Contents (Elt F)),
    StableHlo.binary main_v101 main_arg4 main_v102 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S50000x256 ![0, 1] bcast_S1x256_S50000x256_0_1 : (⟨S1x256, .f32⟩ : BufTy).Contents (Elt F) → (⟨S50000x256, .f32⟩ : BufTy).Contents (Elt F)),
    StableHlo.binary main_v102 main_v104 main_v105 (addf : (⟨S50000x256, .f32⟩ : BufTy).Contents (Elt F) → (⟨S50000x256, .f32⟩ : BufTy).Contents (Elt F) → (⟨S50000x256, .f32⟩ : BufTy).Contents (Elt F)),
    StableHlo.nullary main_cst_21 (constant S_ .f32 0x3C23D70A#32) ]

/-- Operations 137 … 143 of the 148. -/
abbrev opsM : List (HloOp τ sig (Elt F)) :=
  [ TRef.nullary main_call3.cst (constant S_ .f32 0x00000000#32),
    TRef.unary main_call3.cst main_call3.v0 (broadcastInDim S50000x256 ![] bcast_S_S50000x256),
    TRef.binary (.of main_v105 : TRef sig ⟨S50000x256, .f32⟩) main_call3.v0 main_call3.v1 (cmpf .oge),
    TRef.unary (.of main_cst_21 : TRef sig ⟨S_, .f32⟩) main_call3.v2 id,
    TRef.unary main_call3.v2 main_call3.v3 (broadcastInDim S50000x256 ![] bcast_S_S50000x256),
    TRef.binary main_call3.v3 (.of main_v105 : TRef sig ⟨S50000x256, .f32⟩) main_call3.v4 mulf,
    TRef.ternary main_call3.v1 (.of main_v105 : TRef sig ⟨S50000x256, .f32⟩) main_call3.v4 main_call3.call0.v0 select ]

/-- Operations 144 … 148 of the 148. -/
abbrev opsN : List (HloOp τ sig (Elt F)) :=
  [ StableHlo.binary main_v106 main_arg10 main_v107 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg11 main_v108 (broadcastInDim S1x2 ![1] bcast_S2_S1x2_1 : (⟨S2, .f32⟩ : BufTy).Contents (Elt F) → (⟨S1x2, .f32⟩ : BufTy).Contents (Elt F)),
    StableHlo.unary main_v108 main_v109 (broadcastInDim S50000x2 ![0, 1] bcast_S1x2_S50000x2_0_1 : (⟨S1x2, .f32⟩ : BufTy).Contents (Elt F) → (⟨S50000x2, .f32⟩ : BufTy).Contents (Elt F)),
    StableHlo.binary main_v107 main_v109 main_v110 (addf : (⟨S50000x2, .f32⟩ : BufTy).Contents (Elt F) → (⟨S50000x2, .f32⟩ : BufTy).Contents (Elt F) → (⟨S50000x2, .f32⟩ : BufTy).Contents (Elt F)),
    StableHlo.binary main_v100 main_v110 main_v111 (mulf : (⟨S50000x2, .f32⟩ : BufTy).Contents (Elt F) → (⟨S50000x2, .f32⟩ : BufTy).Contents (Elt F) → (⟨S50000x2, .f32⟩ : BufTy).Contents (Elt F)) ]

/-- The whole list is the stretches in order. -/
theorem ops_split : (ops : List (HloOp τ sig (Elt F))) = opsA ++ (opsB ++ (opsC ++ (opsD ++ (opsE ++ (opsF ++ (opsG ++ (opsH ++ (opsI ++ (opsJ ++ (opsK ++ (opsL ++ (opsM ++ (opsN))))))))))))) := rfl

/-- The fold of a concatenation is the second list's fold over the first's. -/
theorem after_append' {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

end Cert.ReferenceIdeal.HandRun

end
-- ==== Proof.RefReads.lean ====
/-
  Each stretch of the reference's operation list read over the extended reals from ANY contents `V`: a buffer the stretch
  writes and a later stretch reads holds the stretch's operations applied to the contents of the buffers the stretch
  reads; a buffer no operation of the stretch writes holds what it held.
-/
import proofs.«128825_j43533788512795_2_alg».proof.Proof.RefStretch
import proofs.«128825_j43533788512795_2_alg».proof.Proof.LibCat
import Idealize.ShloMosaic.PureOps.Ideal

noncomputable section

namespace Cert.ReferenceIdeal.HandRun

open Cert.ReferenceIdeal Cert.ReferenceIdeal.Gen Idealize.ShloMosaic Idealize.ShloMosaic.StableHlo

variable (V : Valuation τ sig (Elt Ideal))

/-! ## What each stretch writes -/

theorem opsA_main_v7 : after (opsA (F := Ideal)) V (Proc.devRef .tc main_v7)
    = (addf (F := Ideal) (φ := .f32) (Host.dotGeneral (F := Ideal) (φ₁ := .f32) (φ₂ := .f32) dot_S50000x128_S128x256_S50000x256_1_0_0_1_n_n none (V (Proc.devRef .tc main_arg0) : FVec Ideal S50000x128 .f32) (V (Proc.devRef .tc main_arg4) : FVec Ideal S128x256 .f32)) (broadcastInDim S50000x256 ![0, 1] bcast_S1x256_S50000x256_0_1 (broadcastInDim S1x256 ![1] bcast_S256_S1x256_1 (V (Proc.devRef .tc main_arg5) : FVec Ideal S256 .f32))) : FVec Ideal S50000x256 .f32) := by
  eval_line <;> try rfl

theorem opsA_main_cst : after (opsA (F := Ideal)) V (Proc.devRef .tc main_cst)
    = (constant (F := Ideal) S_ .f32 0x3C23D70A#32 : FVec Ideal S_ .f32) := by
  eval_line <;> try rfl

theorem opsA_main_v1 : after (opsA (F := Ideal)) V (Proc.devRef .tc main_v1)
    = (shapeCast S800000 (extractStridedSlice S1x800000 ![0, 0] (V (Proc.devRef .tc main_arg2) : IVec S2x800000 32) slices_S2x800000_S1x800000_0_0) shapeCasts_S1x800000_S800000 : IVec S800000 32) := by
  eval_line <;> try rfl

theorem opsA_main_v3 : after (opsA (F := Ideal)) V (Proc.devRef .tc main_v3)
    = (shapeCast S800000 (extractStridedSlice S1x800000 ![1, 0] (V (Proc.devRef .tc main_arg2) : IVec S2x800000 32) slices_S2x800000_S1x800000_1_0) shapeCasts_S1x800000_S800000 : IVec S800000 32) := by
  eval_line <;> try rfl

theorem opsB_main_v8 : after (opsB (F := Ideal)) V (Proc.devRef .tc main_v8)
    = (select (cmpf (F := Ideal) (φ := .f32) .oge (V (Proc.devRef .tc main_v7) : FVec Ideal S50000x256 .f32) (broadcastInDim S50000x256 ![] bcast_S_S50000x256 (constant (F := Ideal) S_ .f32 0x00000000#32))) (V (Proc.devRef .tc main_v7) : FVec Ideal S50000x256 .f32) (mulf (F := Ideal) (φ := .f32) (broadcastInDim S50000x256 ![] bcast_S_S50000x256 (id (V (Proc.devRef .tc main_cst) : FVec Ideal S_ .f32))) (V (Proc.devRef .tc main_v7) : FVec Ideal S50000x256 .f32)) : FVec Ideal S50000x256 .f32) := by
  eval_line <;> try rfl

theorem opsC_main_v18 : after (opsC (F := Ideal)) V (Proc.devRef .tc main_v18)
    = (cmpf (F := Ideal) (φ := .f32) .ogt (Host.scatterAdd (F := Ideal) (φ := .f32) scatter_S50000_S850000x1_S850000_n_0_0_1 (broadcastInDim S50000 ![] bcast_S_S50000 (constant (F := Ideal) S_ .f32 0x00000000#32)) (broadcastInDim S850000x1 ![0] bcast_S850000_S850000x1_0 (concatenate S850000 0 [⟨S800000, (V (Proc.devRef .tc main_v3) : IVec S800000 32)⟩, ⟨S50000, (iotaInDim S50000 32 0)⟩] concatenates_S800000_S50000_S850000_d0)) (broadcastInDim S850000 ![] bcast_S_S850000 (constant (F := Ideal) S_ .f32 0x3F800000#32))) (broadcastInDim S50000 ![] bcast_S_S50000 (constant (F := Ideal) S_ .f32 0x00000000#32)) : IVec S50000 1) := by
  eval_line <;> try rfl

theorem opsC_main_v19 : after (opsC (F := Ideal)) V (Proc.devRef .tc main_v19)
    = (Host.rsqrt (F := Ideal) (φ := .f32) (Host.scatterAdd (F := Ideal) (φ := .f32) scatter_S50000_S850000x1_S850000_n_0_0_1 (broadcastInDim S50000 ![] bcast_S_S50000 (constant (F := Ideal) S_ .f32 0x00000000#32)) (broadcastInDim S850000x1 ![0] bcast_S850000_S850000x1_0 (concatenate S850000 0 [⟨S800000, (V (Proc.devRef .tc main_v3) : IVec S800000 32)⟩, ⟨S50000, (iotaInDim S50000 32 0)⟩] concatenates_S800000_S50000_S850000_d0)) (broadcastInDim S850000 ![] bcast_S_S850000 (constant (F := Ideal) S_ .f32 0x3F800000#32))) : FVec Ideal S50000 .f32) := by
  eval_line <;> try rfl

theorem opsC_main_v20 : after (opsC (F := Ideal)) V (Proc.devRef .tc main_v20)
    = (broadcastInDim S50000 ![] bcast_S_S50000 (constant (F := Ideal) S_ .f32 0x00000000#32) : FVec Ideal S50000 .f32) := by
  eval_line <;> try rfl

theorem opsC_main_v11 : after (opsC (F := Ideal)) V (Proc.devRef .tc main_v11)
    = (concatenate S850000 0 [⟨S800000, (V (Proc.devRef .tc main_v1) : IVec S800000 32)⟩, ⟨S50000, (iotaInDim S50000 32 0)⟩] concatenates_S800000_S50000_S850000_d0 : IVec S850000 32) := by
  eval_line <;> try rfl

theorem opsC_main_v12 : after (opsC (F := Ideal)) V (Proc.devRef .tc main_v12)
    = (concatenate S850000 0 [⟨S800000, (V (Proc.devRef .tc main_v3) : IVec S800000 32)⟩, ⟨S50000, (iotaInDim S50000 32 0)⟩] concatenates_S800000_S50000_S850000_d0 : IVec S850000 32) := by
  eval_line <;> try rfl

theorem opsC_main_v9 : after (opsC (F := Ideal)) V (Proc.devRef .tc main_v9)
    = (Host.dotGeneral (F := Ideal) (φ₁ := .f32) (φ₂ := .f32) dot_S50000x256_S256x256_S50000x256_1_0_0_1_n_n none (V (Proc.devRef .tc main_v8) : FVec Ideal S50000x256 .f32) (V (Proc.devRef .tc main_arg6) : FVec Ideal S256x256 .f32) : FVec Ideal S50000x256 .f32) := by
  eval_line <;> try rfl

theorem opsD_main_v21 : after (opsD (F := Ideal)) V (Proc.devRef .tc main_v21)
    = (select (V (Proc.devRef .tc main_v18) : IVec S50000 1) (V (Proc.devRef .tc main_v19) : FVec Ideal S50000 .f32) (V (Proc.devRef .tc main_v20) : FVec Ideal S50000 .f32) : FVec Ideal S50000 .f32) := by
  eval_line <;> try rfl

theorem opsE_main_v36 : after (opsE (F := Ideal)) V (Proc.devRef .tc main_v36)
    = (mulf (F := Ideal) (φ := .f32) (Host.gather gather_S50000_S850000x1_S850000_n_0_n_n_0_1_1 (V (Proc.devRef .tc main_v21) : FVec Ideal S50000 .f32) (broadcastInDim S850000x1 ![0] bcast_S850000_S850000x1_0 (select (cmpi .slt (V (Proc.devRef .tc main_v11) : IVec S850000 32) (broadcastInDim S850000 ![] bcast_S_S850000 (constantI S_ 32 0#32))) (addi (V (Proc.devRef .tc main_v11) : IVec S850000 32) (broadcastInDim S850000 ![] bcast_S_S850000 (constantI S_ 32 50000#32))) (V (Proc.devRef .tc main_v11) : IVec S850000 32)))) (Host.gather gather_S50000_S850000x1_S850000_n_0_n_n_0_1_1 (V (Proc.devRef .tc main_v21) : FVec Ideal S50000 .f32) (broadcastInDim S850000x1 ![0] bcast_S850000_S850000x1_0 (select (cmpi .slt (V (Proc.devRef .tc main_v12) : IVec S850000 32) (broadcastInDim S850000 ![] bcast_S_S850000 (constantI S_ 32 0#32))) (addi (V (Proc.devRef .tc main_v12) : IVec S850000 32) (broadcastInDim S850000 ![] bcast_S_S850000 (constantI S_ 32 50000#32))) (V (Proc.devRef .tc main_v12) : IVec S850000 32)))) : FVec Ideal S850000 .f32) := by
  eval_line <;> try rfl

theorem opsF_main_v47 : after (opsF (F := Ideal)) V (Proc.devRef .tc main_v47)
    = (broadcastInDim S50000x256 ![] bcast_S_S50000x256 (constant (F := Ideal) S_ .f32 0x00000000#32) : FVec Ideal S50000x256 .f32) := by
  eval_line <;> try rfl

theorem opsF_main_v46 : after (opsF (F := Ideal)) V (Proc.devRef .tc main_v46)
    = (mulf (F := Ideal) (φ := .f32) (Host.gather gather_S50000x256_S850000x1_S850000x256_1_0_n_n_0_1_1256 (V (Proc.devRef .tc main_v9) : FVec Ideal S50000x256 .f32) (broadcastInDim S850000x1 ![0] bcast_S850000_S850000x1_0 (select (cmpi .slt (V (Proc.devRef .tc main_v11) : IVec S850000 32) (broadcastInDim S850000 ![] bcast_S_S850000 (constantI S_ 32 0#32))) (addi (V (Proc.devRef .tc main_v11) : IVec S850000 32) (broadcastInDim S850000 ![] bcast_S_S850000 (constantI S_ 32 50000#32))) (V (Proc.devRef .tc main_v11) : IVec S850000 32)))) (broadcastInDim S850000x256 ![0, 1] bcast_S850000x1_S850000x256_0_1 (broadcastInDim S850000x1 ![0] bcast_S850000_S850000x1_0 (V (Proc.devRef .tc main_v36) : FVec Ideal S850000 .f32))) : FVec Ideal S850000x256 .f32) := by
  eval_line <;> try rfl

theorem opsG_main_v52 : after (opsG (F := Ideal)) V (Proc.devRef .tc main_v52)
    = (addf (F := Ideal) (φ := .f32) (Host.scatterAdd (F := Ideal) (φ := .f32) scatter_S50000x256_S850000x1_S850000x256_1_0_0_1 (V (Proc.devRef .tc main_v47) : FVec Ideal S50000x256 .f32) (broadcastInDim S850000x1 ![0] bcast_S850000_S850000x1_0 (V (Proc.devRef .tc main_v12) : IVec S850000 32)) (V (Proc.devRef .tc main_v46) : FVec Ideal S850000x256 .f32)) (broadcastInDim S50000x256 ![0, 1] bcast_S1x256_S50000x256_0_1 (broadcastInDim S1x256 ![1] bcast_S256_S1x256_1 (V (Proc.devRef .tc main_arg7) : FVec Ideal S256 .f32))) : FVec Ideal S50000x256 .f32) := by
  eval_line <;> try rfl

theorem opsH_main_v62 : after (opsH (F := Ideal)) V (Proc.devRef .tc main_v62)
    = (cmpf (F := Ideal) (φ := .f32) .ogt (Host.scatterAdd (F := Ideal) (φ := .f32) scatter_S50000_S850000x1_S850000_n_0_0_1 (broadcastInDim S50000 ![] bcast_S_S50000 (constant (F := Ideal) S_ .f32 0x00000000#32)) (broadcastInDim S850000x1 ![0] bcast_S850000_S850000x1_0 (concatenate S850000 0 [⟨S800000, (V (Proc.devRef .tc main_v3) : IVec S800000 32)⟩, ⟨S50000, (iotaInDim S50000 32 0)⟩] concatenates_S800000_S50000_S850000_d0)) (broadcastInDim S850000 ![] bcast_S_S850000 (constant (F := Ideal) S_ .f32 0x3F800000#32))) (broadcastInDim S50000 ![] bcast_S_S50000 (constant (F := Ideal) S_ .f32 0x00000000#32)) : IVec S50000 1) := by
  eval_line <;> try rfl

theorem opsH_main_v63 : after (opsH (F := Ideal)) V (Proc.devRef .tc main_v63)
    = (Host.rsqrt (F := Ideal) (φ := .f32) (Host.scatterAdd (F := Ideal) (φ := .f32) scatter_S50000_S850000x1_S850000_n_0_0_1 (broadcastInDim S50000 ![] bcast_S_S50000 (constant (F := Ideal) S_ .f32 0x00000000#32)) (broadcastInDim S850000x1 ![0] bcast_S850000_S850000x1_0 (concatenate S850000 0 [⟨S800000, (V (Proc.devRef .tc main_v3) : IVec S800000 32)⟩, ⟨S50000, (iotaInDim S50000 32 0)⟩] concatenates_S800000_S50000_S850000_d0)) (broadcastInDim S850000 ![] bcast_S_S850000 (constant (F := Ideal) S_ .f32 0x3F800000#32))) : FVec Ideal S50000 .f32) := by
  eval_line <;> try rfl

theorem opsH_main_v64 : after (opsH (F := Ideal)) V (Proc.devRef .tc main_v64)
    = (broadcastInDim S50000 ![] bcast_S_S50000 (constant (F := Ideal) S_ .f32 0x00000000#32) : FVec Ideal S50000 .f32) := by
  eval_line <;> try rfl

theorem opsH_main_v55 : after (opsH (F := Ideal)) V (Proc.devRef .tc main_v55)
    = (concatenate S850000 0 [⟨S800000, (V (Proc.devRef .tc main_v1) : IVec S800000 32)⟩, ⟨S50000, (iotaInDim S50000 32 0)⟩] concatenates_S800000_S50000_S850000_d0 : IVec S850000 32) := by
  eval_line <;> try rfl

theorem opsH_main_v56 : after (opsH (F := Ideal)) V (Proc.devRef .tc main_v56)
    = (concatenate S850000 0 [⟨S800000, (V (Proc.devRef .tc main_v3) : IVec S800000 32)⟩, ⟨S50000, (iotaInDim S50000 32 0)⟩] concatenates_S800000_S50000_S850000_d0 : IVec S850000 32) := by
  eval_line <;> try rfl

theorem opsH_main_v53 : after (opsH (F := Ideal)) V (Proc.devRef .tc main_v53)
    = (Host.dotGeneral (F := Ideal) (φ₁ := .f32) (φ₂ := .f32) dot_S50000x256_S256x256_S50000x256_1_0_0_1_n_n none (V (Proc.devRef .tc main_v52) : FVec Ideal S50000x256 .f32) (V (Proc.devRef .tc main_arg8) : FVec Ideal S256x256 .f32) : FVec Ideal S50000x256 .f32) := by
  eval_line <;> try rfl

theorem opsI_main_v65 : after (opsI (F := Ideal)) V (Proc.devRef .tc main_v65)
    = (select (V (Proc.devRef .tc main_v62) : IVec S50000 1) (V (Proc.devRef .tc main_v63) : FVec Ideal S50000 .f32) (V (Proc.devRef .tc main_v64) : FVec Ideal S50000 .f32) : FVec Ideal S50000 .f32) := by
  eval_line <;> try rfl

theorem opsJ_main_v80 : after (opsJ (F := Ideal)) V (Proc.devRef .tc main_v80)
    = (mulf (F := Ideal) (φ := .f32) (Host.gather gather_S50000_S850000x1_S850000_n_0_n_n_0_1_1 (V (Proc.devRef .tc main_v65) : FVec Ideal S50000 .f32) (broadcastInDim S850000x1 ![0] bcast_S850000_S850000x1_0 (select (cmpi .slt (V (Proc.devRef .tc main_v55) : IVec S850000 32) (broadcastInDim S850000 ![] bcast_S_S850000 (constantI S_ 32 0#32))) (addi (V (Proc.devRef .tc main_v55) : IVec S850000 32) (broadcastInDim S850000 ![] bcast_S_S850000 (constantI S_ 32 50000#32))) (V (Proc.devRef .tc main_v55) : IVec S850000 32)))) (Host.gather gather_S50000_S850000x1_S850000_n_0_n_n_0_1_1 (V (Proc.devRef .tc main_v65) : FVec Ideal S50000 .f32) (broadcastInDim S850000x1 ![0] bcast_S850000_S850000x1_0 (select (cmpi .slt (V (Proc.devRef .tc main_v56) : IVec S850000 32) (broadcastInDim S850000 ![] bcast_S_S850000 (constantI S_ 32 0#32))) (addi (V (Proc.devRef .tc main_v56) : IVec S850000 32) (broadcastInDim S850000 ![] bcast_S_S850000 (constantI S_ 32 50000#32))) (V (Proc.devRef .tc main_v56) : IVec S850000 32)))) : FVec Ideal S850000 .f32) := by
  eval_line <;> try rfl

theorem opsK_main_v96 : after (opsK (F := Ideal)) V (Proc.devRef .tc main_v96)
    = (addf (F := Ideal) (φ := .f32) (Host.scatterAdd (F := Ideal) (φ := .f32) scatter_S50000x256_S850000x1_S850000x256_1_0_0_1 (broadcastInDim S50000x256 ![] bcast_S_S50000x256 (constant (F := Ideal) S_ .f32 0x00000000#32)) (broadcastInDim S850000x1 ![0] bcast_S850000_S850000x1_0 (V (Proc.devRef .tc main_v56) : IVec S850000 32)) (mulf (F := Ideal) (φ := .f32) (Host.gather gather_S50000x256_S850000x1_S850000x256_1_0_n_n_0_1_1256 (V (Proc.devRef .tc main_v53) : FVec Ideal S50000x256 .f32) (broadcastInDim S850000x1 ![0] bcast_S850000_S850000x1_0 (select (cmpi .slt (V (Proc.devRef .tc main_v55) : IVec S850000 32) (broadcastInDim S850000 ![] bcast_S_S850000 (constantI S_ 32 0#32))) (addi (V (Proc.devRef .tc main_v55) : IVec S850000 32) (broadcastInDim S850000 ![] bcast_S_S850000 (constantI S_ 32 50000#32))) (V (Proc.devRef .tc main_v55) : IVec S850000 32)))) (broadcastInDim S850000x256 ![0, 1] bcast_S850000x1_S850000x256_0_1 (broadcastInDim S850000x1 ![0] bcast_S850000_S850000x1_0 (V (Proc.devRef .tc main_v80) : FVec Ideal S850000 .f32))))) (broadcastInDim S50000x256 ![0, 1] bcast_S1x256_S50000x256_0_1 (broadcastInDim S1x256 ![1] bcast_S256_S1x256_1 (V (Proc.devRef .tc main_arg9) : FVec Ideal S256 .f32))) : FVec Ideal S50000x256 .f32) := by
  eval_line <;> try rfl

theorem opsL_main_v105 : after (opsL (F := Ideal)) V (Proc.devRef .tc main_v105)
    = (addf (F := Ideal) (φ := .f32) (Host.dotGeneral (F := Ideal) (φ₁ := .f32) (φ₂ := .f32) dot_S50000x128_S128x256_S50000x256_1_0_0_1_n_n none (subf (F := Ideal) (φ := .f32) (V (Proc.devRef .tc main_arg1) : FVec Ideal S50000x128 .f32) (V (Proc.devRef .tc main_arg0) : FVec Ideal S50000x128 .f32)) (V (Proc.devRef .tc main_arg4) : FVec Ideal S128x256 .f32)) (broadcastInDim S50000x256 ![0, 1] bcast_S1x256_S50000x256_0_1 (broadcastInDim S1x256 ![1] bcast_S256_S1x256_1 (V (Proc.devRef .tc main_arg5) : FVec Ideal S256 .f32))) : FVec Ideal S50000x256 .f32) := by
  eval_line <;> try rfl

theorem opsL_main_cst_21 : after (opsL (F := Ideal)) V (Proc.devRef .tc main_cst_21)
    = (constant (F := Ideal) S_ .f32 0x3C23D70A#32 : FVec Ideal S_ .f32) := by
  eval_line <;> try rfl

theorem opsL_main_v100 : after (opsL (F := Ideal)) V (Proc.devRef .tc main_v100)
    = (addf (F := Ideal) (φ := .f32) (Host.dotGeneral (F := Ideal) (φ₁ := .f32) (φ₂ := .f32) dot_S50000x256_S256x2_S50000x2_1_0_0_1_n_n none (V (Proc.devRef .tc main_v96) : FVec Ideal S50000x256 .f32) (V (Proc.devRef .tc main_arg10) : FVec Ideal S256x2 .f32)) (broadcastInDim S50000x2 ![0, 1] bcast_S1x2_S50000x2_0_1 (broadcastInDim S1x2 ![1] bcast_S2_S1x2_1 (V (Proc.devRef .tc main_arg11) : FVec Ideal S2 .f32))) : FVec Ideal S50000x2 .f32) := by
  eval_line <;> try rfl

theorem opsM_main_v106 : after (opsM (F := Ideal)) V (Proc.devRef .tc main_v106)
    = (select (cmpf (F := Ideal) (φ := .f32) .oge (V (Proc.devRef .tc main_v105) : FVec Ideal S50000x256 .f32) (broadcastInDim S50000x256 ![] bcast_S_S50000x256 (constant (F := Ideal) S_ .f32 0x00000000#32))) (V (Proc.devRef .tc main_v105) : FVec Ideal S50000x256 .f32) (mulf (F := Ideal) (φ := .f32) (broadcastInDim S50000x256 ![] bcast_S_S50000x256 (id (V (Proc.devRef .tc main_cst_21) : FVec Ideal S_ .f32))) (V (Proc.devRef .tc main_v105) : FVec Ideal S50000x256 .f32)) : FVec Ideal S50000x256 .f32) := by
  eval_line <;> try rfl

theorem opsN_main_v111 : after (opsN (F := Ideal)) V (Proc.devRef .tc main_v111)
    = (mulf (F := Ideal) (φ := .f32) (V (Proc.devRef .tc main_v100) : FVec Ideal S50000x2 .f32) (addf (F := Ideal) (φ := .f32) (Host.dotGeneral (F := Ideal) (φ₁ := .f32) (φ₂ := .f32) dot_S50000x256_S256x2_S50000x2_1_0_0_1_n_n none (V (Proc.devRef .tc main_v106) : FVec Ideal S50000x256 .f32) (V (Proc.devRef .tc main_arg10) : FVec Ideal S256x2 .f32)) (broadcastInDim S50000x2 ![0, 1] bcast_S1x2_S50000x2_0_1 (broadcastInDim S1x2 ![1] bcast_S2_S1x2_1 (V (Proc.devRef .tc main_arg11) : FVec Ideal S2 .f32)))) : FVec Ideal S50000x2 .f32) := by
  eval_line <;> try rfl

/-! ## What each stretch leaves alone -/

theorem opsA_keep_main_arg6 : after (opsA (F := Ideal)) V (Proc.devRef .tc main_arg6) = V (Proc.devRef .tc main_arg6) := by
  after_results_simp

theorem opsA_keep_main_arg7 : after (opsA (F := Ideal)) V (Proc.devRef .tc main_arg7) = V (Proc.devRef .tc main_arg7) := by
  after_results_simp

theorem opsA_keep_main_arg8 : after (opsA (F := Ideal)) V (Proc.devRef .tc main_arg8) = V (Proc.devRef .tc main_arg8) := by
  after_results_simp

theorem opsA_keep_main_arg9 : after (opsA (F := Ideal)) V (Proc.devRef .tc main_arg9) = V (Proc.devRef .tc main_arg9) := by
  after_results_simp

theorem opsA_keep_main_arg10 : after (opsA (F := Ideal)) V (Proc.devRef .tc main_arg10) = V (Proc.devRef .tc main_arg10) := by
  after_results_simp

theorem opsA_keep_main_arg11 : after (opsA (F := Ideal)) V (Proc.devRef .tc main_arg11) = V (Proc.devRef .tc main_arg11) := by
  after_results_simp

theorem opsA_keep_main_arg1 : after (opsA (F := Ideal)) V (Proc.devRef .tc main_arg1) = V (Proc.devRef .tc main_arg1) := by
  after_results_simp

theorem opsA_keep_main_arg0 : after (opsA (F := Ideal)) V (Proc.devRef .tc main_arg0) = V (Proc.devRef .tc main_arg0) := by
  after_results_simp

theorem opsA_keep_main_arg4 : after (opsA (F := Ideal)) V (Proc.devRef .tc main_arg4) = V (Proc.devRef .tc main_arg4) := by
  after_results_simp

theorem opsA_keep_main_arg5 : after (opsA (F := Ideal)) V (Proc.devRef .tc main_arg5) = V (Proc.devRef .tc main_arg5) := by
  after_results_simp

theorem opsA_keep_main_arg2 : after (opsA (F := Ideal)) V (Proc.devRef .tc main_arg2) = V (Proc.devRef .tc main_arg2) := by
  after_results_simp

theorem opsA_keep_main_arg3 : after (opsA (F := Ideal)) V (Proc.devRef .tc main_arg3) = V (Proc.devRef .tc main_arg3) := by
  after_results_simp

theorem opsB_keep_main_arg6 : after (opsB (F := Ideal)) V (Proc.devRef .tc main_arg6) = V (Proc.devRef .tc main_arg6) := by
  after_results_simp

theorem opsB_keep_main_v1 : after (opsB (F := Ideal)) V (Proc.devRef .tc main_v1) = V (Proc.devRef .tc main_v1) := by
  after_results_simp

theorem opsB_keep_main_v3 : after (opsB (F := Ideal)) V (Proc.devRef .tc main_v3) = V (Proc.devRef .tc main_v3) := by
  after_results_simp

theorem opsB_keep_main_arg7 : after (opsB (F := Ideal)) V (Proc.devRef .tc main_arg7) = V (Proc.devRef .tc main_arg7) := by
  after_results_simp

theorem opsB_keep_main_arg8 : after (opsB (F := Ideal)) V (Proc.devRef .tc main_arg8) = V (Proc.devRef .tc main_arg8) := by
  after_results_simp

theorem opsB_keep_main_arg9 : after (opsB (F := Ideal)) V (Proc.devRef .tc main_arg9) = V (Proc.devRef .tc main_arg9) := by
  after_results_simp

theorem opsB_keep_main_arg10 : after (opsB (F := Ideal)) V (Proc.devRef .tc main_arg10) = V (Proc.devRef .tc main_arg10) := by
  after_results_simp

theorem opsB_keep_main_arg11 : after (opsB (F := Ideal)) V (Proc.devRef .tc main_arg11) = V (Proc.devRef .tc main_arg11) := by
  after_results_simp

theorem opsB_keep_main_arg1 : after (opsB (F := Ideal)) V (Proc.devRef .tc main_arg1) = V (Proc.devRef .tc main_arg1) := by
  after_results_simp

theorem opsB_keep_main_arg0 : after (opsB (F := Ideal)) V (Proc.devRef .tc main_arg0) = V (Proc.devRef .tc main_arg0) := by
  after_results_simp

theorem opsB_keep_main_arg4 : after (opsB (F := Ideal)) V (Proc.devRef .tc main_arg4) = V (Proc.devRef .tc main_arg4) := by
  after_results_simp

theorem opsB_keep_main_arg5 : after (opsB (F := Ideal)) V (Proc.devRef .tc main_arg5) = V (Proc.devRef .tc main_arg5) := by
  after_results_simp

theorem opsB_keep_main_arg2 : after (opsB (F := Ideal)) V (Proc.devRef .tc main_arg2) = V (Proc.devRef .tc main_arg2) := by
  after_results_simp

theorem opsB_keep_main_arg3 : after (opsB (F := Ideal)) V (Proc.devRef .tc main_arg3) = V (Proc.devRef .tc main_arg3) := by
  after_results_simp

theorem opsC_keep_main_arg7 : after (opsC (F := Ideal)) V (Proc.devRef .tc main_arg7) = V (Proc.devRef .tc main_arg7) := by
  after_results_simp

theorem opsC_keep_main_arg8 : after (opsC (F := Ideal)) V (Proc.devRef .tc main_arg8) = V (Proc.devRef .tc main_arg8) := by
  after_results_simp

theorem opsC_keep_main_v1 : after (opsC (F := Ideal)) V (Proc.devRef .tc main_v1) = V (Proc.devRef .tc main_v1) := by
  after_results_simp

theorem opsC_keep_main_v3 : after (opsC (F := Ideal)) V (Proc.devRef .tc main_v3) = V (Proc.devRef .tc main_v3) := by
  after_results_simp

theorem opsC_keep_main_arg9 : after (opsC (F := Ideal)) V (Proc.devRef .tc main_arg9) = V (Proc.devRef .tc main_arg9) := by
  after_results_simp

theorem opsC_keep_main_arg10 : after (opsC (F := Ideal)) V (Proc.devRef .tc main_arg10) = V (Proc.devRef .tc main_arg10) := by
  after_results_simp

theorem opsC_keep_main_arg11 : after (opsC (F := Ideal)) V (Proc.devRef .tc main_arg11) = V (Proc.devRef .tc main_arg11) := by
  after_results_simp

theorem opsC_keep_main_arg1 : after (opsC (F := Ideal)) V (Proc.devRef .tc main_arg1) = V (Proc.devRef .tc main_arg1) := by
  after_results_simp

theorem opsC_keep_main_arg0 : after (opsC (F := Ideal)) V (Proc.devRef .tc main_arg0) = V (Proc.devRef .tc main_arg0) := by
  after_results_simp

theorem opsC_keep_main_arg4 : after (opsC (F := Ideal)) V (Proc.devRef .tc main_arg4) = V (Proc.devRef .tc main_arg4) := by
  after_results_simp

theorem opsC_keep_main_arg5 : after (opsC (F := Ideal)) V (Proc.devRef .tc main_arg5) = V (Proc.devRef .tc main_arg5) := by
  after_results_simp

theorem opsC_keep_main_arg2 : after (opsC (F := Ideal)) V (Proc.devRef .tc main_arg2) = V (Proc.devRef .tc main_arg2) := by
  after_results_simp

theorem opsC_keep_main_arg3 : after (opsC (F := Ideal)) V (Proc.devRef .tc main_arg3) = V (Proc.devRef .tc main_arg3) := by
  after_results_simp

theorem opsC_keep_main_arg6 : after (opsC (F := Ideal)) V (Proc.devRef .tc main_arg6) = V (Proc.devRef .tc main_arg6) := by
  after_results_simp

theorem opsD_keep_main_v11 : after (opsD (F := Ideal)) V (Proc.devRef .tc main_v11) = V (Proc.devRef .tc main_v11) := by
  after_results_simp

theorem opsD_keep_main_v12 : after (opsD (F := Ideal)) V (Proc.devRef .tc main_v12) = V (Proc.devRef .tc main_v12) := by
  after_results_simp

theorem opsD_keep_main_v9 : after (opsD (F := Ideal)) V (Proc.devRef .tc main_v9) = V (Proc.devRef .tc main_v9) := by
  after_results_simp

theorem opsD_keep_main_arg7 : after (opsD (F := Ideal)) V (Proc.devRef .tc main_arg7) = V (Proc.devRef .tc main_arg7) := by
  after_results_simp

theorem opsD_keep_main_arg8 : after (opsD (F := Ideal)) V (Proc.devRef .tc main_arg8) = V (Proc.devRef .tc main_arg8) := by
  after_results_simp

theorem opsD_keep_main_v1 : after (opsD (F := Ideal)) V (Proc.devRef .tc main_v1) = V (Proc.devRef .tc main_v1) := by
  after_results_simp

theorem opsD_keep_main_v3 : after (opsD (F := Ideal)) V (Proc.devRef .tc main_v3) = V (Proc.devRef .tc main_v3) := by
  after_results_simp

theorem opsD_keep_main_arg9 : after (opsD (F := Ideal)) V (Proc.devRef .tc main_arg9) = V (Proc.devRef .tc main_arg9) := by
  after_results_simp

theorem opsD_keep_main_arg10 : after (opsD (F := Ideal)) V (Proc.devRef .tc main_arg10) = V (Proc.devRef .tc main_arg10) := by
  after_results_simp

theorem opsD_keep_main_arg11 : after (opsD (F := Ideal)) V (Proc.devRef .tc main_arg11) = V (Proc.devRef .tc main_arg11) := by
  after_results_simp

theorem opsD_keep_main_arg1 : after (opsD (F := Ideal)) V (Proc.devRef .tc main_arg1) = V (Proc.devRef .tc main_arg1) := by
  after_results_simp

theorem opsD_keep_main_arg0 : after (opsD (F := Ideal)) V (Proc.devRef .tc main_arg0) = V (Proc.devRef .tc main_arg0) := by
  after_results_simp

theorem opsD_keep_main_arg4 : after (opsD (F := Ideal)) V (Proc.devRef .tc main_arg4) = V (Proc.devRef .tc main_arg4) := by
  after_results_simp

theorem opsD_keep_main_arg5 : after (opsD (F := Ideal)) V (Proc.devRef .tc main_arg5) = V (Proc.devRef .tc main_arg5) := by
  after_results_simp

theorem opsD_keep_main_arg2 : after (opsD (F := Ideal)) V (Proc.devRef .tc main_arg2) = V (Proc.devRef .tc main_arg2) := by
  after_results_simp

theorem opsD_keep_main_arg3 : after (opsD (F := Ideal)) V (Proc.devRef .tc main_arg3) = V (Proc.devRef .tc main_arg3) := by
  after_results_simp

theorem opsD_keep_main_arg6 : after (opsD (F := Ideal)) V (Proc.devRef .tc main_arg6) = V (Proc.devRef .tc main_arg6) := by
  after_results_simp

theorem opsE_keep_main_v11 : after (opsE (F := Ideal)) V (Proc.devRef .tc main_v11) = V (Proc.devRef .tc main_v11) := by
  after_results_simp

theorem opsE_keep_main_v9 : after (opsE (F := Ideal)) V (Proc.devRef .tc main_v9) = V (Proc.devRef .tc main_v9) := by
  after_results_simp

theorem opsE_keep_main_v12 : after (opsE (F := Ideal)) V (Proc.devRef .tc main_v12) = V (Proc.devRef .tc main_v12) := by
  after_results_simp

theorem opsE_keep_main_arg7 : after (opsE (F := Ideal)) V (Proc.devRef .tc main_arg7) = V (Proc.devRef .tc main_arg7) := by
  after_results_simp

theorem opsE_keep_main_arg8 : after (opsE (F := Ideal)) V (Proc.devRef .tc main_arg8) = V (Proc.devRef .tc main_arg8) := by
  after_results_simp

theorem opsE_keep_main_v1 : after (opsE (F := Ideal)) V (Proc.devRef .tc main_v1) = V (Proc.devRef .tc main_v1) := by
  after_results_simp

theorem opsE_keep_main_v3 : after (opsE (F := Ideal)) V (Proc.devRef .tc main_v3) = V (Proc.devRef .tc main_v3) := by
  after_results_simp

theorem opsE_keep_main_arg9 : after (opsE (F := Ideal)) V (Proc.devRef .tc main_arg9) = V (Proc.devRef .tc main_arg9) := by
  after_results_simp

theorem opsE_keep_main_arg10 : after (opsE (F := Ideal)) V (Proc.devRef .tc main_arg10) = V (Proc.devRef .tc main_arg10) := by
  after_results_simp

theorem opsE_keep_main_arg11 : after (opsE (F := Ideal)) V (Proc.devRef .tc main_arg11) = V (Proc.devRef .tc main_arg11) := by
  after_results_simp

theorem opsE_keep_main_arg1 : after (opsE (F := Ideal)) V (Proc.devRef .tc main_arg1) = V (Proc.devRef .tc main_arg1) := by
  after_results_simp

theorem opsE_keep_main_arg0 : after (opsE (F := Ideal)) V (Proc.devRef .tc main_arg0) = V (Proc.devRef .tc main_arg0) := by
  after_results_simp

theorem opsE_keep_main_arg4 : after (opsE (F := Ideal)) V (Proc.devRef .tc main_arg4) = V (Proc.devRef .tc main_arg4) := by
  after_results_simp

theorem opsE_keep_main_arg5 : after (opsE (F := Ideal)) V (Proc.devRef .tc main_arg5) = V (Proc.devRef .tc main_arg5) := by
  after_results_simp

theorem opsE_keep_main_arg2 : after (opsE (F := Ideal)) V (Proc.devRef .tc main_arg2) = V (Proc.devRef .tc main_arg2) := by
  after_results_simp

theorem opsE_keep_main_arg3 : after (opsE (F := Ideal)) V (Proc.devRef .tc main_arg3) = V (Proc.devRef .tc main_arg3) := by
  after_results_simp

theorem opsE_keep_main_arg6 : after (opsE (F := Ideal)) V (Proc.devRef .tc main_arg6) = V (Proc.devRef .tc main_arg6) := by
  after_results_simp

theorem opsF_keep_main_v12 : after (opsF (F := Ideal)) V (Proc.devRef .tc main_v12) = V (Proc.devRef .tc main_v12) := by
  after_results_simp

theorem opsF_keep_main_arg7 : after (opsF (F := Ideal)) V (Proc.devRef .tc main_arg7) = V (Proc.devRef .tc main_arg7) := by
  after_results_simp

theorem opsF_keep_main_arg8 : after (opsF (F := Ideal)) V (Proc.devRef .tc main_arg8) = V (Proc.devRef .tc main_arg8) := by
  after_results_simp

theorem opsF_keep_main_v1 : after (opsF (F := Ideal)) V (Proc.devRef .tc main_v1) = V (Proc.devRef .tc main_v1) := by
  after_results_simp

theorem opsF_keep_main_v3 : after (opsF (F := Ideal)) V (Proc.devRef .tc main_v3) = V (Proc.devRef .tc main_v3) := by
  after_results_simp

theorem opsF_keep_main_arg9 : after (opsF (F := Ideal)) V (Proc.devRef .tc main_arg9) = V (Proc.devRef .tc main_arg9) := by
  after_results_simp

theorem opsF_keep_main_arg10 : after (opsF (F := Ideal)) V (Proc.devRef .tc main_arg10) = V (Proc.devRef .tc main_arg10) := by
  after_results_simp

theorem opsF_keep_main_arg11 : after (opsF (F := Ideal)) V (Proc.devRef .tc main_arg11) = V (Proc.devRef .tc main_arg11) := by
  after_results_simp

theorem opsF_keep_main_arg1 : after (opsF (F := Ideal)) V (Proc.devRef .tc main_arg1) = V (Proc.devRef .tc main_arg1) := by
  after_results_simp

theorem opsF_keep_main_arg0 : after (opsF (F := Ideal)) V (Proc.devRef .tc main_arg0) = V (Proc.devRef .tc main_arg0) := by
  after_results_simp

theorem opsF_keep_main_arg4 : after (opsF (F := Ideal)) V (Proc.devRef .tc main_arg4) = V (Proc.devRef .tc main_arg4) := by
  after_results_simp

theorem opsF_keep_main_arg5 : after (opsF (F := Ideal)) V (Proc.devRef .tc main_arg5) = V (Proc.devRef .tc main_arg5) := by
  after_results_simp

theorem opsF_keep_main_arg2 : after (opsF (F := Ideal)) V (Proc.devRef .tc main_arg2) = V (Proc.devRef .tc main_arg2) := by
  after_results_simp

theorem opsF_keep_main_arg3 : after (opsF (F := Ideal)) V (Proc.devRef .tc main_arg3) = V (Proc.devRef .tc main_arg3) := by
  after_results_simp

theorem opsF_keep_main_arg6 : after (opsF (F := Ideal)) V (Proc.devRef .tc main_arg6) = V (Proc.devRef .tc main_arg6) := by
  after_results_simp

theorem opsG_keep_main_arg8 : after (opsG (F := Ideal)) V (Proc.devRef .tc main_arg8) = V (Proc.devRef .tc main_arg8) := by
  after_results_simp

theorem opsG_keep_main_v1 : after (opsG (F := Ideal)) V (Proc.devRef .tc main_v1) = V (Proc.devRef .tc main_v1) := by
  after_results_simp

theorem opsG_keep_main_v3 : after (opsG (F := Ideal)) V (Proc.devRef .tc main_v3) = V (Proc.devRef .tc main_v3) := by
  after_results_simp

theorem opsG_keep_main_arg9 : after (opsG (F := Ideal)) V (Proc.devRef .tc main_arg9) = V (Proc.devRef .tc main_arg9) := by
  after_results_simp

theorem opsG_keep_main_arg10 : after (opsG (F := Ideal)) V (Proc.devRef .tc main_arg10) = V (Proc.devRef .tc main_arg10) := by
  after_results_simp

theorem opsG_keep_main_arg11 : after (opsG (F := Ideal)) V (Proc.devRef .tc main_arg11) = V (Proc.devRef .tc main_arg11) := by
  after_results_simp

theorem opsG_keep_main_arg1 : after (opsG (F := Ideal)) V (Proc.devRef .tc main_arg1) = V (Proc.devRef .tc main_arg1) := by
  after_results_simp

theorem opsG_keep_main_arg0 : after (opsG (F := Ideal)) V (Proc.devRef .tc main_arg0) = V (Proc.devRef .tc main_arg0) := by
  after_results_simp

theorem opsG_keep_main_arg4 : after (opsG (F := Ideal)) V (Proc.devRef .tc main_arg4) = V (Proc.devRef .tc main_arg4) := by
  after_results_simp

theorem opsG_keep_main_arg5 : after (opsG (F := Ideal)) V (Proc.devRef .tc main_arg5) = V (Proc.devRef .tc main_arg5) := by
  after_results_simp

theorem opsG_keep_main_arg2 : after (opsG (F := Ideal)) V (Proc.devRef .tc main_arg2) = V (Proc.devRef .tc main_arg2) := by
  after_results_simp

theorem opsG_keep_main_arg3 : after (opsG (F := Ideal)) V (Proc.devRef .tc main_arg3) = V (Proc.devRef .tc main_arg3) := by
  after_results_simp

theorem opsG_keep_main_arg6 : after (opsG (F := Ideal)) V (Proc.devRef .tc main_arg6) = V (Proc.devRef .tc main_arg6) := by
  after_results_simp

theorem opsG_keep_main_arg7 : after (opsG (F := Ideal)) V (Proc.devRef .tc main_arg7) = V (Proc.devRef .tc main_arg7) := by
  after_results_simp

theorem opsH_keep_main_arg9 : after (opsH (F := Ideal)) V (Proc.devRef .tc main_arg9) = V (Proc.devRef .tc main_arg9) := by
  after_results_simp

theorem opsH_keep_main_arg10 : after (opsH (F := Ideal)) V (Proc.devRef .tc main_arg10) = V (Proc.devRef .tc main_arg10) := by
  after_results_simp

theorem opsH_keep_main_arg11 : after (opsH (F := Ideal)) V (Proc.devRef .tc main_arg11) = V (Proc.devRef .tc main_arg11) := by
  after_results_simp

theorem opsH_keep_main_arg1 : after (opsH (F := Ideal)) V (Proc.devRef .tc main_arg1) = V (Proc.devRef .tc main_arg1) := by
  after_results_simp

theorem opsH_keep_main_arg0 : after (opsH (F := Ideal)) V (Proc.devRef .tc main_arg0) = V (Proc.devRef .tc main_arg0) := by
  after_results_simp

theorem opsH_keep_main_arg4 : after (opsH (F := Ideal)) V (Proc.devRef .tc main_arg4) = V (Proc.devRef .tc main_arg4) := by
  after_results_simp

theorem opsH_keep_main_arg5 : after (opsH (F := Ideal)) V (Proc.devRef .tc main_arg5) = V (Proc.devRef .tc main_arg5) := by
  after_results_simp

theorem opsH_keep_main_arg2 : after (opsH (F := Ideal)) V (Proc.devRef .tc main_arg2) = V (Proc.devRef .tc main_arg2) := by
  after_results_simp

theorem opsH_keep_main_arg3 : after (opsH (F := Ideal)) V (Proc.devRef .tc main_arg3) = V (Proc.devRef .tc main_arg3) := by
  after_results_simp

theorem opsH_keep_main_arg6 : after (opsH (F := Ideal)) V (Proc.devRef .tc main_arg6) = V (Proc.devRef .tc main_arg6) := by
  after_results_simp

theorem opsH_keep_main_arg7 : after (opsH (F := Ideal)) V (Proc.devRef .tc main_arg7) = V (Proc.devRef .tc main_arg7) := by
  after_results_simp

theorem opsH_keep_main_arg8 : after (opsH (F := Ideal)) V (Proc.devRef .tc main_arg8) = V (Proc.devRef .tc main_arg8) := by
  after_results_simp

theorem opsI_keep_main_v55 : after (opsI (F := Ideal)) V (Proc.devRef .tc main_v55) = V (Proc.devRef .tc main_v55) := by
  after_results_simp

theorem opsI_keep_main_v56 : after (opsI (F := Ideal)) V (Proc.devRef .tc main_v56) = V (Proc.devRef .tc main_v56) := by
  after_results_simp

theorem opsI_keep_main_v53 : after (opsI (F := Ideal)) V (Proc.devRef .tc main_v53) = V (Proc.devRef .tc main_v53) := by
  after_results_simp

theorem opsI_keep_main_arg9 : after (opsI (F := Ideal)) V (Proc.devRef .tc main_arg9) = V (Proc.devRef .tc main_arg9) := by
  after_results_simp

theorem opsI_keep_main_arg10 : after (opsI (F := Ideal)) V (Proc.devRef .tc main_arg10) = V (Proc.devRef .tc main_arg10) := by
  after_results_simp

theorem opsI_keep_main_arg11 : after (opsI (F := Ideal)) V (Proc.devRef .tc main_arg11) = V (Proc.devRef .tc main_arg11) := by
  after_results_simp

theorem opsI_keep_main_arg1 : after (opsI (F := Ideal)) V (Proc.devRef .tc main_arg1) = V (Proc.devRef .tc main_arg1) := by
  after_results_simp

theorem opsI_keep_main_arg0 : after (opsI (F := Ideal)) V (Proc.devRef .tc main_arg0) = V (Proc.devRef .tc main_arg0) := by
  after_results_simp

theorem opsI_keep_main_arg4 : after (opsI (F := Ideal)) V (Proc.devRef .tc main_arg4) = V (Proc.devRef .tc main_arg4) := by
  after_results_simp

theorem opsI_keep_main_arg5 : after (opsI (F := Ideal)) V (Proc.devRef .tc main_arg5) = V (Proc.devRef .tc main_arg5) := by
  after_results_simp

theorem opsI_keep_main_arg2 : after (opsI (F := Ideal)) V (Proc.devRef .tc main_arg2) = V (Proc.devRef .tc main_arg2) := by
  after_results_simp

theorem opsI_keep_main_arg3 : after (opsI (F := Ideal)) V (Proc.devRef .tc main_arg3) = V (Proc.devRef .tc main_arg3) := by
  after_results_simp

theorem opsI_keep_main_arg6 : after (opsI (F := Ideal)) V (Proc.devRef .tc main_arg6) = V (Proc.devRef .tc main_arg6) := by
  after_results_simp

theorem opsI_keep_main_arg7 : after (opsI (F := Ideal)) V (Proc.devRef .tc main_arg7) = V (Proc.devRef .tc main_arg7) := by
  after_results_simp

theorem opsI_keep_main_arg8 : after (opsI (F := Ideal)) V (Proc.devRef .tc main_arg8) = V (Proc.devRef .tc main_arg8) := by
  after_results_simp

theorem opsJ_keep_main_v55 : after (opsJ (F := Ideal)) V (Proc.devRef .tc main_v55) = V (Proc.devRef .tc main_v55) := by
  after_results_simp

theorem opsJ_keep_main_v53 : after (opsJ (F := Ideal)) V (Proc.devRef .tc main_v53) = V (Proc.devRef .tc main_v53) := by
  after_results_simp

theorem opsJ_keep_main_v56 : after (opsJ (F := Ideal)) V (Proc.devRef .tc main_v56) = V (Proc.devRef .tc main_v56) := by
  after_results_simp

theorem opsJ_keep_main_arg9 : after (opsJ (F := Ideal)) V (Proc.devRef .tc main_arg9) = V (Proc.devRef .tc main_arg9) := by
  after_results_simp

theorem opsJ_keep_main_arg10 : after (opsJ (F := Ideal)) V (Proc.devRef .tc main_arg10) = V (Proc.devRef .tc main_arg10) := by
  after_results_simp

theorem opsJ_keep_main_arg11 : after (opsJ (F := Ideal)) V (Proc.devRef .tc main_arg11) = V (Proc.devRef .tc main_arg11) := by
  after_results_simp

theorem opsJ_keep_main_arg1 : after (opsJ (F := Ideal)) V (Proc.devRef .tc main_arg1) = V (Proc.devRef .tc main_arg1) := by
  after_results_simp

theorem opsJ_keep_main_arg0 : after (opsJ (F := Ideal)) V (Proc.devRef .tc main_arg0) = V (Proc.devRef .tc main_arg0) := by
  after_results_simp

theorem opsJ_keep_main_arg4 : after (opsJ (F := Ideal)) V (Proc.devRef .tc main_arg4) = V (Proc.devRef .tc main_arg4) := by
  after_results_simp

theorem opsJ_keep_main_arg5 : after (opsJ (F := Ideal)) V (Proc.devRef .tc main_arg5) = V (Proc.devRef .tc main_arg5) := by
  after_results_simp

theorem opsJ_keep_main_arg2 : after (opsJ (F := Ideal)) V (Proc.devRef .tc main_arg2) = V (Proc.devRef .tc main_arg2) := by
  after_results_simp

theorem opsJ_keep_main_arg3 : after (opsJ (F := Ideal)) V (Proc.devRef .tc main_arg3) = V (Proc.devRef .tc main_arg3) := by
  after_results_simp

theorem opsJ_keep_main_arg6 : after (opsJ (F := Ideal)) V (Proc.devRef .tc main_arg6) = V (Proc.devRef .tc main_arg6) := by
  after_results_simp

theorem opsJ_keep_main_arg7 : after (opsJ (F := Ideal)) V (Proc.devRef .tc main_arg7) = V (Proc.devRef .tc main_arg7) := by
  after_results_simp

theorem opsJ_keep_main_arg8 : after (opsJ (F := Ideal)) V (Proc.devRef .tc main_arg8) = V (Proc.devRef .tc main_arg8) := by
  after_results_simp

theorem opsK_keep_main_arg10 : after (opsK (F := Ideal)) V (Proc.devRef .tc main_arg10) = V (Proc.devRef .tc main_arg10) := by
  after_results_simp

theorem opsK_keep_main_arg11 : after (opsK (F := Ideal)) V (Proc.devRef .tc main_arg11) = V (Proc.devRef .tc main_arg11) := by
  after_results_simp

theorem opsK_keep_main_arg1 : after (opsK (F := Ideal)) V (Proc.devRef .tc main_arg1) = V (Proc.devRef .tc main_arg1) := by
  after_results_simp

theorem opsK_keep_main_arg0 : after (opsK (F := Ideal)) V (Proc.devRef .tc main_arg0) = V (Proc.devRef .tc main_arg0) := by
  after_results_simp

theorem opsK_keep_main_arg4 : after (opsK (F := Ideal)) V (Proc.devRef .tc main_arg4) = V (Proc.devRef .tc main_arg4) := by
  after_results_simp

theorem opsK_keep_main_arg5 : after (opsK (F := Ideal)) V (Proc.devRef .tc main_arg5) = V (Proc.devRef .tc main_arg5) := by
  after_results_simp

theorem opsK_keep_main_arg2 : after (opsK (F := Ideal)) V (Proc.devRef .tc main_arg2) = V (Proc.devRef .tc main_arg2) := by
  after_results_simp

theorem opsK_keep_main_arg3 : after (opsK (F := Ideal)) V (Proc.devRef .tc main_arg3) = V (Proc.devRef .tc main_arg3) := by
  after_results_simp

theorem opsK_keep_main_arg6 : after (opsK (F := Ideal)) V (Proc.devRef .tc main_arg6) = V (Proc.devRef .tc main_arg6) := by
  after_results_simp

theorem opsK_keep_main_arg7 : after (opsK (F := Ideal)) V (Proc.devRef .tc main_arg7) = V (Proc.devRef .tc main_arg7) := by
  after_results_simp

theorem opsK_keep_main_arg8 : after (opsK (F := Ideal)) V (Proc.devRef .tc main_arg8) = V (Proc.devRef .tc main_arg8) := by
  after_results_simp

theorem opsK_keep_main_arg9 : after (opsK (F := Ideal)) V (Proc.devRef .tc main_arg9) = V (Proc.devRef .tc main_arg9) := by
  after_results_simp

theorem opsL_keep_main_arg10 : after (opsL (F := Ideal)) V (Proc.devRef .tc main_arg10) = V (Proc.devRef .tc main_arg10) := by
  after_results_simp

theorem opsL_keep_main_arg11 : after (opsL (F := Ideal)) V (Proc.devRef .tc main_arg11) = V (Proc.devRef .tc main_arg11) := by
  after_results_simp

theorem opsL_keep_main_arg0 : after (opsL (F := Ideal)) V (Proc.devRef .tc main_arg0) = V (Proc.devRef .tc main_arg0) := by
  after_results_simp

theorem opsL_keep_main_arg1 : after (opsL (F := Ideal)) V (Proc.devRef .tc main_arg1) = V (Proc.devRef .tc main_arg1) := by
  after_results_simp

theorem opsL_keep_main_arg2 : after (opsL (F := Ideal)) V (Proc.devRef .tc main_arg2) = V (Proc.devRef .tc main_arg2) := by
  after_results_simp

theorem opsL_keep_main_arg3 : after (opsL (F := Ideal)) V (Proc.devRef .tc main_arg3) = V (Proc.devRef .tc main_arg3) := by
  after_results_simp

theorem opsL_keep_main_arg4 : after (opsL (F := Ideal)) V (Proc.devRef .tc main_arg4) = V (Proc.devRef .tc main_arg4) := by
  after_results_simp

theorem opsL_keep_main_arg5 : after (opsL (F := Ideal)) V (Proc.devRef .tc main_arg5) = V (Proc.devRef .tc main_arg5) := by
  after_results_simp

theorem opsL_keep_main_arg6 : after (opsL (F := Ideal)) V (Proc.devRef .tc main_arg6) = V (Proc.devRef .tc main_arg6) := by
  after_results_simp

theorem opsL_keep_main_arg7 : after (opsL (F := Ideal)) V (Proc.devRef .tc main_arg7) = V (Proc.devRef .tc main_arg7) := by
  after_results_simp

theorem opsL_keep_main_arg8 : after (opsL (F := Ideal)) V (Proc.devRef .tc main_arg8) = V (Proc.devRef .tc main_arg8) := by
  after_results_simp

theorem opsL_keep_main_arg9 : after (opsL (F := Ideal)) V (Proc.devRef .tc main_arg9) = V (Proc.devRef .tc main_arg9) := by
  after_results_simp

theorem opsM_keep_main_arg10 : after (opsM (F := Ideal)) V (Proc.devRef .tc main_arg10) = V (Proc.devRef .tc main_arg10) := by
  after_results_simp

theorem opsM_keep_main_arg11 : after (opsM (F := Ideal)) V (Proc.devRef .tc main_arg11) = V (Proc.devRef .tc main_arg11) := by
  after_results_simp

theorem opsM_keep_main_v100 : after (opsM (F := Ideal)) V (Proc.devRef .tc main_v100) = V (Proc.devRef .tc main_v100) := by
  after_results_simp

theorem opsM_keep_main_arg0 : after (opsM (F := Ideal)) V (Proc.devRef .tc main_arg0) = V (Proc.devRef .tc main_arg0) := by
  after_results_simp

theorem opsM_keep_main_arg1 : after (opsM (F := Ideal)) V (Proc.devRef .tc main_arg1) = V (Proc.devRef .tc main_arg1) := by
  after_results_simp

theorem opsM_keep_main_arg2 : after (opsM (F := Ideal)) V (Proc.devRef .tc main_arg2) = V (Proc.devRef .tc main_arg2) := by
  after_results_simp

theorem opsM_keep_main_arg3 : after (opsM (F := Ideal)) V (Proc.devRef .tc main_arg3) = V (Proc.devRef .tc main_arg3) := by
  after_results_simp

theorem opsM_keep_main_arg4 : after (opsM (F := Ideal)) V (Proc.devRef .tc main_arg4) = V (Proc.devRef .tc main_arg4) := by
  after_results_simp

theorem opsM_keep_main_arg5 : after (opsM (F := Ideal)) V (Proc.devRef .tc main_arg5) = V (Proc.devRef .tc main_arg5) := by
  after_results_simp

theorem opsM_keep_main_arg6 : after (opsM (F := Ideal)) V (Proc.devRef .tc main_arg6) = V (Proc.devRef .tc main_arg6) := by
  after_results_simp

theorem opsM_keep_main_arg7 : after (opsM (F := Ideal)) V (Proc.devRef .tc main_arg7) = V (Proc.devRef .tc main_arg7) := by
  after_results_simp

theorem opsM_keep_main_arg8 : after (opsM (F := Ideal)) V (Proc.devRef .tc main_arg8) = V (Proc.devRef .tc main_arg8) := by
  after_results_simp

theorem opsM_keep_main_arg9 : after (opsM (F := Ideal)) V (Proc.devRef .tc main_arg9) = V (Proc.devRef .tc main_arg9) := by
  after_results_simp

theorem opsN_keep_main_arg0 : after (opsN (F := Ideal)) V (Proc.devRef .tc main_arg0) = V (Proc.devRef .tc main_arg0) := by
  after_results_simp

theorem opsN_keep_main_arg1 : after (opsN (F := Ideal)) V (Proc.devRef .tc main_arg1) = V (Proc.devRef .tc main_arg1) := by
  after_results_simp

theorem opsN_keep_main_arg2 : after (opsN (F := Ideal)) V (Proc.devRef .tc main_arg2) = V (Proc.devRef .tc main_arg2) := by
  after_results_simp

theorem opsN_keep_main_arg3 : after (opsN (F := Ideal)) V (Proc.devRef .tc main_arg3) = V (Proc.devRef .tc main_arg3) := by
  after_results_simp

theorem opsN_keep_main_arg4 : after (opsN (F := Ideal)) V (Proc.devRef .tc main_arg4) = V (Proc.devRef .tc main_arg4) := by
  after_results_simp

theorem opsN_keep_main_arg5 : after (opsN (F := Ideal)) V (Proc.devRef .tc main_arg5) = V (Proc.devRef .tc main_arg5) := by
  after_results_simp

theorem opsN_keep_main_arg6 : after (opsN (F := Ideal)) V (Proc.devRef .tc main_arg6) = V (Proc.devRef .tc main_arg6) := by
  after_results_simp

theorem opsN_keep_main_arg7 : after (opsN (F := Ideal)) V (Proc.devRef .tc main_arg7) = V (Proc.devRef .tc main_arg7) := by
  after_results_simp

theorem opsN_keep_main_arg8 : after (opsN (F := Ideal)) V (Proc.devRef .tc main_arg8) = V (Proc.devRef .tc main_arg8) := by
  after_results_simp

theorem opsN_keep_main_arg9 : after (opsN (F := Ideal)) V (Proc.devRef .tc main_arg9) = V (Proc.devRef .tc main_arg9) := by
  after_results_simp

theorem opsN_keep_main_arg10 : after (opsN (F := Ideal)) V (Proc.devRef .tc main_arg10) = V (Proc.devRef .tc main_arg10) := by
  after_results_simp

theorem opsN_keep_main_arg11 : after (opsN (F := Ideal)) V (Proc.devRef .tc main_arg11) = V (Proc.devRef .tc main_arg11) := by
  after_results_simp

end Cert.ReferenceIdeal.HandRun

end
-- ==== Proof.RefStages.lean ====
/-
  The reference's value, stage by stage: each intermediate array of the two-layer graph convolution as a pure function of
  the argument arrays, over the extended reals. Every definition is the printed operations of its stretch of @main applied
  to the earlier stages, nothing simplified.

  Arguments: `a0` the masked features [50000, 128], `a1` the features, `a2` the edge list i32[2, 800000] (row 0 the
  sources, row 1 the targets), `a4`, `a5` the input layer's weights and bias, `a6`, `a7` and `a8`, `a9` the two
  convolutions' weights and biases, `a10`, `a11` the output layer's.

  The index side: the sources and the targets, each followed by the self-loops 0 … 49999 (`sIdx`, `dIdx`); the in-degree
  `deg` (a one added at every target), its guarded inverse square root `dis`; the indices with a negative entry wrapped
  by the node count (`sNorm`, `dNorm`); the edge weight `norm`, the product of `dis` at the two ends.
  The value side: a dense layer under the leaky rectifier (`x0`), then twice a weight product (`h1`, `h2`) followed by one
  convolution `conv` — the rows gathered at the sources and scaled by the edge weights (`msg`), added up at the targets
  (`agg`), plus the bias —, the output layer (`xo`); beside it the same input and output layers on the difference of the
  two feature arrays (`m0`, `mo`); the result is the product `out`.
-/
import proofs.«128825_j43533788512795_2_alg».proof.Proof.Gen.ReferenceIdeal
import Idealize.ShloMosaic.PureOps.Ideal

noncomputable section

namespace Cert.ReferenceIdeal.HandRun

open Cert.ReferenceIdeal Cert.ReferenceIdeal.Gen Idealize.ShloMosaic

/-! ## The index side -/

/-- Row 0 of the edge list: the 800000 sources. -/
def src (a2 : IVec S2x800000 32) : IVec S800000 32 :=
  shapeCast S800000 (extractStridedSlice S1x800000 ![0, 0] a2 slices_S2x800000_S1x800000_0_0) shapeCasts_S1x800000_S800000

/-- Row 1 of the edge list: the 800000 targets. -/
def dst (a2 : IVec S2x800000 32) : IVec S800000 32 :=
  shapeCast S800000 (extractStridedSlice S1x800000 ![1, 0] a2 slices_S2x800000_S1x800000_1_0) shapeCasts_S1x800000_S800000

/-- The sources, then the self-loops 0 … 49999. -/
def sIdx (a2 : IVec S2x800000 32) : IVec S850000 32 :=
  concatenate S850000 0 [⟨S800000, src a2⟩, ⟨S50000, iotaInDim S50000 32 0⟩] concatenates_S800000_S50000_S850000_d0

/-- The targets, then the self-loops 0 … 49999. -/
def dIdx (a2 : IVec S2x800000 32) : IVec S850000 32 :=
  concatenate S850000 0 [⟨S800000, dst a2⟩, ⟨S50000, iotaInDim S50000 32 0⟩] concatenates_S800000_S50000_S850000_d0

/-- The in-degree with the self-loop: a one added at every target index, over zeros. -/
def deg (a2 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dIdx a2))
    (broadcastInDim S850000 ![] bcast_S_S850000 (constant (F := Ideal) S_ .f32 0x3F800000#32))

/-- The inverse square root of the in-degree where it is positive, zero elsewhere. -/
def dis (a2 : IVec S2x800000 32) : FVec Ideal S50000 .f32 :=
  select (cmpf (F := Ideal) .ogt (deg a2) (broadcastInDim S50000 ![] bcast_S_S50000 (constant (F := Ideal) S_ .f32 0x00000000#32)))
    (Host.rsqrt (F := Ideal) (deg a2))
    (broadcastInDim S50000 ![] bcast_S_S50000 (constant (F := Ideal) S_ .f32 0x00000000#32))

/-- The source indices, a negative one wrapped by the node count. -/
def sNorm (a2 : IVec S2x800000 32) : IVec S850000 32 :=
  select (cmpi .slt (sIdx a2) (broadcastInDim S850000 ![] bcast_S_S850000 (constantI S_ 32 0#32)))
    (addi (sIdx a2) (broadcastInDim S850000 ![] bcast_S_S850000 (constantI S_ 32 50000#32)))
    (sIdx a2)

/-- The target indices, a negative one wrapped by the node count. -/
def dNorm (a2 : IVec S2x800000 32) : IVec S850000 32 :=
  select (cmpi .slt (dIdx a2) (broadcastInDim S850000 ![] bcast_S_S850000 (constantI S_ 32 0#32)))
    (addi (dIdx a2) (broadcastInDim S850000 ![] bcast_S_S850000 (constantI S_ 32 50000#32)))
    (dIdx a2)

/-- The edge weights: the inverse square root of the degree at the source times the one at the target. -/
def norm (a2 : IVec S2x800000 32) : FVec Ideal S850000 .f32 :=
  mulf (F := Ideal)
    (Host.gather gather_S50000_S850000x1_S850000_n_0_n_n_0_1_1 (dis a2)
      (broadcastInDim S850000x1 ![0] bcast_S850000_S850000x1_0 (sNorm a2)))
    (Host.gather gather_S50000_S850000x1_S850000_n_0_n_n_0_1_1 (dis a2)
      (broadcastInDim S850000x1 ![0] bcast_S850000_S850000x1_0 (dNorm a2)))

/-! ## The value side -/

/-- The leaky rectifier on an array, as the called function spells it: the array where it is at least zero, the broadcast
    slope times the array elsewhere. -/
def lrelu (y : FVec Ideal S50000x256 .f32) (slope : FVec Ideal S_ .f32) : FVec Ideal S50000x256 .f32 :=
  select (cmpf (F := Ideal) .oge y (broadcastInDim S50000x256 ![] bcast_S_S50000x256 (constant (F := Ideal) S_ .f32 0x00000000#32)))
    y
    (mulf (F := Ideal) (broadcastInDim S50000x256 ![] bcast_S_S50000x256 slope) y)

/-- The input layer on the masked features under the leaky rectifier. -/
def x0 (a0 : FVec Ideal S50000x128 .f32) (a4 : FVec Ideal S128x256 .f32) (a5 : FVec Ideal S256 .f32) : FVec Ideal S50000x256 .f32 :=
  lrelu
    (addf (F := Ideal) (Host.dotGeneral (F := Ideal) dot_S50000x128_S128x256_S50000x256_1_0_0_1_n_n none a0 a4)
      (broadcastInDim S50000x256 ![0, 1] bcast_S1x256_S50000x256_0_1 (broadcastInDim S1x256 ![1] bcast_S256_S1x256_1 a5)))
    (constant (F := Ideal) S_ .f32 0x3C23D70A#32)

/-- The first convolution's weight product. -/
def h1 (a0 : FVec Ideal S50000x128 .f32) (a4 : FVec Ideal S128x256 .f32) (a5 : FVec Ideal S256 .f32)
    (a6 : FVec Ideal S256x256 .f32) : FVec Ideal S50000x256 .f32 :=
  Host.dotGeneral (F := Ideal) dot_S50000x256_S256x256_S50000x256_1_0_0_1_n_n none (x0 a0 a4 a5) a6

/-- One convolution's messages: the rows of `h` gathered at the sources, each scaled by its edge weight. -/
def msg (a2 : IVec S2x800000 32) (h : FVec Ideal S50000x256 .f32) : FVec Ideal S850000x256 .f32 :=
  mulf (F := Ideal)
    (Host.gather gather_S50000x256_S850000x1_S850000x256_1_0_n_n_0_1_1256 h
      (broadcastInDim S850000x1 ![0] bcast_S850000_S850000x1_0 (sNorm a2)))
    (broadcastInDim S850000x256 ![0, 1] bcast_S850000x1_S850000x256_0_1
      (broadcastInDim S850000x1 ![0] bcast_S850000_S850000x1_0 (norm a2)))

/-- One convolution's aggregate: the messages added up at the targets, over zeros. -/
def agg (a2 : IVec S2x800000 32) (h : FVec Ideal S50000x256 .f32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32))
    (broadcastInDim S850000x1 ![0] bcast_S850000_S850000x1_0 (dIdx a2))
    (msg a2 h)

/-- One convolution after its weight product: the aggregate plus the bias row. -/
def conv (a2 : IVec S2x800000 32) (h : FVec Ideal S50000x256 .f32) (b : FVec Ideal S256 .f32) : FVec Ideal S50000x256 .f32 :=
  addf (F := Ideal) (agg a2 h)
    (broadcastInDim S50000x256 ![0, 1] bcast_S1x256_S50000x256_0_1 (broadcastInDim S1x256 ![1] bcast_S256_S1x256_1 b))

section Layers

variable (a0 a1 : FVec Ideal S50000x128 .f32) (a2 : IVec S2x800000 32) (a4 : FVec Ideal S128x256 .f32) (a5 : FVec Ideal S256 .f32)
  (a6 : FVec Ideal S256x256 .f32) (a7 : FVec Ideal S256 .f32) (a8 : FVec Ideal S256x256 .f32) (a9 : FVec Ideal S256 .f32)
  (a10 : FVec Ideal S256x2 .f32) (a11 : FVec Ideal S2 .f32)

/-- The first convolution's messages, aggregate and result. -/
def msg1 : FVec Ideal S850000x256 .f32 := msg a2 (h1 a0 a4 a5 a6)
def agg1 : FVec Ideal S50000x256 .f32 := agg a2 (h1 a0 a4 a5 a6)
def x1 : FVec Ideal S50000x256 .f32 := conv a2 (h1 a0 a4 a5 a6) a7

/-- The second convolution's weight product. -/
def h2 : FVec Ideal S50000x256 .f32 :=
  Host.dotGeneral (F := Ideal) dot_S50000x256_S256x256_S50000x256_1_0_0_1_n_n none (x1 a0 a2 a4 a5 a6 a7) a8

/-- The second convolution's messages, aggregate and result. -/
def msg2 : FVec Ideal S850000x256 .f32 := msg a2 (h2 a0 a2 a4 a5 a6 a7 a8)
def agg2 : FVec Ideal S50000x256 .f32 := agg a2 (h2 a0 a2 a4 a5 a6 a7 a8)
def x2 : FVec Ideal S50000x256 .f32 := conv a2 (h2 a0 a2 a4 a5 a6 a7 a8) a9

/-- The output layer on the second convolution's result. -/
def xo : FVec Ideal S50000x2 .f32 :=
  addf (F := Ideal) (Host.dotGeneral (F := Ideal) dot_S50000x256_S256x2_S50000x2_1_0_0_1_n_n none (x2 a0 a2 a4 a5 a6 a7 a8 a9) a10)
    (broadcastInDim S50000x2 ![0, 1] bcast_S1x2_S50000x2_0_1 (broadcastInDim S1x2 ![1] bcast_S2_S1x2_1 a11))

/-- The input layer on the difference of the features and the masked features, under the leaky rectifier. -/
def m0 : FVec Ideal S50000x256 .f32 :=
  lrelu
    (addf (F := Ideal) (Host.dotGeneral (F := Ideal) dot_S50000x128_S128x256_S50000x256_1_0_0_1_n_n none (subf (F := Ideal) a1 a0) a4)
      (broadcastInDim S50000x256 ![0, 1] bcast_S1x256_S50000x256_0_1 (broadcastInDim S1x256 ![1] bcast_S256_S1x256_1 a5)))
    (constant (F := Ideal) S_ .f32 0x3C23D70A#32)

/-- The output layer on it. -/
def mo : FVec Ideal S50000x2 .f32 :=
  addf (F := Ideal) (Host.dotGeneral (F := Ideal) dot_S50000x256_S256x2_S50000x2_1_0_0_1_n_n none (m0 a0 a1 a4 a5) a10)
    (broadcastInDim S50000x2 ![0, 1] bcast_S1x2_S50000x2_0_1 (broadcastInDim S1x2 ![1] bcast_S2_S1x2_1 a11))

/-- The reference's result: the two branches multiplied. -/
def out : FVec Ideal S50000x2 .f32 :=
  mulf (F := Ideal) (xo a0 a2 a4 a5 a6 a7 a8 a9 a10 a11) (mo a0 a1 a4 a5 a10 a11)

end Layers

end Cert.ReferenceIdeal.HandRun

end
-- ==== Proof.RefRun.lean ====
/-
  The reference's run read back. The contents at each boundary between stretches, from any launch contents `V`; at each
  boundary every buffer a later stretch reads holds its stage of the value (a forward chain: a stretch's own reading with
  the earlier boundary's values put in, or the buffer carried over), and every argument holds what it held at launch.
  At the last boundary the result buffer holds `out` of the argument arrays; with the run of the straight line this is
  the statement `run`: every weakly fair execution of @main terminates, the result is `out` of the arguments' launch
  contents, and the arguments are unchanged.
-/
import proofs.«128825_j43533788512795_2_alg».proof.Proof.RefReads
import proofs.«128825_j43533788512795_2_alg».proof.Proof.RefStages

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The contents at each boundary -/

abbrev W1 (V : Valuation τ sig (Elt Ideal)) : Valuation τ sig (Elt Ideal) := after (opsA (F := Ideal)) V
abbrev W2 (V : Valuation τ sig (Elt Ideal)) : Valuation τ sig (Elt Ideal) := after (opsB (F := Ideal)) (W1 V)
abbrev W3 (V : Valuation τ sig (Elt Ideal)) : Valuation τ sig (Elt Ideal) := after (opsC (F := Ideal)) (W2 V)
abbrev W4 (V : Valuation τ sig (Elt Ideal)) : Valuation τ sig (Elt Ideal) := after (opsD (F := Ideal)) (W3 V)
abbrev W5 (V : Valuation τ sig (Elt Ideal)) : Valuation τ sig (Elt Ideal) := after (opsE (F := Ideal)) (W4 V)
abbrev W6 (V : Valuation τ sig (Elt Ideal)) : Valuation τ sig (Elt Ideal) := after (opsF (F := Ideal)) (W5 V)
abbrev W7 (V : Valuation τ sig (Elt Ideal)) : Valuation τ sig (Elt Ideal) := after (opsG (F := Ideal)) (W6 V)
abbrev W8 (V : Valuation τ sig (Elt Ideal)) : Valuation τ sig (Elt Ideal) := after (opsH (F := Ideal)) (W7 V)
abbrev W9 (V : Valuation τ sig (Elt Ideal)) : Valuation τ sig (Elt Ideal) := after (opsI (F := Ideal)) (W8 V)
abbrev W10 (V : Valuation τ sig (Elt Ideal)) : Valuation τ sig (Elt Ideal) := after (opsJ (F := Ideal)) (W9 V)
abbrev W11 (V : Valuation τ sig (Elt Ideal)) : Valuation τ sig (Elt Ideal) := after (opsK (F := Ideal)) (W10 V)
abbrev W12 (V : Valuation τ sig (Elt Ideal)) : Valuation τ sig (Elt Ideal) := after (opsL (F := Ideal)) (W11 V)
abbrev W13 (V : Valuation τ sig (Elt Ideal)) : Valuation τ sig (Elt Ideal) := after (opsM (F := Ideal)) (W12 V)
abbrev W14 (V : Valuation τ sig (Elt Ideal)) : Valuation τ sig (Elt Ideal) := after (opsN (F := Ideal)) (W13 V)

/-- The whole fold is the last boundary's contents. -/
theorem after_ops (V : Valuation τ sig (Elt Ideal)) : after (ops (F := Ideal)) V = W14 V := by
  rw [ops_split, after_append', after_append', after_append', after_append', after_append', after_append', after_append', after_append', after_append', after_append', after_append', after_append', after_append']

/-! ## The value at each boundary -/

theorem val1_main_v7 (V : Valuation τ sig (Elt Ideal)) : W1 V (Proc.devRef .tc main_v7) = (addf (F := Ideal) (φ := .f32) (Host.dotGeneral (F := Ideal) (φ₁ := .f32) (φ₂ := .f32) dot_S50000x128_S128x256_S50000x256_1_0_0_1_n_n none (V (Proc.devRef .tc main_arg0) : FVec Ideal S50000x128 .f32) (V (Proc.devRef .tc main_arg4) : FVec Ideal S128x256 .f32)) (broadcastInDim S50000x256 ![0, 1] bcast_S1x256_S50000x256_0_1 (broadcastInDim S1x256 ![1] bcast_S256_S1x256_1 (V (Proc.devRef .tc main_arg5) : FVec Ideal S256 .f32))) : FVec Ideal S50000x256 .f32) := by
  have h := opsA_main_v7 V
  exact h

theorem val1_main_cst (V : Valuation τ sig (Elt Ideal)) : W1 V (Proc.devRef .tc main_cst) = (constant (F := Ideal) S_ .f32 0x3C23D70A#32 : FVec Ideal S_ .f32) := by
  have h := opsA_main_cst V
  exact h

theorem val1_main_arg6 (V : Valuation τ sig (Elt Ideal)) : W1 V (Proc.devRef .tc main_arg6) = (V (Proc.devRef .tc main_arg6)) :=
  opsA_keep_main_arg6 V

theorem val1_main_v1 (V : Valuation τ sig (Elt Ideal)) : W1 V (Proc.devRef .tc main_v1) = (src (V (Proc.devRef .tc main_arg2)) : IVec S800000 32) := by
  have h := opsA_main_v1 V
  exact h

theorem val1_main_v3 (V : Valuation τ sig (Elt Ideal)) : W1 V (Proc.devRef .tc main_v3) = (dst (V (Proc.devRef .tc main_arg2)) : IVec S800000 32) := by
  have h := opsA_main_v3 V
  exact h

theorem val1_main_arg7 (V : Valuation τ sig (Elt Ideal)) : W1 V (Proc.devRef .tc main_arg7) = (V (Proc.devRef .tc main_arg7)) :=
  opsA_keep_main_arg7 V

theorem val1_main_arg8 (V : Valuation τ sig (Elt Ideal)) : W1 V (Proc.devRef .tc main_arg8) = (V (Proc.devRef .tc main_arg8)) :=
  opsA_keep_main_arg8 V

theorem val1_main_arg9 (V : Valuation τ sig (Elt Ideal)) : W1 V (Proc.devRef .tc main_arg9) = (V (Proc.devRef .tc main_arg9)) :=
  opsA_keep_main_arg9 V

theorem val1_main_arg10 (V : Valuation τ sig (Elt Ideal)) : W1 V (Proc.devRef .tc main_arg10) = (V (Proc.devRef .tc main_arg10)) :=
  opsA_keep_main_arg10 V

theorem val1_main_arg11 (V : Valuation τ sig (Elt Ideal)) : W1 V (Proc.devRef .tc main_arg11) = (V (Proc.devRef .tc main_arg11)) :=
  opsA_keep_main_arg11 V

theorem val1_main_arg1 (V : Valuation τ sig (Elt Ideal)) : W1 V (Proc.devRef .tc main_arg1) = (V (Proc.devRef .tc main_arg1)) :=
  opsA_keep_main_arg1 V

theorem val1_main_arg0 (V : Valuation τ sig (Elt Ideal)) : W1 V (Proc.devRef .tc main_arg0) = (V (Proc.devRef .tc main_arg0)) :=
  opsA_keep_main_arg0 V

theorem val1_main_arg4 (V : Valuation τ sig (Elt Ideal)) : W1 V (Proc.devRef .tc main_arg4) = (V (Proc.devRef .tc main_arg4)) :=
  opsA_keep_main_arg4 V

theorem val1_main_arg5 (V : Valuation τ sig (Elt Ideal)) : W1 V (Proc.devRef .tc main_arg5) = (V (Proc.devRef .tc main_arg5)) :=
  opsA_keep_main_arg5 V

theorem val1_main_arg2 (V : Valuation τ sig (Elt Ideal)) : W1 V (Proc.devRef .tc main_arg2) = (V (Proc.devRef .tc main_arg2)) :=
  opsA_keep_main_arg2 V

theorem val1_main_arg3 (V : Valuation τ sig (Elt Ideal)) : W1 V (Proc.devRef .tc main_arg3) = (V (Proc.devRef .tc main_arg3)) :=
  opsA_keep_main_arg3 V

theorem val2_main_v8 (V : Valuation τ sig (Elt Ideal)) : W2 V (Proc.devRef .tc main_v8) = (x0 (V (Proc.devRef .tc main_arg0)) (V (Proc.devRef .tc main_arg4)) (V (Proc.devRef .tc main_arg5)) : FVec Ideal S50000x256 .f32) := by
  have h := opsB_main_v8 (W1 V)
  rw [val1_main_v7 V, val1_main_cst V] at h
  exact h

theorem val2_main_arg6 (V : Valuation τ sig (Elt Ideal)) : W2 V (Proc.devRef .tc main_arg6) = (V (Proc.devRef .tc main_arg6)) :=
  (opsB_keep_main_arg6 (W1 V)).trans (val1_main_arg6 V)

theorem val2_main_v1 (V : Valuation τ sig (Elt Ideal)) : W2 V (Proc.devRef .tc main_v1) = (src (V (Proc.devRef .tc main_arg2)) : IVec S800000 32) :=
  (opsB_keep_main_v1 (W1 V)).trans (val1_main_v1 V)

theorem val2_main_v3 (V : Valuation τ sig (Elt Ideal)) : W2 V (Proc.devRef .tc main_v3) = (dst (V (Proc.devRef .tc main_arg2)) : IVec S800000 32) :=
  (opsB_keep_main_v3 (W1 V)).trans (val1_main_v3 V)

theorem val2_main_arg7 (V : Valuation τ sig (Elt Ideal)) : W2 V (Proc.devRef .tc main_arg7) = (V (Proc.devRef .tc main_arg7)) :=
  (opsB_keep_main_arg7 (W1 V)).trans (val1_main_arg7 V)

theorem val2_main_arg8 (V : Valuation τ sig (Elt Ideal)) : W2 V (Proc.devRef .tc main_arg8) = (V (Proc.devRef .tc main_arg8)) :=
  (opsB_keep_main_arg8 (W1 V)).trans (val1_main_arg8 V)

theorem val2_main_arg9 (V : Valuation τ sig (Elt Ideal)) : W2 V (Proc.devRef .tc main_arg9) = (V (Proc.devRef .tc main_arg9)) :=
  (opsB_keep_main_arg9 (W1 V)).trans (val1_main_arg9 V)

theorem val2_main_arg10 (V : Valuation τ sig (Elt Ideal)) : W2 V (Proc.devRef .tc main_arg10) = (V (Proc.devRef .tc main_arg10)) :=
  (opsB_keep_main_arg10 (W1 V)).trans (val1_main_arg10 V)

theorem val2_main_arg11 (V : Valuation τ sig (Elt Ideal)) : W2 V (Proc.devRef .tc main_arg11) = (V (Proc.devRef .tc main_arg11)) :=
  (opsB_keep_main_arg11 (W1 V)).trans (val1_main_arg11 V)

theorem val2_main_arg1 (V : Valuation τ sig (Elt Ideal)) : W2 V (Proc.devRef .tc main_arg1) = (V (Proc.devRef .tc main_arg1)) :=
  (opsB_keep_main_arg1 (W1 V)).trans (val1_main_arg1 V)

theorem val2_main_arg0 (V : Valuation τ sig (Elt Ideal)) : W2 V (Proc.devRef .tc main_arg0) = (V (Proc.devRef .tc main_arg0)) :=
  (opsB_keep_main_arg0 (W1 V)).trans (val1_main_arg0 V)

theorem val2_main_arg4 (V : Valuation τ sig (Elt Ideal)) : W2 V (Proc.devRef .tc main_arg4) = (V (Proc.devRef .tc main_arg4)) :=
  (opsB_keep_main_arg4 (W1 V)).trans (val1_main_arg4 V)

theorem val2_main_arg5 (V : Valuation τ sig (Elt Ideal)) : W2 V (Proc.devRef .tc main_arg5) = (V (Proc.devRef .tc main_arg5)) :=
  (opsB_keep_main_arg5 (W1 V)).trans (val1_main_arg5 V)

theorem val2_main_arg2 (V : Valuation τ sig (Elt Ideal)) : W2 V (Proc.devRef .tc main_arg2) = (V (Proc.devRef .tc main_arg2)) :=
  (opsB_keep_main_arg2 (W1 V)).trans (val1_main_arg2 V)

theorem val2_main_arg3 (V : Valuation τ sig (Elt Ideal)) : W2 V (Proc.devRef .tc main_arg3) = (V (Proc.devRef .tc main_arg3)) :=
  (opsB_keep_main_arg3 (W1 V)).trans (val1_main_arg3 V)

theorem val3_main_v18 (V : Valuation τ sig (Elt Ideal)) : W3 V (Proc.devRef .tc main_v18) = (cmpf (F := Ideal) (φ := .f32) .ogt (deg (V (Proc.devRef .tc main_arg2))) (broadcastInDim S50000 ![] bcast_S_S50000 (constant (F := Ideal) S_ .f32 0x00000000#32)) : IVec S50000 1) := by
  have h := opsC_main_v18 (W2 V)
  rw [val2_main_v3 V] at h
  exact h

theorem val3_main_v19 (V : Valuation τ sig (Elt Ideal)) : W3 V (Proc.devRef .tc main_v19) = (Host.rsqrt (F := Ideal) (φ := .f32) (deg (V (Proc.devRef .tc main_arg2))) : FVec Ideal S50000 .f32) := by
  have h := opsC_main_v19 (W2 V)
  rw [val2_main_v3 V] at h
  exact h

theorem val3_main_v20 (V : Valuation τ sig (Elt Ideal)) : W3 V (Proc.devRef .tc main_v20) = (broadcastInDim S50000 ![] bcast_S_S50000 (constant (F := Ideal) S_ .f32 0x00000000#32) : FVec Ideal S50000 .f32) := by
  have h := opsC_main_v20 (W2 V)
  exact h

theorem val3_main_v11 (V : Valuation τ sig (Elt Ideal)) : W3 V (Proc.devRef .tc main_v11) = (sIdx (V (Proc.devRef .tc main_arg2)) : IVec S850000 32) := by
  have h := opsC_main_v11 (W2 V)
  rw [val2_main_v1 V] at h
  exact h

theorem val3_main_v12 (V : Valuation τ sig (Elt Ideal)) : W3 V (Proc.devRef .tc main_v12) = (dIdx (V (Proc.devRef .tc main_arg2)) : IVec S850000 32) := by
  have h := opsC_main_v12 (W2 V)
  rw [val2_main_v3 V] at h
  exact h

theorem val3_main_v9 (V : Valuation τ sig (Elt Ideal)) : W3 V (Proc.devRef .tc main_v9) = (h1 (V (Proc.devRef .tc main_arg0)) (V (Proc.devRef .tc main_arg4)) (V (Proc.devRef .tc main_arg5)) (V (Proc.devRef .tc main_arg6)) : FVec Ideal S50000x256 .f32) := by
  have h := opsC_main_v9 (W2 V)
  rw [val2_main_v8 V, val2_main_arg6 V] at h
  exact h

theorem val3_main_arg7 (V : Valuation τ sig (Elt Ideal)) : W3 V (Proc.devRef .tc main_arg7) = (V (Proc.devRef .tc main_arg7)) :=
  (opsC_keep_main_arg7 (W2 V)).trans (val2_main_arg7 V)

theorem val3_main_arg8 (V : Valuation τ sig (Elt Ideal)) : W3 V (Proc.devRef .tc main_arg8) = (V (Proc.devRef .tc main_arg8)) :=
  (opsC_keep_main_arg8 (W2 V)).trans (val2_main_arg8 V)

theorem val3_main_v1 (V : Valuation τ sig (Elt Ideal)) : W3 V (Proc.devRef .tc main_v1) = (src (V (Proc.devRef .tc main_arg2)) : IVec S800000 32) :=
  (opsC_keep_main_v1 (W2 V)).trans (val2_main_v1 V)

theorem val3_main_v3 (V : Valuation τ sig (Elt Ideal)) : W3 V (Proc.devRef .tc main_v3) = (dst (V (Proc.devRef .tc main_arg2)) : IVec S800000 32) :=
  (opsC_keep_main_v3 (W2 V)).trans (val2_main_v3 V)

theorem val3_main_arg9 (V : Valuation τ sig (Elt Ideal)) : W3 V (Proc.devRef .tc main_arg9) = (V (Proc.devRef .tc main_arg9)) :=
  (opsC_keep_main_arg9 (W2 V)).trans (val2_main_arg9 V)

theorem val3_main_arg10 (V : Valuation τ sig (Elt Ideal)) : W3 V (Proc.devRef .tc main_arg10) = (V (Proc.devRef .tc main_arg10)) :=
  (opsC_keep_main_arg10 (W2 V)).trans (val2_main_arg10 V)

theorem val3_main_arg11 (V : Valuation τ sig (Elt Ideal)) : W3 V (Proc.devRef .tc main_arg11) = (V (Proc.devRef .tc main_arg11)) :=
  (opsC_keep_main_arg11 (W2 V)).trans (val2_main_arg11 V)

theorem val3_main_arg1 (V : Valuation τ sig (Elt Ideal)) : W3 V (Proc.devRef .tc main_arg1) = (V (Proc.devRef .tc main_arg1)) :=
  (opsC_keep_main_arg1 (W2 V)).trans (val2_main_arg1 V)

theorem val3_main_arg0 (V : Valuation τ sig (Elt Ideal)) : W3 V (Proc.devRef .tc main_arg0) = (V (Proc.devRef .tc main_arg0)) :=
  (opsC_keep_main_arg0 (W2 V)).trans (val2_main_arg0 V)

theorem val3_main_arg4 (V : Valuation τ sig (Elt Ideal)) : W3 V (Proc.devRef .tc main_arg4) = (V (Proc.devRef .tc main_arg4)) :=
  (opsC_keep_main_arg4 (W2 V)).trans (val2_main_arg4 V)

theorem val3_main_arg5 (V : Valuation τ sig (Elt Ideal)) : W3 V (Proc.devRef .tc main_arg5) = (V (Proc.devRef .tc main_arg5)) :=
  (opsC_keep_main_arg5 (W2 V)).trans (val2_main_arg5 V)

theorem val3_main_arg2 (V : Valuation τ sig (Elt Ideal)) : W3 V (Proc.devRef .tc main_arg2) = (V (Proc.devRef .tc main_arg2)) :=
  (opsC_keep_main_arg2 (W2 V)).trans (val2_main_arg2 V)

theorem val3_main_arg3 (V : Valuation τ sig (Elt Ideal)) : W3 V (Proc.devRef .tc main_arg3) = (V (Proc.devRef .tc main_arg3)) :=
  (opsC_keep_main_arg3 (W2 V)).trans (val2_main_arg3 V)

theorem val3_main_arg6 (V : Valuation τ sig (Elt Ideal)) : W3 V (Proc.devRef .tc main_arg6) = (V (Proc.devRef .tc main_arg6)) :=
  (opsC_keep_main_arg6 (W2 V)).trans (val2_main_arg6 V)

theorem val4_main_v11 (V : Valuation τ sig (Elt Ideal)) : W4 V (Proc.devRef .tc main_v11) = (sIdx (V (Proc.devRef .tc main_arg2)) : IVec S850000 32) :=
  (opsD_keep_main_v11 (W3 V)).trans (val3_main_v11 V)

theorem val4_main_v21 (V : Valuation τ sig (Elt Ideal)) : W4 V (Proc.devRef .tc main_v21) = (dis (V (Proc.devRef .tc main_arg2)) : FVec Ideal S50000 .f32) := by
  have h := opsD_main_v21 (W3 V)
  rw [val3_main_v18 V, val3_main_v19 V, val3_main_v20 V] at h
  exact h

theorem val4_main_v12 (V : Valuation τ sig (Elt Ideal)) : W4 V (Proc.devRef .tc main_v12) = (dIdx (V (Proc.devRef .tc main_arg2)) : IVec S850000 32) :=
  (opsD_keep_main_v12 (W3 V)).trans (val3_main_v12 V)

theorem val4_main_v9 (V : Valuation τ sig (Elt Ideal)) : W4 V (Proc.devRef .tc main_v9) = (h1 (V (Proc.devRef .tc main_arg0)) (V (Proc.devRef .tc main_arg4)) (V (Proc.devRef .tc main_arg5)) (V (Proc.devRef .tc main_arg6)) : FVec Ideal S50000x256 .f32) :=
  (opsD_keep_main_v9 (W3 V)).trans (val3_main_v9 V)

theorem val4_main_arg7 (V : Valuation τ sig (Elt Ideal)) : W4 V (Proc.devRef .tc main_arg7) = (V (Proc.devRef .tc main_arg7)) :=
  (opsD_keep_main_arg7 (W3 V)).trans (val3_main_arg7 V)

theorem val4_main_arg8 (V : Valuation τ sig (Elt Ideal)) : W4 V (Proc.devRef .tc main_arg8) = (V (Proc.devRef .tc main_arg8)) :=
  (opsD_keep_main_arg8 (W3 V)).trans (val3_main_arg8 V)

theorem val4_main_v1 (V : Valuation τ sig (Elt Ideal)) : W4 V (Proc.devRef .tc main_v1) = (src (V (Proc.devRef .tc main_arg2)) : IVec S800000 32) :=
  (opsD_keep_main_v1 (W3 V)).trans (val3_main_v1 V)

theorem val4_main_v3 (V : Valuation τ sig (Elt Ideal)) : W4 V (Proc.devRef .tc main_v3) = (dst (V (Proc.devRef .tc main_arg2)) : IVec S800000 32) :=
  (opsD_keep_main_v3 (W3 V)).trans (val3_main_v3 V)

theorem val4_main_arg9 (V : Valuation τ sig (Elt Ideal)) : W4 V (Proc.devRef .tc main_arg9) = (V (Proc.devRef .tc main_arg9)) :=
  (opsD_keep_main_arg9 (W3 V)).trans (val3_main_arg9 V)

theorem val4_main_arg10 (V : Valuation τ sig (Elt Ideal)) : W4 V (Proc.devRef .tc main_arg10) = (V (Proc.devRef .tc main_arg10)) :=
  (opsD_keep_main_arg10 (W3 V)).trans (val3_main_arg10 V)

theorem val4_main_arg11 (V : Valuation τ sig (Elt Ideal)) : W4 V (Proc.devRef .tc main_arg11) = (V (Proc.devRef .tc main_arg11)) :=
  (opsD_keep_main_arg11 (W3 V)).trans (val3_main_arg11 V)

theorem val4_main_arg1 (V : Valuation τ sig (Elt Ideal)) : W4 V (Proc.devRef .tc main_arg1) = (V (Proc.devRef .tc main_arg1)) :=
  (opsD_keep_main_arg1 (W3 V)).trans (val3_main_arg1 V)

theorem val4_main_arg0 (V : Valuation τ sig (Elt Ideal)) : W4 V (Proc.devRef .tc main_arg0) = (V (Proc.devRef .tc main_arg0)) :=
  (opsD_keep_main_arg0 (W3 V)).trans (val3_main_arg0 V)

theorem val4_main_arg4 (V : Valuation τ sig (Elt Ideal)) : W4 V (Proc.devRef .tc main_arg4) = (V (Proc.devRef .tc main_arg4)) :=
  (opsD_keep_main_arg4 (W3 V)).trans (val3_main_arg4 V)

theorem val4_main_arg5 (V : Valuation τ sig (Elt Ideal)) : W4 V (Proc.devRef .tc main_arg5) = (V (Proc.devRef .tc main_arg5)) :=
  (opsD_keep_main_arg5 (W3 V)).trans (val3_main_arg5 V)

theorem val4_main_arg2 (V : Valuation τ sig (Elt Ideal)) : W4 V (Proc.devRef .tc main_arg2) = (V (Proc.devRef .tc main_arg2)) :=
  (opsD_keep_main_arg2 (W3 V)).trans (val3_main_arg2 V)

theorem val4_main_arg3 (V : Valuation τ sig (Elt Ideal)) : W4 V (Proc.devRef .tc main_arg3) = (V (Proc.devRef .tc main_arg3)) :=
  (opsD_keep_main_arg3 (W3 V)).trans (val3_main_arg3 V)

theorem val4_main_arg6 (V : Valuation τ sig (Elt Ideal)) : W4 V (Proc.devRef .tc main_arg6) = (V (Proc.devRef .tc main_arg6)) :=
  (opsD_keep_main_arg6 (W3 V)).trans (val3_main_arg6 V)

theorem val5_main_v11 (V : Valuation τ sig (Elt Ideal)) : W5 V (Proc.devRef .tc main_v11) = (sIdx (V (Proc.devRef .tc main_arg2)) : IVec S850000 32) :=
  (opsE_keep_main_v11 (W4 V)).trans (val4_main_v11 V)

theorem val5_main_v9 (V : Valuation τ sig (Elt Ideal)) : W5 V (Proc.devRef .tc main_v9) = (h1 (V (Proc.devRef .tc main_arg0)) (V (Proc.devRef .tc main_arg4)) (V (Proc.devRef .tc main_arg5)) (V (Proc.devRef .tc main_arg6)) : FVec Ideal S50000x256 .f32) :=
  (opsE_keep_main_v9 (W4 V)).trans (val4_main_v9 V)

theorem val5_main_v36 (V : Valuation τ sig (Elt Ideal)) : W5 V (Proc.devRef .tc main_v36) = (norm (V (Proc.devRef .tc main_arg2)) : FVec Ideal S850000 .f32) := by
  have h := opsE_main_v36 (W4 V)
  rw [val4_main_v21 V, val4_main_v11 V, val4_main_v12 V] at h
  exact h

theorem val5_main_v12 (V : Valuation τ sig (Elt Ideal)) : W5 V (Proc.devRef .tc main_v12) = (dIdx (V (Proc.devRef .tc main_arg2)) : IVec S850000 32) :=
  (opsE_keep_main_v12 (W4 V)).trans (val4_main_v12 V)

theorem val5_main_arg7 (V : Valuation τ sig (Elt Ideal)) : W5 V (Proc.devRef .tc main_arg7) = (V (Proc.devRef .tc main_arg7)) :=
  (opsE_keep_main_arg7 (W4 V)).trans (val4_main_arg7 V)

theorem val5_main_arg8 (V : Valuation τ sig (Elt Ideal)) : W5 V (Proc.devRef .tc main_arg8) = (V (Proc.devRef .tc main_arg8)) :=
  (opsE_keep_main_arg8 (W4 V)).trans (val4_main_arg8 V)

theorem val5_main_v1 (V : Valuation τ sig (Elt Ideal)) : W5 V (Proc.devRef .tc main_v1) = (src (V (Proc.devRef .tc main_arg2)) : IVec S800000 32) :=
  (opsE_keep_main_v1 (W4 V)).trans (val4_main_v1 V)

theorem val5_main_v3 (V : Valuation τ sig (Elt Ideal)) : W5 V (Proc.devRef .tc main_v3) = (dst (V (Proc.devRef .tc main_arg2)) : IVec S800000 32) :=
  (opsE_keep_main_v3 (W4 V)).trans (val4_main_v3 V)

theorem val5_main_arg9 (V : Valuation τ sig (Elt Ideal)) : W5 V (Proc.devRef .tc main_arg9) = (V (Proc.devRef .tc main_arg9)) :=
  (opsE_keep_main_arg9 (W4 V)).trans (val4_main_arg9 V)

theorem val5_main_arg10 (V : Valuation τ sig (Elt Ideal)) : W5 V (Proc.devRef .tc main_arg10) = (V (Proc.devRef .tc main_arg10)) :=
  (opsE_keep_main_arg10 (W4 V)).trans (val4_main_arg10 V)

theorem val5_main_arg11 (V : Valuation τ sig (Elt Ideal)) : W5 V (Proc.devRef .tc main_arg11) = (V (Proc.devRef .tc main_arg11)) :=
  (opsE_keep_main_arg11 (W4 V)).trans (val4_main_arg11 V)

theorem val5_main_arg1 (V : Valuation τ sig (Elt Ideal)) : W5 V (Proc.devRef .tc main_arg1) = (V (Proc.devRef .tc main_arg1)) :=
  (opsE_keep_main_arg1 (W4 V)).trans (val4_main_arg1 V)

theorem val5_main_arg0 (V : Valuation τ sig (Elt Ideal)) : W5 V (Proc.devRef .tc main_arg0) = (V (Proc.devRef .tc main_arg0)) :=
  (opsE_keep_main_arg0 (W4 V)).trans (val4_main_arg0 V)

theorem val5_main_arg4 (V : Valuation τ sig (Elt Ideal)) : W5 V (Proc.devRef .tc main_arg4) = (V (Proc.devRef .tc main_arg4)) :=
  (opsE_keep_main_arg4 (W4 V)).trans (val4_main_arg4 V)

theorem val5_main_arg5 (V : Valuation τ sig (Elt Ideal)) : W5 V (Proc.devRef .tc main_arg5) = (V (Proc.devRef .tc main_arg5)) :=
  (opsE_keep_main_arg5 (W4 V)).trans (val4_main_arg5 V)

theorem val5_main_arg2 (V : Valuation τ sig (Elt Ideal)) : W5 V (Proc.devRef .tc main_arg2) = (V (Proc.devRef .tc main_arg2)) :=
  (opsE_keep_main_arg2 (W4 V)).trans (val4_main_arg2 V)

theorem val5_main_arg3 (V : Valuation τ sig (Elt Ideal)) : W5 V (Proc.devRef .tc main_arg3) = (V (Proc.devRef .tc main_arg3)) :=
  (opsE_keep_main_arg3 (W4 V)).trans (val4_main_arg3 V)

theorem val5_main_arg6 (V : Valuation τ sig (Elt Ideal)) : W5 V (Proc.devRef .tc main_arg6) = (V (Proc.devRef .tc main_arg6)) :=
  (opsE_keep_main_arg6 (W4 V)).trans (val4_main_arg6 V)

theorem val6_main_v12 (V : Valuation τ sig (Elt Ideal)) : W6 V (Proc.devRef .tc main_v12) = (dIdx (V (Proc.devRef .tc main_arg2)) : IVec S850000 32) :=
  (opsF_keep_main_v12 (W5 V)).trans (val5_main_v12 V)

theorem val6_main_v47 (V : Valuation τ sig (Elt Ideal)) : W6 V (Proc.devRef .tc main_v47) = (broadcastInDim S50000x256 ![] bcast_S_S50000x256 (constant (F := Ideal) S_ .f32 0x00000000#32) : FVec Ideal S50000x256 .f32) := by
  have h := opsF_main_v47 (W5 V)
  exact h

theorem val6_main_v46 (V : Valuation τ sig (Elt Ideal)) : W6 V (Proc.devRef .tc main_v46) = (msg1 (V (Proc.devRef .tc main_arg0)) (V (Proc.devRef .tc main_arg2)) (V (Proc.devRef .tc main_arg4)) (V (Proc.devRef .tc main_arg5)) (V (Proc.devRef .tc main_arg6)) : FVec Ideal S850000x256 .f32) := by
  have h := opsF_main_v46 (W5 V)
  rw [val5_main_v9 V, val5_main_v11 V, val5_main_v36 V] at h
  exact h

theorem val6_main_arg7 (V : Valuation τ sig (Elt Ideal)) : W6 V (Proc.devRef .tc main_arg7) = (V (Proc.devRef .tc main_arg7)) :=
  (opsF_keep_main_arg7 (W5 V)).trans (val5_main_arg7 V)

theorem val6_main_arg8 (V : Valuation τ sig (Elt Ideal)) : W6 V (Proc.devRef .tc main_arg8) = (V (Proc.devRef .tc main_arg8)) :=
  (opsF_keep_main_arg8 (W5 V)).trans (val5_main_arg8 V)

theorem val6_main_v1 (V : Valuation τ sig (Elt Ideal)) : W6 V (Proc.devRef .tc main_v1) = (src (V (Proc.devRef .tc main_arg2)) : IVec S800000 32) :=
  (opsF_keep_main_v1 (W5 V)).trans (val5_main_v1 V)

theorem val6_main_v3 (V : Valuation τ sig (Elt Ideal)) : W6 V (Proc.devRef .tc main_v3) = (dst (V (Proc.devRef .tc main_arg2)) : IVec S800000 32) :=
  (opsF_keep_main_v3 (W5 V)).trans (val5_main_v3 V)

theorem val6_main_arg9 (V : Valuation τ sig (Elt Ideal)) : W6 V (Proc.devRef .tc main_arg9) = (V (Proc.devRef .tc main_arg9)) :=
  (opsF_keep_main_arg9 (W5 V)).trans (val5_main_arg9 V)

theorem val6_main_arg10 (V : Valuation τ sig (Elt Ideal)) : W6 V (Proc.devRef .tc main_arg10) = (V (Proc.devRef .tc main_arg10)) :=
  (opsF_keep_main_arg10 (W5 V)).trans (val5_main_arg10 V)

theorem val6_main_arg11 (V : Valuation τ sig (Elt Ideal)) : W6 V (Proc.devRef .tc main_arg11) = (V (Proc.devRef .tc main_arg11)) :=
  (opsF_keep_main_arg11 (W5 V)).trans (val5_main_arg11 V)

theorem val6_main_arg1 (V : Valuation τ sig (Elt Ideal)) : W6 V (Proc.devRef .tc main_arg1) = (V (Proc.devRef .tc main_arg1)) :=
  (opsF_keep_main_arg1 (W5 V)).trans (val5_main_arg1 V)

theorem val6_main_arg0 (V : Valuation τ sig (Elt Ideal)) : W6 V (Proc.devRef .tc main_arg0) = (V (Proc.devRef .tc main_arg0)) :=
  (opsF_keep_main_arg0 (W5 V)).trans (val5_main_arg0 V)

theorem val6_main_arg4 (V : Valuation τ sig (Elt Ideal)) : W6 V (Proc.devRef .tc main_arg4) = (V (Proc.devRef .tc main_arg4)) :=
  (opsF_keep_main_arg4 (W5 V)).trans (val5_main_arg4 V)

theorem val6_main_arg5 (V : Valuation τ sig (Elt Ideal)) : W6 V (Proc.devRef .tc main_arg5) = (V (Proc.devRef .tc main_arg5)) :=
  (opsF_keep_main_arg5 (W5 V)).trans (val5_main_arg5 V)

theorem val6_main_arg2 (V : Valuation τ sig (Elt Ideal)) : W6 V (Proc.devRef .tc main_arg2) = (V (Proc.devRef .tc main_arg2)) :=
  (opsF_keep_main_arg2 (W5 V)).trans (val5_main_arg2 V)

theorem val6_main_arg3 (V : Valuation τ sig (Elt Ideal)) : W6 V (Proc.devRef .tc main_arg3) = (V (Proc.devRef .tc main_arg3)) :=
  (opsF_keep_main_arg3 (W5 V)).trans (val5_main_arg3 V)

theorem val6_main_arg6 (V : Valuation τ sig (Elt Ideal)) : W6 V (Proc.devRef .tc main_arg6) = (V (Proc.devRef .tc main_arg6)) :=
  (opsF_keep_main_arg6 (W5 V)).trans (val5_main_arg6 V)

theorem val7_main_v52 (V : Valuation τ sig (Elt Ideal)) : W7 V (Proc.devRef .tc main_v52) = (x1 (V (Proc.devRef .tc main_arg0)) (V (Proc.devRef .tc main_arg2)) (V (Proc.devRef .tc main_arg4)) (V (Proc.devRef .tc main_arg5)) (V (Proc.devRef .tc main_arg6)) (V (Proc.devRef .tc main_arg7)) : FVec Ideal S50000x256 .f32) := by
  have h := opsG_main_v52 (W6 V)
  rw [val6_main_v47 V, val6_main_v12 V, val6_main_v46 V, val6_main_arg7 V] at h
  exact h

theorem val7_main_arg8 (V : Valuation τ sig (Elt Ideal)) : W7 V (Proc.devRef .tc main_arg8) = (V (Proc.devRef .tc main_arg8)) :=
  (opsG_keep_main_arg8 (W6 V)).trans (val6_main_arg8 V)

theorem val7_main_v1 (V : Valuation τ sig (Elt Ideal)) : W7 V (Proc.devRef .tc main_v1) = (src (V (Proc.devRef .tc main_arg2)) : IVec S800000 32) :=
  (opsG_keep_main_v1 (W6 V)).trans (val6_main_v1 V)

theorem val7_main_v3 (V : Valuation τ sig (Elt Ideal)) : W7 V (Proc.devRef .tc main_v3) = (dst (V (Proc.devRef .tc main_arg2)) : IVec S800000 32) :=
  (opsG_keep_main_v3 (W6 V)).trans (val6_main_v3 V)

theorem val7_main_arg9 (V : Valuation τ sig (Elt Ideal)) : W7 V (Proc.devRef .tc main_arg9) = (V (Proc.devRef .tc main_arg9)) :=
  (opsG_keep_main_arg9 (W6 V)).trans (val6_main_arg9 V)

theorem val7_main_arg10 (V : Valuation τ sig (Elt Ideal)) : W7 V (Proc.devRef .tc main_arg10) = (V (Proc.devRef .tc main_arg10)) :=
  (opsG_keep_main_arg10 (W6 V)).trans (val6_main_arg10 V)

theorem val7_main_arg11 (V : Valuation τ sig (Elt Ideal)) : W7 V (Proc.devRef .tc main_arg11) = (V (Proc.devRef .tc main_arg11)) :=
  (opsG_keep_main_arg11 (W6 V)).trans (val6_main_arg11 V)

theorem val7_main_arg1 (V : Valuation τ sig (Elt Ideal)) : W7 V (Proc.devRef .tc main_arg1) = (V (Proc.devRef .tc main_arg1)) :=
  (opsG_keep_main_arg1 (W6 V)).trans (val6_main_arg1 V)

theorem val7_main_arg0 (V : Valuation τ sig (Elt Ideal)) : W7 V (Proc.devRef .tc main_arg0) = (V (Proc.devRef .tc main_arg0)) :=
  (opsG_keep_main_arg0 (W6 V)).trans (val6_main_arg0 V)

theorem val7_main_arg4 (V : Valuation τ sig (Elt Ideal)) : W7 V (Proc.devRef .tc main_arg4) = (V (Proc.devRef .tc main_arg4)) :=
  (opsG_keep_main_arg4 (W6 V)).trans (val6_main_arg4 V)

theorem val7_main_arg5 (V : Valuation τ sig (Elt Ideal)) : W7 V (Proc.devRef .tc main_arg5) = (V (Proc.devRef .tc main_arg5)) :=
  (opsG_keep_main_arg5 (W6 V)).trans (val6_main_arg5 V)

theorem val7_main_arg2 (V : Valuation τ sig (Elt Ideal)) : W7 V (Proc.devRef .tc main_arg2) = (V (Proc.devRef .tc main_arg2)) :=
  (opsG_keep_main_arg2 (W6 V)).trans (val6_main_arg2 V)

theorem val7_main_arg3 (V : Valuation τ sig (Elt Ideal)) : W7 V (Proc.devRef .tc main_arg3) = (V (Proc.devRef .tc main_arg3)) :=
  (opsG_keep_main_arg3 (W6 V)).trans (val6_main_arg3 V)

theorem val7_main_arg6 (V : Valuation τ sig (Elt Ideal)) : W7 V (Proc.devRef .tc main_arg6) = (V (Proc.devRef .tc main_arg6)) :=
  (opsG_keep_main_arg6 (W6 V)).trans (val6_main_arg6 V)

theorem val7_main_arg7 (V : Valuation τ sig (Elt Ideal)) : W7 V (Proc.devRef .tc main_arg7) = (V (Proc.devRef .tc main_arg7)) :=
  (opsG_keep_main_arg7 (W6 V)).trans (val6_main_arg7 V)

theorem val8_main_v62 (V : Valuation τ sig (Elt Ideal)) : W8 V (Proc.devRef .tc main_v62) = (cmpf (F := Ideal) (φ := .f32) .ogt (deg (V (Proc.devRef .tc main_arg2))) (broadcastInDim S50000 ![] bcast_S_S50000 (constant (F := Ideal) S_ .f32 0x00000000#32)) : IVec S50000 1) := by
  have h := opsH_main_v62 (W7 V)
  rw [val7_main_v3 V] at h
  exact h

theorem val8_main_v63 (V : Valuation τ sig (Elt Ideal)) : W8 V (Proc.devRef .tc main_v63) = (Host.rsqrt (F := Ideal) (φ := .f32) (deg (V (Proc.devRef .tc main_arg2))) : FVec Ideal S50000 .f32) := by
  have h := opsH_main_v63 (W7 V)
  rw [val7_main_v3 V] at h
  exact h

theorem val8_main_v64 (V : Valuation τ sig (Elt Ideal)) : W8 V (Proc.devRef .tc main_v64) = (broadcastInDim S50000 ![] bcast_S_S50000 (constant (F := Ideal) S_ .f32 0x00000000#32) : FVec Ideal S50000 .f32) := by
  have h := opsH_main_v64 (W7 V)
  exact h

theorem val8_main_v55 (V : Valuation τ sig (Elt Ideal)) : W8 V (Proc.devRef .tc main_v55) = (sIdx (V (Proc.devRef .tc main_arg2)) : IVec S850000 32) := by
  have h := opsH_main_v55 (W7 V)
  rw [val7_main_v1 V] at h
  exact h

theorem val8_main_v56 (V : Valuation τ sig (Elt Ideal)) : W8 V (Proc.devRef .tc main_v56) = (dIdx (V (Proc.devRef .tc main_arg2)) : IVec S850000 32) := by
  have h := opsH_main_v56 (W7 V)
  rw [val7_main_v3 V] at h
  exact h

theorem val8_main_v53 (V : Valuation τ sig (Elt Ideal)) : W8 V (Proc.devRef .tc main_v53) = (h2 (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) : FVec Ideal S50000x256 .f32) := by
  have h := opsH_main_v53 (W7 V)
  rw [val7_main_v52 V, val7_main_arg8 V] at h
  exact h

theorem val8_main_arg9 (V : Valuation τ sig (Elt Ideal)) : W8 V (Proc.devRef .tc main_arg9) = (V (Proc.devRef .tc main_arg9)) :=
  (opsH_keep_main_arg9 (W7 V)).trans (val7_main_arg9 V)

theorem val8_main_arg10 (V : Valuation τ sig (Elt Ideal)) : W8 V (Proc.devRef .tc main_arg10) = (V (Proc.devRef .tc main_arg10)) :=
  (opsH_keep_main_arg10 (W7 V)).trans (val7_main_arg10 V)

theorem val8_main_arg11 (V : Valuation τ sig (Elt Ideal)) : W8 V (Proc.devRef .tc main_arg11) = (V (Proc.devRef .tc main_arg11)) :=
  (opsH_keep_main_arg11 (W7 V)).trans (val7_main_arg11 V)

theorem val8_main_arg1 (V : Valuation τ sig (Elt Ideal)) : W8 V (Proc.devRef .tc main_arg1) = (V (Proc.devRef .tc main_arg1)) :=
  (opsH_keep_main_arg1 (W7 V)).trans (val7_main_arg1 V)

theorem val8_main_arg0 (V : Valuation τ sig (Elt Ideal)) : W8 V (Proc.devRef .tc main_arg0) = (V (Proc.devRef .tc main_arg0)) :=
  (opsH_keep_main_arg0 (W7 V)).trans (val7_main_arg0 V)

theorem val8_main_arg4 (V : Valuation τ sig (Elt Ideal)) : W8 V (Proc.devRef .tc main_arg4) = (V (Proc.devRef .tc main_arg4)) :=
  (opsH_keep_main_arg4 (W7 V)).trans (val7_main_arg4 V)

theorem val8_main_arg5 (V : Valuation τ sig (Elt Ideal)) : W8 V (Proc.devRef .tc main_arg5) = (V (Proc.devRef .tc main_arg5)) :=
  (opsH_keep_main_arg5 (W7 V)).trans (val7_main_arg5 V)

theorem val8_main_arg2 (V : Valuation τ sig (Elt Ideal)) : W8 V (Proc.devRef .tc main_arg2) = (V (Proc.devRef .tc main_arg2)) :=
  (opsH_keep_main_arg2 (W7 V)).trans (val7_main_arg2 V)

theorem val8_main_arg3 (V : Valuation τ sig (Elt Ideal)) : W8 V (Proc.devRef .tc main_arg3) = (V (Proc.devRef .tc main_arg3)) :=
  (opsH_keep_main_arg3 (W7 V)).trans (val7_main_arg3 V)

theorem val8_main_arg6 (V : Valuation τ sig (Elt Ideal)) : W8 V (Proc.devRef .tc main_arg6) = (V (Proc.devRef .tc main_arg6)) :=
  (opsH_keep_main_arg6 (W7 V)).trans (val7_main_arg6 V)

theorem val8_main_arg7 (V : Valuation τ sig (Elt Ideal)) : W8 V (Proc.devRef .tc main_arg7) = (V (Proc.devRef .tc main_arg7)) :=
  (opsH_keep_main_arg7 (W7 V)).trans (val7_main_arg7 V)

theorem val8_main_arg8 (V : Valuation τ sig (Elt Ideal)) : W8 V (Proc.devRef .tc main_arg8) = (V (Proc.devRef .tc main_arg8)) :=
  (opsH_keep_main_arg8 (W7 V)).trans (val7_main_arg8 V)

theorem val9_main_v55 (V : Valuation τ sig (Elt Ideal)) : W9 V (Proc.devRef .tc main_v55) = (sIdx (V (Proc.devRef .tc main_arg2)) : IVec S850000 32) :=
  (opsI_keep_main_v55 (W8 V)).trans (val8_main_v55 V)

theorem val9_main_v65 (V : Valuation τ sig (Elt Ideal)) : W9 V (Proc.devRef .tc main_v65) = (dis (V (Proc.devRef .tc main_arg2)) : FVec Ideal S50000 .f32) := by
  have h := opsI_main_v65 (W8 V)
  rw [val8_main_v62 V, val8_main_v63 V, val8_main_v64 V] at h
  exact h

theorem val9_main_v56 (V : Valuation τ sig (Elt Ideal)) : W9 V (Proc.devRef .tc main_v56) = (dIdx (V (Proc.devRef .tc main_arg2)) : IVec S850000 32) :=
  (opsI_keep_main_v56 (W8 V)).trans (val8_main_v56 V)

theorem val9_main_v53 (V : Valuation τ sig (Elt Ideal)) : W9 V (Proc.devRef .tc main_v53) = (h2 (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) : FVec Ideal S50000x256 .f32) :=
  (opsI_keep_main_v53 (W8 V)).trans (val8_main_v53 V)

theorem val9_main_arg9 (V : Valuation τ sig (Elt Ideal)) : W9 V (Proc.devRef .tc main_arg9) = (V (Proc.devRef .tc main_arg9)) :=
  (opsI_keep_main_arg9 (W8 V)).trans (val8_main_arg9 V)

theorem val9_main_arg10 (V : Valuation τ sig (Elt Ideal)) : W9 V (Proc.devRef .tc main_arg10) = (V (Proc.devRef .tc main_arg10)) :=
  (opsI_keep_main_arg10 (W8 V)).trans (val8_main_arg10 V)

theorem val9_main_arg11 (V : Valuation τ sig (Elt Ideal)) : W9 V (Proc.devRef .tc main_arg11) = (V (Proc.devRef .tc main_arg11)) :=
  (opsI_keep_main_arg11 (W8 V)).trans (val8_main_arg11 V)

theorem val9_main_arg1 (V : Valuation τ sig (Elt Ideal)) : W9 V (Proc.devRef .tc main_arg1) = (V (Proc.devRef .tc main_arg1)) :=
  (opsI_keep_main_arg1 (W8 V)).trans (val8_main_arg1 V)

theorem val9_main_arg0 (V : Valuation τ sig (Elt Ideal)) : W9 V (Proc.devRef .tc main_arg0) = (V (Proc.devRef .tc main_arg0)) :=
  (opsI_keep_main_arg0 (W8 V)).trans (val8_main_arg0 V)

theorem val9_main_arg4 (V : Valuation τ sig (Elt Ideal)) : W9 V (Proc.devRef .tc main_arg4) = (V (Proc.devRef .tc main_arg4)) :=
  (opsI_keep_main_arg4 (W8 V)).trans (val8_main_arg4 V)

theorem val9_main_arg5 (V : Valuation τ sig (Elt Ideal)) : W9 V (Proc.devRef .tc main_arg5) = (V (Proc.devRef .tc main_arg5)) :=
  (opsI_keep_main_arg5 (W8 V)).trans (val8_main_arg5 V)

theorem val9_main_arg2 (V : Valuation τ sig (Elt Ideal)) : W9 V (Proc.devRef .tc main_arg2) = (V (Proc.devRef .tc main_arg2)) :=
  (opsI_keep_main_arg2 (W8 V)).trans (val8_main_arg2 V)

theorem val9_main_arg3 (V : Valuation τ sig (Elt Ideal)) : W9 V (Proc.devRef .tc main_arg3) = (V (Proc.devRef .tc main_arg3)) :=
  (opsI_keep_main_arg3 (W8 V)).trans (val8_main_arg3 V)

theorem val9_main_arg6 (V : Valuation τ sig (Elt Ideal)) : W9 V (Proc.devRef .tc main_arg6) = (V (Proc.devRef .tc main_arg6)) :=
  (opsI_keep_main_arg6 (W8 V)).trans (val8_main_arg6 V)

theorem val9_main_arg7 (V : Valuation τ sig (Elt Ideal)) : W9 V (Proc.devRef .tc main_arg7) = (V (Proc.devRef .tc main_arg7)) :=
  (opsI_keep_main_arg7 (W8 V)).trans (val8_main_arg7 V)

theorem val9_main_arg8 (V : Valuation τ sig (Elt Ideal)) : W9 V (Proc.devRef .tc main_arg8) = (V (Proc.devRef .tc main_arg8)) :=
  (opsI_keep_main_arg8 (W8 V)).trans (val8_main_arg8 V)

theorem val10_main_v55 (V : Valuation τ sig (Elt Ideal)) : W10 V (Proc.devRef .tc main_v55) = (sIdx (V (Proc.devRef .tc main_arg2)) : IVec S850000 32) :=
  (opsJ_keep_main_v55 (W9 V)).trans (val9_main_v55 V)

theorem val10_main_v53 (V : Valuation τ sig (Elt Ideal)) : W10 V (Proc.devRef .tc main_v53) = (h2 (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) : FVec Ideal S50000x256 .f32) :=
  (opsJ_keep_main_v53 (W9 V)).trans (val9_main_v53 V)

theorem val10_main_v80 (V : Valuation τ sig (Elt Ideal)) : W10 V (Proc.devRef .tc main_v80) = (norm (V (Proc.devRef .tc main_arg2)) : FVec Ideal S850000 .f32) := by
  have h := opsJ_main_v80 (W9 V)
  rw [val9_main_v65 V, val9_main_v55 V, val9_main_v56 V] at h
  exact h

theorem val10_main_v56 (V : Valuation τ sig (Elt Ideal)) : W10 V (Proc.devRef .tc main_v56) = (dIdx (V (Proc.devRef .tc main_arg2)) : IVec S850000 32) :=
  (opsJ_keep_main_v56 (W9 V)).trans (val9_main_v56 V)

theorem val10_main_arg9 (V : Valuation τ sig (Elt Ideal)) : W10 V (Proc.devRef .tc main_arg9) = (V (Proc.devRef .tc main_arg9)) :=
  (opsJ_keep_main_arg9 (W9 V)).trans (val9_main_arg9 V)

theorem val10_main_arg10 (V : Valuation τ sig (Elt Ideal)) : W10 V (Proc.devRef .tc main_arg10) = (V (Proc.devRef .tc main_arg10)) :=
  (opsJ_keep_main_arg10 (W9 V)).trans (val9_main_arg10 V)

theorem val10_main_arg11 (V : Valuation τ sig (Elt Ideal)) : W10 V (Proc.devRef .tc main_arg11) = (V (Proc.devRef .tc main_arg11)) :=
  (opsJ_keep_main_arg11 (W9 V)).trans (val9_main_arg11 V)

theorem val10_main_arg1 (V : Valuation τ sig (Elt Ideal)) : W10 V (Proc.devRef .tc main_arg1) = (V (Proc.devRef .tc main_arg1)) :=
  (opsJ_keep_main_arg1 (W9 V)).trans (val9_main_arg1 V)

theorem val10_main_arg0 (V : Valuation τ sig (Elt Ideal)) : W10 V (Proc.devRef .tc main_arg0) = (V (Proc.devRef .tc main_arg0)) :=
  (opsJ_keep_main_arg0 (W9 V)).trans (val9_main_arg0 V)

theorem val10_main_arg4 (V : Valuation τ sig (Elt Ideal)) : W10 V (Proc.devRef .tc main_arg4) = (V (Proc.devRef .tc main_arg4)) :=
  (opsJ_keep_main_arg4 (W9 V)).trans (val9_main_arg4 V)

theorem val10_main_arg5 (V : Valuation τ sig (Elt Ideal)) : W10 V (Proc.devRef .tc main_arg5) = (V (Proc.devRef .tc main_arg5)) :=
  (opsJ_keep_main_arg5 (W9 V)).trans (val9_main_arg5 V)

theorem val10_main_arg2 (V : Valuation τ sig (Elt Ideal)) : W10 V (Proc.devRef .tc main_arg2) = (V (Proc.devRef .tc main_arg2)) :=
  (opsJ_keep_main_arg2 (W9 V)).trans (val9_main_arg2 V)

theorem val10_main_arg3 (V : Valuation τ sig (Elt Ideal)) : W10 V (Proc.devRef .tc main_arg3) = (V (Proc.devRef .tc main_arg3)) :=
  (opsJ_keep_main_arg3 (W9 V)).trans (val9_main_arg3 V)

theorem val10_main_arg6 (V : Valuation τ sig (Elt Ideal)) : W10 V (Proc.devRef .tc main_arg6) = (V (Proc.devRef .tc main_arg6)) :=
  (opsJ_keep_main_arg6 (W9 V)).trans (val9_main_arg6 V)

theorem val10_main_arg7 (V : Valuation τ sig (Elt Ideal)) : W10 V (Proc.devRef .tc main_arg7) = (V (Proc.devRef .tc main_arg7)) :=
  (opsJ_keep_main_arg7 (W9 V)).trans (val9_main_arg7 V)

theorem val10_main_arg8 (V : Valuation τ sig (Elt Ideal)) : W10 V (Proc.devRef .tc main_arg8) = (V (Proc.devRef .tc main_arg8)) :=
  (opsJ_keep_main_arg8 (W9 V)).trans (val9_main_arg8 V)

theorem val11_main_v96 (V : Valuation τ sig (Elt Ideal)) : W11 V (Proc.devRef .tc main_v96) = (x2 (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) : FVec Ideal S50000x256 .f32) := by
  have h := opsK_main_v96 (W10 V)
  rw [val10_main_v56 V, val10_main_v53 V, val10_main_v55 V, val10_main_v80 V, val10_main_arg9 V] at h
  exact h

theorem val11_main_arg10 (V : Valuation τ sig (Elt Ideal)) : W11 V (Proc.devRef .tc main_arg10) = (V (Proc.devRef .tc main_arg10)) :=
  (opsK_keep_main_arg10 (W10 V)).trans (val10_main_arg10 V)

theorem val11_main_arg11 (V : Valuation τ sig (Elt Ideal)) : W11 V (Proc.devRef .tc main_arg11) = (V (Proc.devRef .tc main_arg11)) :=
  (opsK_keep_main_arg11 (W10 V)).trans (val10_main_arg11 V)

theorem val11_main_arg1 (V : Valuation τ sig (Elt Ideal)) : W11 V (Proc.devRef .tc main_arg1) = (V (Proc.devRef .tc main_arg1)) :=
  (opsK_keep_main_arg1 (W10 V)).trans (val10_main_arg1 V)

theorem val11_main_arg0 (V : Valuation τ sig (Elt Ideal)) : W11 V (Proc.devRef .tc main_arg0) = (V (Proc.devRef .tc main_arg0)) :=
  (opsK_keep_main_arg0 (W10 V)).trans (val10_main_arg0 V)

theorem val11_main_arg4 (V : Valuation τ sig (Elt Ideal)) : W11 V (Proc.devRef .tc main_arg4) = (V (Proc.devRef .tc main_arg4)) :=
  (opsK_keep_main_arg4 (W10 V)).trans (val10_main_arg4 V)

theorem val11_main_arg5 (V : Valuation τ sig (Elt Ideal)) : W11 V (Proc.devRef .tc main_arg5) = (V (Proc.devRef .tc main_arg5)) :=
  (opsK_keep_main_arg5 (W10 V)).trans (val10_main_arg5 V)

theorem val11_main_arg2 (V : Valuation τ sig (Elt Ideal)) : W11 V (Proc.devRef .tc main_arg2) = (V (Proc.devRef .tc main_arg2)) :=
  (opsK_keep_main_arg2 (W10 V)).trans (val10_main_arg2 V)

theorem val11_main_arg3 (V : Valuation τ sig (Elt Ideal)) : W11 V (Proc.devRef .tc main_arg3) = (V (Proc.devRef .tc main_arg3)) :=
  (opsK_keep_main_arg3 (W10 V)).trans (val10_main_arg3 V)

theorem val11_main_arg6 (V : Valuation τ sig (Elt Ideal)) : W11 V (Proc.devRef .tc main_arg6) = (V (Proc.devRef .tc main_arg6)) :=
  (opsK_keep_main_arg6 (W10 V)).trans (val10_main_arg6 V)

theorem val11_main_arg7 (V : Valuation τ sig (Elt Ideal)) : W11 V (Proc.devRef .tc main_arg7) = (V (Proc.devRef .tc main_arg7)) :=
  (opsK_keep_main_arg7 (W10 V)).trans (val10_main_arg7 V)

theorem val11_main_arg8 (V : Valuation τ sig (Elt Ideal)) : W11 V (Proc.devRef .tc main_arg8) = (V (Proc.devRef .tc main_arg8)) :=
  (opsK_keep_main_arg8 (W10 V)).trans (val10_main_arg8 V)

theorem val11_main_arg9 (V : Valuation τ sig (Elt Ideal)) : W11 V (Proc.devRef .tc main_arg9) = (V (Proc.devRef .tc main_arg9)) :=
  (opsK_keep_main_arg9 (W10 V)).trans (val10_main_arg9 V)

theorem val12_main_v105 (V : Valuation τ sig (Elt Ideal)) : W12 V (Proc.devRef .tc main_v105) = (addf (F := Ideal) (φ := .f32) (Host.dotGeneral (F := Ideal) (φ₁ := .f32) (φ₂ := .f32) dot_S50000x128_S128x256_S50000x256_1_0_0_1_n_n none (subf (F := Ideal) (φ := .f32) (V (Proc.devRef .tc main_arg1) : FVec Ideal S50000x128 .f32) (V (Proc.devRef .tc main_arg0) : FVec Ideal S50000x128 .f32)) (V (Proc.devRef .tc main_arg4) : FVec Ideal S128x256 .f32)) (broadcastInDim S50000x256 ![0, 1] bcast_S1x256_S50000x256_0_1 (broadcastInDim S1x256 ![1] bcast_S256_S1x256_1 (V (Proc.devRef .tc main_arg5) : FVec Ideal S256 .f32))) : FVec Ideal S50000x256 .f32) := by
  have h := opsL_main_v105 (W11 V)
  rw [val11_main_arg1 V, val11_main_arg0 V, val11_main_arg4 V, val11_main_arg5 V] at h
  exact h

theorem val12_main_cst_21 (V : Valuation τ sig (Elt Ideal)) : W12 V (Proc.devRef .tc main_cst_21) = (constant (F := Ideal) S_ .f32 0x3C23D70A#32 : FVec Ideal S_ .f32) := by
  have h := opsL_main_cst_21 (W11 V)
  exact h

theorem val12_main_arg10 (V : Valuation τ sig (Elt Ideal)) : W12 V (Proc.devRef .tc main_arg10) = (V (Proc.devRef .tc main_arg10)) :=
  (opsL_keep_main_arg10 (W11 V)).trans (val11_main_arg10 V)

theorem val12_main_arg11 (V : Valuation τ sig (Elt Ideal)) : W12 V (Proc.devRef .tc main_arg11) = (V (Proc.devRef .tc main_arg11)) :=
  (opsL_keep_main_arg11 (W11 V)).trans (val11_main_arg11 V)

theorem val12_main_v100 (V : Valuation τ sig (Elt Ideal)) : W12 V (Proc.devRef .tc main_v100) = (xo (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) : FVec Ideal S50000x2 .f32) := by
  have h := opsL_main_v100 (W11 V)
  rw [val11_main_v96 V, val11_main_arg10 V, val11_main_arg11 V] at h
  exact h

theorem val12_main_arg0 (V : Valuation τ sig (Elt Ideal)) : W12 V (Proc.devRef .tc main_arg0) = (V (Proc.devRef .tc main_arg0)) :=
  (opsL_keep_main_arg0 (W11 V)).trans (val11_main_arg0 V)

theorem val12_main_arg1 (V : Valuation τ sig (Elt Ideal)) : W12 V (Proc.devRef .tc main_arg1) = (V (Proc.devRef .tc main_arg1)) :=
  (opsL_keep_main_arg1 (W11 V)).trans (val11_main_arg1 V)

theorem val12_main_arg2 (V : Valuation τ sig (Elt Ideal)) : W12 V (Proc.devRef .tc main_arg2) = (V (Proc.devRef .tc main_arg2)) :=
  (opsL_keep_main_arg2 (W11 V)).trans (val11_main_arg2 V)

theorem val12_main_arg3 (V : Valuation τ sig (Elt Ideal)) : W12 V (Proc.devRef .tc main_arg3) = (V (Proc.devRef .tc main_arg3)) :=
  (opsL_keep_main_arg3 (W11 V)).trans (val11_main_arg3 V)

theorem val12_main_arg4 (V : Valuation τ sig (Elt Ideal)) : W12 V (Proc.devRef .tc main_arg4) = (V (Proc.devRef .tc main_arg4)) :=
  (opsL_keep_main_arg4 (W11 V)).trans (val11_main_arg4 V)

theorem val12_main_arg5 (V : Valuation τ sig (Elt Ideal)) : W12 V (Proc.devRef .tc main_arg5) = (V (Proc.devRef .tc main_arg5)) :=
  (opsL_keep_main_arg5 (W11 V)).trans (val11_main_arg5 V)

theorem val12_main_arg6 (V : Valuation τ sig (Elt Ideal)) : W12 V (Proc.devRef .tc main_arg6) = (V (Proc.devRef .tc main_arg6)) :=
  (opsL_keep_main_arg6 (W11 V)).trans (val11_main_arg6 V)

theorem val12_main_arg7 (V : Valuation τ sig (Elt Ideal)) : W12 V (Proc.devRef .tc main_arg7) = (V (Proc.devRef .tc main_arg7)) :=
  (opsL_keep_main_arg7 (W11 V)).trans (val11_main_arg7 V)

theorem val12_main_arg8 (V : Valuation τ sig (Elt Ideal)) : W12 V (Proc.devRef .tc main_arg8) = (V (Proc.devRef .tc main_arg8)) :=
  (opsL_keep_main_arg8 (W11 V)).trans (val11_main_arg8 V)

theorem val12_main_arg9 (V : Valuation τ sig (Elt Ideal)) : W12 V (Proc.devRef .tc main_arg9) = (V (Proc.devRef .tc main_arg9)) :=
  (opsL_keep_main_arg9 (W11 V)).trans (val11_main_arg9 V)

theorem val13_main_v106 (V : Valuation τ sig (Elt Ideal)) : W13 V (Proc.devRef .tc main_v106) = (m0 (V (Proc.devRef .tc main_arg0)) (V (Proc.devRef .tc main_arg1)) (V (Proc.devRef .tc main_arg4)) (V (Proc.devRef .tc main_arg5)) : FVec Ideal S50000x256 .f32) := by
  have h := opsM_main_v106 (W12 V)
  rw [val12_main_v105 V, val12_main_cst_21 V] at h
  exact h

theorem val13_main_arg10 (V : Valuation τ sig (Elt Ideal)) : W13 V (Proc.devRef .tc main_arg10) = (V (Proc.devRef .tc main_arg10)) :=
  (opsM_keep_main_arg10 (W12 V)).trans (val12_main_arg10 V)

theorem val13_main_arg11 (V : Valuation τ sig (Elt Ideal)) : W13 V (Proc.devRef .tc main_arg11) = (V (Proc.devRef .tc main_arg11)) :=
  (opsM_keep_main_arg11 (W12 V)).trans (val12_main_arg11 V)

theorem val13_main_v100 (V : Valuation τ sig (Elt Ideal)) : W13 V (Proc.devRef .tc main_v100) = (xo (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) : FVec Ideal S50000x2 .f32) :=
  (opsM_keep_main_v100 (W12 V)).trans (val12_main_v100 V)

theorem val13_main_arg0 (V : Valuation τ sig (Elt Ideal)) : W13 V (Proc.devRef .tc main_arg0) = (V (Proc.devRef .tc main_arg0)) :=
  (opsM_keep_main_arg0 (W12 V)).trans (val12_main_arg0 V)

theorem val13_main_arg1 (V : Valuation τ sig (Elt Ideal)) : W13 V (Proc.devRef .tc main_arg1) = (V (Proc.devRef .tc main_arg1)) :=
  (opsM_keep_main_arg1 (W12 V)).trans (val12_main_arg1 V)

theorem val13_main_arg2 (V : Valuation τ sig (Elt Ideal)) : W13 V (Proc.devRef .tc main_arg2) = (V (Proc.devRef .tc main_arg2)) :=
  (opsM_keep_main_arg2 (W12 V)).trans (val12_main_arg2 V)

theorem val13_main_arg3 (V : Valuation τ sig (Elt Ideal)) : W13 V (Proc.devRef .tc main_arg3) = (V (Proc.devRef .tc main_arg3)) :=
  (opsM_keep_main_arg3 (W12 V)).trans (val12_main_arg3 V)

theorem val13_main_arg4 (V : Valuation τ sig (Elt Ideal)) : W13 V (Proc.devRef .tc main_arg4) = (V (Proc.devRef .tc main_arg4)) :=
  (opsM_keep_main_arg4 (W12 V)).trans (val12_main_arg4 V)

theorem val13_main_arg5 (V : Valuation τ sig (Elt Ideal)) : W13 V (Proc.devRef .tc main_arg5) = (V (Proc.devRef .tc main_arg5)) :=
  (opsM_keep_main_arg5 (W12 V)).trans (val12_main_arg5 V)

theorem val13_main_arg6 (V : Valuation τ sig (Elt Ideal)) : W13 V (Proc.devRef .tc main_arg6) = (V (Proc.devRef .tc main_arg6)) :=
  (opsM_keep_main_arg6 (W12 V)).trans (val12_main_arg6 V)

theorem val13_main_arg7 (V : Valuation τ sig (Elt Ideal)) : W13 V (Proc.devRef .tc main_arg7) = (V (Proc.devRef .tc main_arg7)) :=
  (opsM_keep_main_arg7 (W12 V)).trans (val12_main_arg7 V)

theorem val13_main_arg8 (V : Valuation τ sig (Elt Ideal)) : W13 V (Proc.devRef .tc main_arg8) = (V (Proc.devRef .tc main_arg8)) :=
  (opsM_keep_main_arg8 (W12 V)).trans (val12_main_arg8 V)

theorem val13_main_arg9 (V : Valuation τ sig (Elt Ideal)) : W13 V (Proc.devRef .tc main_arg9) = (V (Proc.devRef .tc main_arg9)) :=
  (opsM_keep_main_arg9 (W12 V)).trans (val12_main_arg9 V)

theorem val14_main_v111 (V : Valuation τ sig (Elt Ideal)) : W14 V (Proc.devRef .tc main_v111) = (out (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) : FVec Ideal S50000x2 .f32) := by
  have h := opsN_main_v111 (W13 V)
  rw [val13_main_v100 V, val13_main_v106 V, val13_main_arg10 V, val13_main_arg11 V] at h
  exact h

theorem val14_main_arg0 (V : Valuation τ sig (Elt Ideal)) : W14 V (Proc.devRef .tc main_arg0) = (V (Proc.devRef .tc main_arg0)) :=
  (opsN_keep_main_arg0 (W13 V)).trans (val13_main_arg0 V)

theorem val14_main_arg1 (V : Valuation τ sig (Elt Ideal)) : W14 V (Proc.devRef .tc main_arg1) = (V (Proc.devRef .tc main_arg1)) :=
  (opsN_keep_main_arg1 (W13 V)).trans (val13_main_arg1 V)

theorem val14_main_arg2 (V : Valuation τ sig (Elt Ideal)) : W14 V (Proc.devRef .tc main_arg2) = (V (Proc.devRef .tc main_arg2)) :=
  (opsN_keep_main_arg2 (W13 V)).trans (val13_main_arg2 V)

theorem val14_main_arg3 (V : Valuation τ sig (Elt Ideal)) : W14 V (Proc.devRef .tc main_arg3) = (V (Proc.devRef .tc main_arg3)) :=
  (opsN_keep_main_arg3 (W13 V)).trans (val13_main_arg3 V)

theorem val14_main_arg4 (V : Valuation τ sig (Elt Ideal)) : W14 V (Proc.devRef .tc main_arg4) = (V (Proc.devRef .tc main_arg4)) :=
  (opsN_keep_main_arg4 (W13 V)).trans (val13_main_arg4 V)

theorem val14_main_arg5 (V : Valuation τ sig (Elt Ideal)) : W14 V (Proc.devRef .tc main_arg5) = (V (Proc.devRef .tc main_arg5)) :=
  (opsN_keep_main_arg5 (W13 V)).trans (val13_main_arg5 V)

theorem val14_main_arg6 (V : Valuation τ sig (Elt Ideal)) : W14 V (Proc.devRef .tc main_arg6) = (V (Proc.devRef .tc main_arg6)) :=
  (opsN_keep_main_arg6 (W13 V)).trans (val13_main_arg6 V)

theorem val14_main_arg7 (V : Valuation τ sig (Elt Ideal)) : W14 V (Proc.devRef .tc main_arg7) = (V (Proc.devRef .tc main_arg7)) :=
  (opsN_keep_main_arg7 (W13 V)).trans (val13_main_arg7 V)

theorem val14_main_arg8 (V : Valuation τ sig (Elt Ideal)) : W14 V (Proc.devRef .tc main_arg8) = (V (Proc.devRef .tc main_arg8)) :=
  (opsN_keep_main_arg8 (W13 V)).trans (val13_main_arg8 V)

theorem val14_main_arg9 (V : Valuation τ sig (Elt Ideal)) : W14 V (Proc.devRef .tc main_arg9) = (V (Proc.devRef .tc main_arg9)) :=
  (opsN_keep_main_arg9 (W13 V)).trans (val13_main_arg9 V)

theorem val14_main_arg10 (V : Valuation τ sig (Elt Ideal)) : W14 V (Proc.devRef .tc main_arg10) = (V (Proc.devRef .tc main_arg10)) :=
  (opsN_keep_main_arg10 (W13 V)).trans (val13_main_arg10 V)

theorem val14_main_arg11 (V : Valuation τ sig (Elt Ideal)) : W14 V (Proc.devRef .tc main_arg11) = (V (Proc.devRef .tc main_arg11)) :=
  (opsN_keep_main_arg11 (W13 V)).trans (val13_main_arg11 V)

/-! ## The fold read at the result and at the arguments -/

theorem out_read (V : Valuation τ sig (Elt Ideal)) :
    after (ops (F := Ideal)) V (Proc.devRef .tc main_v111) = out (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]; exact val14_main_v111 V

theorem arg0_read (V : Valuation τ sig (Elt Ideal)) :
    after (ops (F := Ideal)) V (Proc.devRef .tc main_arg0) = V (Proc.devRef .tc main_arg0) := by
  rw [after_ops]; exact val14_main_arg0 V

theorem arg1_read (V : Valuation τ sig (Elt Ideal)) :
    after (ops (F := Ideal)) V (Proc.devRef .tc main_arg1) = V (Proc.devRef .tc main_arg1) := by
  rw [after_ops]; exact val14_main_arg1 V

theorem arg2_read (V : Valuation τ sig (Elt Ideal)) :
    after (ops (F := Ideal)) V (Proc.devRef .tc main_arg2) = V (Proc.devRef .tc main_arg2) := by
  rw [after_ops]; exact val14_main_arg2 V

theorem arg3_read (V : Valuation τ sig (Elt Ideal)) :
    after (ops (F := Ideal)) V (Proc.devRef .tc main_arg3) = V (Proc.devRef .tc main_arg3) := by
  rw [after_ops]; exact val14_main_arg3 V

theorem arg4_read (V : Valuation τ sig (Elt Ideal)) :
    after (ops (F := Ideal)) V (Proc.devRef .tc main_arg4) = V (Proc.devRef .tc main_arg4) := by
  rw [after_ops]; exact val14_main_arg4 V

theorem arg5_read (V : Valuation τ sig (Elt Ideal)) :
    after (ops (F := Ideal)) V (Proc.devRef .tc main_arg5) = V (Proc.devRef .tc main_arg5) := by
  rw [after_ops]; exact val14_main_arg5 V

theorem arg6_read (V : Valuation τ sig (Elt Ideal)) :
    after (ops (F := Ideal)) V (Proc.devRef .tc main_arg6) = V (Proc.devRef .tc main_arg6) := by
  rw [after_ops]; exact val14_main_arg6 V

theorem arg7_read (V : Valuation τ sig (Elt Ideal)) :
    after (ops (F := Ideal)) V (Proc.devRef .tc main_arg7) = V (Proc.devRef .tc main_arg7) := by
  rw [after_ops]; exact val14_main_arg7 V

theorem arg8_read (V : Valuation τ sig (Elt Ideal)) :
    after (ops (F := Ideal)) V (Proc.devRef .tc main_arg8) = V (Proc.devRef .tc main_arg8) := by
  rw [after_ops]; exact val14_main_arg8 V

theorem arg9_read (V : Valuation τ sig (Elt Ideal)) :
    after (ops (F := Ideal)) V (Proc.devRef .tc main_arg9) = V (Proc.devRef .tc main_arg9) := by
  rw [after_ops]; exact val14_main_arg9 V

theorem arg10_read (V : Valuation τ sig (Elt Ideal)) :
    after (ops (F := Ideal)) V (Proc.devRef .tc main_arg10) = V (Proc.devRef .tc main_arg10) := by
  rw [after_ops]; exact val14_main_arg10 V

theorem arg11_read (V : Valuation τ sig (Elt Ideal)) :
    after (ops (F := Ideal)) V (Proc.devRef .tc main_arg11) = V (Proc.devRef .tc main_arg11) := by
  rw [after_ops]; exact val14_main_arg11 V

/-! ## The run -/

/-- At the compiled mesh, over the extended reals, from any memory with zero counters: every weakly fair execution of
    @main terminates with the result buffer at `out` of the eleven argument arrays it reads and all twelve arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111)
          = out (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v111).trans (out_read (launchContents m c)),
      (h c main_arg0).trans (arg0_read (launchContents m c)),
      (h c main_arg1).trans (arg1_read (launchContents m c)),
      (h c main_arg2).trans (arg2_read (launchContents m c)),
      (h c main_arg3).trans (arg3_read (launchContents m c)),
      (h c main_arg4).trans (arg4_read (launchContents m c)),
      (h c main_arg5).trans (arg5_read (launchContents m c)),
      (h c main_arg6).trans (arg6_read (launchContents m c)),
      (h c main_arg7).trans (arg7_read (launchContents m c)),
      (h c main_arg8).trans (arg8_read (launchContents m c)),
      (h c main_arg9).trans (arg9_read (launchContents m c)),
      (h c main_arg10).trans (arg10_read (launchContents m c)),
      (h c main_arg11).trans (arg11_read (launchContents m c))⟩)
    (run_main m ρ)

end Cert.ReferenceIdeal.HandRun

end
-- ==== Proof.LibVecGather.lean ====
/-
  A vector gathered at a column of start indices, read at an entry: general in the two extents and the integer width.

  The gather takes single entries of a vector `[N]` at start indices laid out `[R, 1]` (what indexing a vector by an
  integer array lowers to). Entry `r` of the result is the vector at the start index `idx[r, 0]`, read signed and brought
  into `[0, N - 1]`: the start index is the only coordinate, there is no batch axis and the slice has one entry.
-/
import Idealize.ShloMosaic.PureOps.ShapeOps
import Idealize.ShloMosaic.PureOps.Dims
import Idealize.ShloMosaic.Lib.ValueIdx

noncomputable section

namespace Cert.VecGather

open Idealize.ShloMosaic Idealize.ShloMosaic.ValueIdx

section VecGather
variable {α : Type}

/-- The dimension numbers of a gather of single entries of a vector `[N]` at starts laid out `[R, 1]`. -/
abbrev dims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of the gathered vector is the vector at the start index `idx[r, 0]`, read signed and brought into
    `[0, N - 1]`. -/
theorem vec1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (dims1 N R wf) x idx (ix1 r)
      = x (ix1 (⟨min (idx (ix2 r (0 : Fin 1))).toInt.toNat (N - 1), by omega⟩ : Fin N)) := by
  unfold Host.gather
  refine congrArg x (funext fun a => Fin.ext ?_)
  match a with
  | ⟨0, _⟩ =>
    show (dims1 N R wf).start (ix1 r) idx 0 + (dims1 N R wf).batchCoord (ix1 r) 0 + (dims1 N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (dims1 N R wf).startIndexMap from List.mem_singleton.mpr rfl)]
    have hsi : (dims1 N R wf).siIdx (ix1 r) ⟨List.idxOf (0 : Fin 1) (dims1 N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end VecGather

end Cert.VecGather

end
-- ==== Proof.RefMeetsSpec.lean ====
/-
  The idealized reference program computes the specification.

  Its stages are read at an entry: a product with a weight matrix as the sum over the contracted axis, a bias vector
  broadcast down the rows as the bias at the column, the rectifier entry by entry; a gather as the table at the clamped,
  wrapped index; a scatter-add over zeros as the sum over the list entries that land on the node. The index and degree
  side is the same operations on the same edge list in both programs, so the two programs' lists and degree factors
  are the same arrays.
-/
import proofs.«128825_j43533788512795_2_alg».proof.Proof.RefStages
import proofs.«128825_j43533788512795_2_alg».proof.Proof.Spec
import proofs.«128825_j43533788512795_2_alg».proof.Proof.KernelHost
import proofs.«128825_j43533788512795_2_alg».proof.Proof.LibDenseLayer
import proofs.«128825_j43533788512795_2_alg».proof.Proof.LibScatterAddRows
import proofs.«128825_j43533788512795_2_alg».proof.Proof.LibRowGather
import proofs.«128825_j43533788512795_2_alg».proof.Proof.LibVecGather
import proofs.«128825_j43533788512795_2_alg».proof.Proof.LibBroadcast

noncomputable section

open scoped BigOperators

namespace Cert.ReferenceIdeal.MeetsSpec

open Cert.ReferenceIdeal Cert.ReferenceIdeal.Gen Cert.ReferenceIdeal.HandRun
open Cert.KernelIdeal.GraphOps Cert.MatProd Cert.Gcn Cert.Spec
open Idealize.ShloMosaic Idealize.ShloMosaic.ValueIdx

/-! ## The index and degree side is shared -/

theorem dIdx_eq (a2 : IVec S2x800000 32) : HandRun.dIdx a2 = Cert.KernelIdeal.Stages.dIdx a2 := rfl
theorem sNorm_eq (a2 : IVec S2x800000 32) : HandRun.sNorm a2 = Cert.KernelIdeal.Stages.sNorm a2 := rfl
theorem dNorm_eq (a2 : IVec S2x800000 32) : HandRun.dNorm a2 = Cert.KernelIdeal.HostVal.sNormOf (Cert.KernelIdeal.Stages.dIdx a2) := rfl
theorem refDis_eq (a2 : IVec S2x800000 32) : HandRun.dis a2 = Cert.KernelIdeal.Stages.dis a2 := rfl

/-! ## The dense layers -/

theorem hd_in : dot_S50000x128_S128x256_S50000x256_1_0_0_1_n_n = DotDims.plain 50000 128 256 := rfl
theorem hd_mid : dot_S50000x256_S256x256_S50000x256_1_0_0_1_n_n = DotDims.plain 50000 256 256 := rfl
theorem hd_out : dot_S50000x256_S256x2_S50000x2_1_0_0_1_n_n = DotDims.plain 50000 256 2 := rfl

/-- The called rectifier, entry by entry. -/
theorem lrelu_apply (y : FVec Ideal S50000x256 .f32) (i : S50000x256.Idx) :
    lrelu y (constant (F := Ideal) S_ .f32 0x3C23D70A#32) i = leaky (y i) := rfl

/-- A rectified dense layer of the reference is the specification's. -/
theorem dense_eq (A : FVec Ideal S50000x128 .f32) (a4 : FVec Ideal S128x256 .f32) (a5 : FVec Ideal S256 .f32) :
    lrelu (addf (F := Ideal) (Host.dotGeneral (F := Ideal) dot_S50000x128_S128x256_S50000x256_1_0_0_1_n_n none A a4)
        (broadcastInDim S50000x256 ![0, 1] bcast_S1x256_S50000x256_0_1 (broadcastInDim S1x256 ![1] bcast_S256_S1x256_1 a5)))
      (constant (F := Ideal) S_ .f32 0x3C23D70A#32) = dense A a4 a5 := by
  funext y
  obtain ⟨i, c, rfl⟩ : ∃ (i : Fin 50000) (c : Fin 256), y = ix2 i c := ⟨y 0, y 1, eq_ix2 y⟩
  rw [lrelu_apply, Cert.DenseLayer.host_affine _ hd_in A a4 a5 bcast_S256_S1x256_1 bcast_S1x256_S50000x256_0_1 i c]
  rfl

theorem x0_eq (a0 : FVec Ideal S50000x128 .f32) (a4 : FVec Ideal S128x256 .f32) (a5 : FVec Ideal S256 .f32) :
    x0 a0 a4 a5 = X0 a0 a4 a5 := dense_eq a0 a4 a5

theorem m0_eq (a0 a1 : FVec Ideal S50000x128 .f32) (a4 : FVec Ideal S128x256 .f32) (a5 : FVec Ideal S256 .f32) :
    m0 a0 a1 a4 a5 = M0 a0 a1 a4 a5 := dense_eq (subf (F := Ideal) a1 a0) a4 a5

/-! ## One convolution -/

/-- A signed index word brought into the node range. -/
def clampIdx (w : BitVec 32) : Fin 50000 := ⟨min w.toInt.toNat 49999, by omega⟩

theorem srcOf_eq (a2 : IVec S2x800000 32) (e : Fin 850000) :
    srcOf a2 e = clampIdx (Cert.KernelIdeal.Stages.sNorm a2 (ix1 e)) := rfl
theorem dstOf_eq (a2 : IVec S2x800000 32) (e : Fin 850000) :
    dstOf a2 e = clampIdx (Cert.KernelIdeal.HostVal.sNormOf (Cert.KernelIdeal.Stages.dIdx a2) (ix1 e)) := rfl

/-- Single entries of a vector over the nodes gathered at a list of indices: the vector at the clamped index. -/
theorem vecGather_apply (d : FVec Ideal S50000 .f32) (s : IVec S850000 32) (e : Fin 850000) :
    Host.gather gather_S50000_S850000x1_S850000_n_0_n_n_0_1_1 d (broadcastInDim S850000x1 ![0] bcast_S850000_S850000x1_0 s) (ix1 e)
      = d (ix1 (clampIdx (s (ix1 e)))) := by
  rw [show gather_S50000_S850000x1_S850000_n_0_n_n_0_1_1
      = Cert.VecGather.dims1 50000 850000 gather_S50000_S850000x1_S850000_n_0_n_n_0_1_1_wf from rfl,
    Cert.VecGather.vec1_apply (by norm_num)]
  refine congrArg (fun k => d (ix1 k)) (Fin.ext ?_)
  show min (broadcastInDim S850000x1 ![0] bcast_S850000_S850000x1_0 s (ix2 e 0)).toInt.toNat (50000 - 1) = min (s (ix1 e)).toInt.toNat 49999
  rw [Cert.Layout.col_of_vec_apply]

/-- Whole rows of a node array gathered at a list of indices: the array's row at the clamped index. -/
theorem rowGather_apply (h : FVec Ideal S50000x256 .f32) (s : IVec S850000 32) (e : Fin 850000) (c : Fin 256) :
    Host.gather gather_S50000x256_S850000x1_S850000x256_1_0_n_n_0_1_1256 h
        (broadcastInDim S850000x1 ![0] bcast_S850000_S850000x1_0 s) (ix2 e c)
      = h (ix2 (clampIdx (s (ix1 e))) c) := by
  rw [show gather_S50000x256_S850000x1_S850000x256_1_0_n_n_0_1_1256
      = Cert.RowGather.dims2 50000 256 850000 gather_S50000x256_S850000x1_S850000x256_1_0_n_n_0_1_1256_wf from rfl,
    Cert.RowGather.rows2_apply (by norm_num)]
  refine congrArg (fun k => h (ix2 k c)) (Fin.ext ?_)
  show min (broadcastInDim S850000x1 ![0] bcast_S850000_S850000x1_0 s (ix2 e 0)).toInt.toNat (50000 - 1) = min (s (ix1 e)).toInt.toNat 49999
  rw [Cert.Layout.col_of_vec_apply]

/-- The edge weight at a list entry: the degree factors at the entry's source and at its wrapped target. -/
theorem norm_apply (a2 : IVec S2x800000 32) (e : Fin 850000) :
    norm a2 (ix1 e) = Cert.KernelIdeal.Stages.dis a2 (ix1 (srcOf a2 e)) * Cert.KernelIdeal.Stages.dis a2 (ix1 (dstOf a2 e)) := by
  unfold HandRun.norm
  rw [mulf_apply, vecGather_apply, vecGather_apply, refDis_eq, sNorm_eq, dNorm_eq, ← srcOf_eq, ← dstOf_eq]

/-- One message entry: the source's row entry times the edge weight. -/
theorem msg_apply (a2 : IVec S2x800000 32) (h : FVec Ideal S50000x256 .f32) (e : Fin 850000) (c : Fin 256) :
    msg a2 h (ix2 e c) = h (ix2 (srcOf a2 e) c)
      * (Cert.KernelIdeal.Stages.dis a2 (ix1 (srcOf a2 e)) * Cert.KernelIdeal.Stages.dis a2 (ix1 (dstOf a2 e))) := by
  unfold HandRun.msg
  rw [mulf_apply, rowGather_apply, Cert.Layout.cols_of_col_apply, Cert.Layout.col_of_vec_apply, norm_apply, sNorm_eq, ← srcOf_eq]

/-- One convolution of the reference is the specification's. -/
theorem conv_eq (a2 : IVec S2x800000 32) (h : FVec Ideal S50000x256 .f32) (b : FVec Ideal S256 .f32) :
    HandRun.conv a2 h b = Cert.Spec.conv a2 h b := by
  funext y
  obtain ⟨n, c, rfl⟩ : ∃ (n : Fin 50000) (c : Fin 256), y = ix2 n c := ⟨y 0, y 1, eq_ix2 y⟩
  unfold HandRun.conv
  rw [addf_apply, Cert.Layout.rows_of_vec_apply]
  unfold HandRun.agg
  rw [show scatter_S50000x256_S850000x1_S850000x256_1_0_0_1
      = LibScatterAddRows.rowDims 50000 850000 256 scatter_S50000x256_S850000x1_S850000x256_1_0_0_1_wf from rfl,
    LibScatterAddRows.scatterAdd_rows, Cert.Layout.splat_apply]
  show _ = (Ideal.ofBits .f32 0x00000000#32
      + ∑ e : Fin 850000, if tgtOf a2 e = (n.val : Int)
          then h (ix2 (srcOf a2 e) c) * (Cert.KernelIdeal.Stages.dis a2 (ix1 (srcOf a2 e)) * Cert.KernelIdeal.Stages.dis a2 (ix1 (dstOf a2 e))) else 0)
    + b (ix1 c)
  refine congrArg (· + b (ix1 c)) (congrArg (Ideal.ofBits .f32 0x00000000#32 + ·) (Finset.sum_congr rfl fun e _ => ?_))
  rw [Cert.Layout.col_of_vec_apply, dIdx_eq, msg_apply]
  rfl

/-! ## The whole program -/

/-- A host product whose dimension record is the plain one is the product. -/
theorem hostProd_eq {M K N : Nat} {φ₁ φ₂ : FTy} (d : DotDims ⟨2, ![M, K]⟩ ⟨2, ![K, N]⟩ ⟨2, ![M, N]⟩) (hd : d = DotDims.plain M K N)
    (A : FVec Ideal ⟨2, ![M, K]⟩ φ₁) (W : FVec Ideal ⟨2, ![K, N]⟩ φ₂) :
    Host.dotGeneral (F := Ideal) d none A W = prod A W := by
  subst hd
  exact dotGeneral_plain_eq none .single A W

variable (a0 a1 : FVec Ideal S50000x128 .f32) (a2 : IVec S2x800000 32) (a4 : FVec Ideal S128x256 .f32) (a5 : FVec Ideal S256 .f32)
  (a6 : FVec Ideal S256x256 .f32) (a7 : FVec Ideal S256 .f32) (a8 : FVec Ideal S256x256 .f32) (a9 : FVec Ideal S256 .f32)
  (a10 : FVec Ideal S256x2 .f32) (a11 : FVec Ideal S2 .f32)

theorem h1_eq : h1 a0 a4 a5 a6 = prod (X0 a0 a4 a5) a6 := by
  unfold HandRun.h1
  rw [hostProd_eq _ hd_mid, x0_eq]

theorem x1_eq : x1 a0 a2 a4 a5 a6 a7 = X1 a0 a2 a4 a5 a6 a7 := by
  unfold HandRun.x1 Cert.Spec.X1
  rw [conv_eq, h1_eq]

theorem h2_eq : h2 a0 a2 a4 a5 a6 a7 a8 = prod (X1 a0 a2 a4 a5 a6 a7) a8 := by
  unfold HandRun.h2
  rw [hostProd_eq _ hd_mid, x1_eq]

theorem x2_eq : x2 a0 a2 a4 a5 a6 a7 a8 a9 = X2 a0 a2 a4 a5 a6 a7 a8 a9 := by
  unfold HandRun.x2 Cert.Spec.X2
  rw [conv_eq, h2_eq]

/-- The output layer at an entry. -/
theorem outLayer_apply (A : FVec Ideal S50000x256 .f32) (i : Fin 50000) (j : Fin 2) :
    addf (F := Ideal) (Host.dotGeneral (F := Ideal) dot_S50000x256_S256x2_S50000x2_1_0_0_1_n_n none A a10)
        (broadcastInDim S50000x2 ![0, 1] bcast_S1x2_S50000x2_0_1 (broadcastInDim S1x2 ![1] bcast_S2_S1x2_1 a11)) (ix2 i j)
      = prod A a10 (ix2 i j) + a11 (ix1 j) :=
  Cert.DenseLayer.host_affine _ hd_out A a10 a11 bcast_S2_S1x2_1 bcast_S1x2_S50000x2_0_1 i j

theorem xo_apply (i : Fin 50000) (j : Fin 2) :
    xo a0 a2 a4 a5 a6 a7 a8 a9 a10 a11 (ix2 i j) = prod (X2 a0 a2 a4 a5 a6 a7 a8 a9) a10 (ix2 i j) + a11 (ix1 j) := by
  unfold HandRun.xo
  rw [outLayer_apply, x2_eq]

theorem mo_apply (i : Fin 50000) (j : Fin 2) :
    mo a0 a1 a4 a5 a10 a11 (ix2 i j) = prod (M0 a0 a1 a4 a5) a10 (ix2 i j) + a11 (ix1 j) := by
  unfold HandRun.mo
  rw [outLayer_apply, m0_eq]

/-- THE REFERENCE PROGRAM'S RESULT IS THE SPECIFICATION. -/
theorem out_eq : HandRun.out a0 a1 a2 a4 a5 a6 a7 a8 a9 a10 a11 = Cert.Spec.out a0 a1 a2 a4 a5 a6 a7 a8 a9 a10 a11 := by
  funext y
  obtain ⟨i, j, rfl⟩ : ∃ (i : Fin 50000) (j : Fin 2), y = ix2 i j := ⟨y 0, y 1, eq_ix2 y⟩
  unfold HandRun.out
  rw [mulf_apply, xo_apply, mo_apply]
  rfl

end Cert.ReferenceIdeal.MeetsSpec

end
-- ==== Proof.lean ====
/-
  The certificate of a two-layer graph convolution between dense layers, computed by four kernels, against its
  array-language reference.

  Both idealized programs compute ONE function of the argument arrays, the specification `Cert.Spec.out`: a rectified
  dense layer, two convolution layers (per target node, the sum over the edge list's entries that target it of the
  source's row weighted by the degree factors of both ends, plus a bias), an output projection, gated by the same
  projection of the rectified difference branch. The reference spells the edge weight out per entry; the kernels scale
  a node's row by its own factor before the rows are gathered and summed, and the sum by the target's factor after. A
  degree factor is a non-negative number that is not +inf — it is the inverse square root of a count where the count is
  positive and zero elsewhere — so multiplying by it distributes over the sum on the extended reals, whatever the
  other entries are. A change of float format is the identity there, and the zero columns that pad the output weight
  never reach the two columns the result keeps.

  The kernel program's run is its generated frame's launch with the result buffer read off the last segment boundary;
  the fold through the fifteen segments is walked forward to the function `outK`, which is the specification. The
  reference's run is its host operations as one line, read stage by stage to `out`, which is the specification.
-/
import proofs.«128825_j43533788512795_2_alg».proof.Defs
import proofs.«128825_j43533788512795_2_alg».proof.Proof.Gen.Kernel
import proofs.«128825_j43533788512795_2_alg».proof.Proof.Gen.Kernel.Frame
import proofs.«128825_j43533788512795_2_alg».proof.Proof.Gen.KernelIdeal
import proofs.«128825_j43533788512795_2_alg».proof.Proof.Gen.KernelIdeal.Frame
import proofs.«128825_j43533788512795_2_alg».proof.Proof.Gen.ReferenceIdeal
import proofs.«128825_j43533788512795_2_alg».proof.Proof.Gen.Pre_finite_inputs
import proofs.«128825_j43533788512795_2_alg».proof.Proof.KernelRun
import proofs.«128825_j43533788512795_2_alg».proof.Proof.KernelFold
import proofs.«128825_j43533788512795_2_alg».proof.Proof.KernelMeetsSpec
import proofs.«128825_j43533788512795_2_alg».proof.Proof.RefRun
import proofs.«128825_j43533788512795_2_alg».proof.Proof.RefMeetsSpec
import Idealize.ShloMosaic.Adequacy
import Idealize.ShloMosaic.Init

noncomputable section

namespace Cert.Proof

open Idealize.ShloMosaic Idealize.SL.Sem

/-- The two idealized programs, run from memories that agree on the arguments, both end with the specification of the
    kernel program's arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans ((Cert.KernelIdeal.Fold.result_eq m ρ c).trans (Cert.KernelIdeal.MeetsSpec.outK_eq _ _ _ _ _ _ _ _ _ _ _)), (h c).2⟩)
      (Cert.KernelIdeal.RunVal.run_val (F := Ideal) m ρ)
  · refine (θ_run Cert.ReferenceIdeal.defs _ _).mono (fun r h c => ⟨(h c).1.trans ?_, (h c).2⟩)
      (Cert.ReferenceIdeal.HandRun.run m' ρ')
    obtain ⟨h0, h1, h2, h3, h4, h5, h6, h7, h8, h9, h10, h11⟩ := hagree c
    rw [h0, h1, h2, h4, h5, h6, h7, h8, h9, h10, h11]
    exact Cert.ReferenceIdeal.MeetsSpec.out_eq _ _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.HandRun.run m ρ),
  trivial,
  algebraic⟩

end Cert.Proof

end
